-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8192x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S8192x512 : Shape := ⟨2, ![8192, 512]⟩
abbrev S512x512 : Shape := ⟨2, ![512, 512]⟩
abbrev S512 : Shape := ⟨1, ![512]⟩
abbrev S512x1536 : Shape := ⟨2, ![512, 1536]⟩
abbrev S1536 : Shape := ⟨1, ![1536]⟩
abbrev S1024x512 : Shape := ⟨2, ![1024, 512]⟩
abbrev S1024x1536 : Shape := ⟨2, ![1024, 1536]⟩
abbrev S1x1536 : Shape := ⟨2, ![1, 1536]⟩
abbrev S2048x512 : Shape := ⟨2, ![2048, 512]⟩
abbrev S2048x1 : Shape := ⟨2, ![2048, 1]⟩
abbrev S512x1024 : Shape := ⟨2, ![512, 1024]⟩
abbrev S2048x1024 : Shape := ⟨2, ![2048, 1024]⟩
abbrev S2048 : Shape := ⟨1, ![2048]⟩

abbrev nBuf : Space → Nat
  | .hbm => 16
  | .vmem => 21
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x1536, .f32⟩
  | .hbm, ⟨11, _⟩ => ⟨S1536, .f32⟩
  | .hbm, ⟨12, _⟩ => ⟨S8192x512, .bf16⟩
  | .hbm, ⟨13, _⟩ => ⟨S8192x512, .bf16⟩
  | .hbm, ⟨14, _⟩ => ⟨S8192x512, .bf16⟩
  | .hbm, ⟨15, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x1536, .f32⟩
  | .local _ .vmem, ⟨3, _⟩ => ⟨S1536, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S2048x512, .bf16⟩
  | .local _ .vmem, ⟨11, _⟩ => ⟨S2048x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S2048x512, .f32⟩
  | .local _ .vmem, ⟨17, _⟩ => ⟨S2048x512, .f32⟩
  | .local _ .vmem, ⟨18, _⟩ => ⟨S2048x1, .f32⟩
  | .local _ .vmem, ⟨19, _⟩ => ⟨S2048x1, .f32⟩
  | .local _ .vmem, ⟨20, _⟩ => ⟨S2048x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v43 : BitVec 1 := Scalar.cmpi .eq arg1 c7_i32
  let v44 : BitVec 32 := Scalar.extui v43
  let c0_i32_24 : BitVec 32 := 0#32
  let v45 : BitVec 1 := Scalar.cmpi .ne v44 c0_i32_24
  v45

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  transposes_S512x512_S512x512_1_0 : S512x512.Transposes [1, 0] S512x512
  concatenates_S512x512_S512x512_S512x512_S512x1536_d1 : Shape.Concatenates [S512x512, S512x512, S512x512] S512x1536 1
  concatenates_S512_S512_S512_S1536_d0 : Shape.Concatenates [S512, S512, S512] S1536 0
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536_S1536_0 : ∀ a, (![0] : Fin 1 → Nat) a + S1536.size a ≤ S1536.size a
  h_S1536 : 0 < S1536.numel
  shapeCasts_S1536_S1536 : S1536.ShapeCasts S1536
  shapeCasts_S1536_S1x1536 : S1536.ShapeCasts S1x1536
  broadcasts_S1x1536_S1024x1536 : S1x1536.Broadcasts S1024x1536
  slices_S1024x1536_o0_0_S1024x512 : S1024x1536.Slices ![0, 0] S1024x512
  packedbf16_S1024x512_S1024x512_0_0 : (Rect.unit (s := S1024x512) ![0, 0] S1024x512.size inb_S1024x512_S1024x512_0_0).PackedRows (EltTy.packing .bf16)
  slices_S1024x1536_o0_512_S1024x512 : S1024x1536.Slices ![0, 512] S1024x512
  slices_S1024x1536_o0_1024_S1024x512 : S1024x1536.Slices ![0, 1024] S1024x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S1024x512_S1024x512 : S1024x512.ShapeCasts S1024x512
  transposes_S1024x512_p1_0_S512x1024 : S1024x512.Transposes [1, 0] S512x1024
  reduces_S2048x1024_S2048 : S2048x1024.Reduces [1] S2048
  shapeCasts_S2048_S2048x1 : S2048.ShapeCasts S2048x1
  broadcasts_S2048x1_S2048x1024 : S2048x1.Broadcasts S2048x1024
  broadcasts_S2048x1_S2048x512 : S2048x1.Broadcasts S2048x512
  dot_S1024x512_S512x1536_S1024x1536_1_0_0_1_n_n_wf : DotDims.WF S1024x512 S512x1536 S1024x1536 [1] [0] [0] [1] [] []
  dot_S2048x512_S512x1024_S2048x1024_1_0_0_1_n_n_wf : DotDims.WF S2048x512 S512x1024 S2048x1024 [1] [0] [0] [1] [] []
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .f32 = 32 ∨ (Rect.block (s := S512x1536) S512x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536.size a ≤ S1536.size a
  hwx0_2 : ∀ i : grid0.Coords, EltTy.bits .f32 = 32 ∨ (Rect.block (s := S1536) S1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x512.size a
  hwx0_4 : ∀ i : grid0.Coords, EltTy.bits .bf16 = 32 ∨ (Rect.block (s := S8192x512) S1024x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x512.size a
  hwx0_5 : ∀ i : grid0.Coords, EltTy.bits .bf16 = 32 ∨ (Rect.block (s := S8192x512) S1024x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x512.size a
  hwx1_0 : ∀ i : grid1.Coords, EltTy.bits .bf16 = 32 ∨ (Rect.block (s := S8192x512) S2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .bf16 = 32 ∨ (Rect.block (s := S8192x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .bf16 = 32 ∨ (Rect.block (s := S8192x512) S1024x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S8192x512.size a
  hwx1_3 : ∀ i : grid1.Coords, EltTy.bits .f32 = 32 ∨ (Rect.block (s := S8192x512) S2048x512.size (cc1_transform_3 i) (hinb1_3 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5_0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_2) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S512x512 : Shape := ⟨2, ![512, 512]⟩
abbrev S512 : Shape := ⟨1, ![512]⟩
abbrev S1x512 : Shape := ⟨2, ![1, 512]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S8192x512, .f32⟩
  | .hbm, ⟨9, _⟩ => ⟨S1x512, .f32⟩
  | .hbm, ⟨10, _⟩ => ⟨S8192x512, .f32⟩
  | .hbm, ⟨11, _⟩ => ⟨S8192x512, .f32⟩
  | .hbm, ⟨12, _⟩ => ⟨S512x512, .f32⟩
  | .hbm, ⟨13, _⟩ => ⟨S8192x512, .f32⟩
  | .hbm, ⟨14, _⟩ => ⟨S1x512, .f32⟩
  | .hbm, ⟨15, _⟩ => ⟨S8192x512, .f32⟩
  | .hbm, ⟨16, _⟩ => ⟨S8192x512, .f32⟩
  | .hbm, ⟨17, _⟩ => ⟨S512x512, .f32⟩
  | .hbm, ⟨18, _⟩ => ⟨S8192x512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x512_S512x512_S8192x512_1_0_0_1_n_n_wf : DotDims.WF S8192x512 S512x512 S8192x512 [1] [0] [0] [1] [] []
  dot_S8192x512_S8192x512_S8192x8192_1_1_0_0_n_n_wf : DotDims.WF S8192x512 S8192x512 S8192x8192 [1] [1] [0] [0] [] []
  dot_S8192x8192_S8192x512_S8192x512_1_0_0_1_n_n_wf : DotDims.WF S8192x8192 S8192x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.KRegion0.lean ====
/- Region 0 of the program: the fused projection kernel on a grid of 8 row blocks.  Each point reads a
   [1024,512] block of rows, the whole [512,1536] weight and the whole [1536] bias, and stores three
   [1024,512] blocks: the three 512-column slices of (rows · weight + bias).  This file states, at an
   arbitrary content V of the core's buffers on entry, what the body leaves in each staging buffer at a
   point, and proves the body's separation-logic triple and the pipeline's body obligation. -/
import proofs.«176492_j72395968741836_2_alg».proof.Proof.Gen.Kernel.Launch
import proofs.«176492_j72395968741836_2_alg».proof.Proof.Gen.Kernel.Skeleton
import proofs.«176492_j72395968741836_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block input's current staging buffer holds its block at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight's staging buffer (fetched at the first point only: its block index never moves) holds the
    whole weight at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias's staging buffer likewise holds the whole bias at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole buffer -/

abbrev r0_0 : Rect S1024x512 := Rect.unit (s := S1024x512) ![0, 0] S1024x512.size inb_S1024x512_S1024x512_0_0
abbrev r0_1 : Rect S512x1536 := Rect.unit (s := S512x1536) ![0, 0] S512x1536.size inb_S512x1536_S512x1536_0_0
abbrev r0_2 : Rect S1536 := Rect.unit (s := S1536) ![0] S1536.size inb_S1536_S1536_0

/-! ## What the body leaves in each output window's buffer -/

/-- The first output's staging buffer after the body: one whole-buffer store of columns 0..511 of
    (rows · weight + bias). -/
def out0_3 (x0 : Vec F S1024x512 .f32) (x1 : Vec F S512x1536 .f32) (x2 : Vec F S1536 .f32) : Vec F S1024x512 .bf16 :=
  View.canon [⟨r0_0, k0_pay2 (View.ld x0 r0_0) (View.ld x1 r0_1) (View.ld x2 r0_2)⟩]
/-- The second output's: columns 512..1023. -/
def out0_4 (x0 : Vec F S1024x512 .f32) (x1 : Vec F S512x1536 .f32) (x2 : Vec F S1536 .f32) : Vec F S1024x512 .bf16 :=
  View.canon [⟨r0_0, k0_pay3 (View.ld x0 r0_0) (View.ld x1 r0_1) (View.ld x2 r0_2)⟩]
/-- The third output's: columns 1024..1535. -/
def out0_5 (x0 : Vec F S1024x512 .f32) (x1 : Vec F S512x1536 .f32) (x2 : Vec F S1536 .f32) : Vec F S1024x512 .bf16 :=
  View.canon [⟨r0_0, k0_pay4 (View.ld x0 r0_0) (View.ld x1 r0_1) (View.ld x2 r0_2)⟩]

/-- A single whole-buffer store covers the buffer. -/
theorem cover0_3 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

/-! ## The body's triple -/

set_option maxHeartbeats 1000000 in
/-- The kernel body on whole staging memrefs, the inputs' at read contents and the outputs' at anything (each
    output buffer is loaded once, the value unused, before it is overwritten whole), runs to the continuation
    holding the inputs' as they were and each output's at `out0_W` of the inputs'. -/
theorem sound_kernel0 (c : Dev nD) (E : Set ℕ) (i : grid0.Coords) (arg1 : Memref sig .tc .vmem S1024x512 .f32) (harg1 : arg1.IsWhole) (arg2 : Memref sig .tc .vmem S512x1536 .f32) (harg2 : arg2.IsWhole) (arg3 : Memref sig .tc .vmem S1536 .f32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole)
    (x0 : Vec F S1024x512 .f32) (x1 : Vec F S512x1536 .f32) (x2 : Vec F S1536 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__qkv_proj_kernel i arg1 harg1 arg2 harg2 arg3 harg3 arg4 harg4 arg5 harg5 arg6 harg6) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_3 _)
  iexists _; isplitr
  swap; · iexact H5
  ipureintro
  exact View.read_writes_eq_canon _ _ _ (cover0_3 _)

/-! ## The pipeline's proof data -/

/-- The proof data of the projection pipeline on core `c`: the arrays as the region finds them (`V`); after
    the body at point `t` each input's buffer at its block and each output's at `out0_W` of the input blocks;
    the untouched rest as invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant
    and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.KRegion1.lean ====
/-
  The attention region (the second pallas_call), at a parameter `V`: the TensorCore's buffer contents when the region
  is entered.  Its grid is 4 x 8: point t = 8·i + j works on query block i (2048 rows) and key/value block j (1024 rows).
  The body keeps three scratch buffers between points — the running row maximum, the running denominator and the
  running numerator —, resets them when j = 0 and writes the quotient numerator / denominator to the output block
  when j = 7.  This module holds what the three control cases share: the blocks the windows read, the two branch
  conditions in closed form over the grid, where the output window is idle, and the scratch buffers as memrefs.
-/
import proofs.«176492_j72395968741836_2_alg».proof.Proof.Gen.Kernel.Launch
import proofs.«176492_j72395968741836_2_alg».proof.Proof.Gen.Kernel.Skeleton
import proofs.«176492_j72395968741836_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point, fetched there or not (it is fetched when j = 0
    and its block index does not move with j). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value window's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- "This is the first key block" (j = 0): the reset of the three scratch buffers is taken. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key block" (j = 7): the output block is written. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where j ≠ 7 the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where j = 7 it is live. -/
theorem liveAt1_3 : ∀ t : Fin cfg1.N, cond1_1 (grid1.coords t) → cfg1.idle 3 (grid1.coords t) = false := by decide +kernel

/-! ## The staging and scratch memrefs -/

/-- One staging buffer of the output window, through which its contents are stated. -/
abbrev VO1_3 : View sig .tc .vmem S2048x512 .f32 := (Memref.whole cc1_stg3_0 : Memref sig .tc .vmem S2048x512 .f32).view
abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x512 .f32 := win1_3.stage (cfg1.slots t 3)
abbrev hs1_3 (t : Fin cfg1.N) : (ms1_3 t).IsWhole := hstage1_3 ((cfg1.slots t 3).cast nbuf1_3)
/-- The running maximum, the running denominator and the running numerator. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x512 .f32 := Memref.whole cc1_scratch2
abbrev VS1_0 : View sig .tc .vmem S2048x1 .f32 := scM1_0.view
abbrev VS1_1 : View sig .tc .vmem S2048x1 .f32 := scM1_1.view
abbrev VS1_2 : View sig .tc .vmem S2048x512 .f32 := scM1_2.view

/-- The scoped buffers of the other region (its ten staging buffers), each whole at some contents, in front of `T`:
    they ride along untouched. -/
def withOthers (c : Dev nD) (T : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ T)

/-- The ten staging buffers of the other region by themselves. -/
def others (c : Dev nD) : sProp 𝕄 := withOthers c iprop(emp)

theorem withOthers_split (c : Dev nD) (T : sProp 𝕄) : withOthers c T ⊢ iprop(others c ∗ T) := by
  unfold others withOthers
  iintro ⟨H0, H1, H2, H3, H4, H5, H6, H7, H8, H9, HT⟩
  isplitr [HT]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iempintro
  iexact HT

theorem withOthers_join (c : Dev nD) (T : sProp 𝕄) : iprop(others c ∗ T) ⊢ withOthers c T := by
  unfold others withOthers
  iintro ⟨⟨H0, H1, H2, H3, H4, H5, H6, H7, H8, H9, -⟩, HT⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HT

/-- The region's class invariant with the three scratch buffers as memrefs owned at some contents. -/
theorem PhiA1_eq (c : Dev nD) :
    (Pipeline.ΦA spec1 c : sProp 𝕄)
      = iprop(withOthers c iprop((∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA withOthers; rw [scopedRest1_eq]; simp only [scM1_0, scM1_1, scM1_2, owns_whole]; try rfl

end Cert.Kernel.R1

end
-- ==== Proof.KRun1A.lean ====
/-
  The attention body run whole in the case j = 0 (the scratch buffers are reset first; the output block is not written):
  on whole staging memrefs holding the three input blocks, the body runs to its end holding the inputs as they were
  and each buffer it stored into with its stores written, as lists of pieces the symbolic run finds.
-/
import proofs.«176492_j72395968741836_2_alg».proof.Proof.KRegion1

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond1_0 i) (hc1 : ¬cond1_1 i)
    (x0 : Vec F S2048x512 .bf16) (x1 : Vec F S1024x512 .bf16) (x2 : Vec F S1024x512 .bf16) :
    Σ' (L3 : List (View.Piece (Elt F) S2048x512 .f32)) (LS0 : List (View.Piece (Elt F) S2048x1 .f32)) (LS1 : List (View.Piece (Elt F) S2048x1 .f32)), { LS2 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.R1

end
-- ==== Proof.KRun1B.lean ====
/-
  The attention body run whole in the case 0 < j < 7 (no reset; the output block is not written):
  on whole staging memrefs holding the three input blocks and the scratch buffers at the contents the point before left, the body runs to its end holding the inputs as they were
  and each buffer it stored into with its stores written, as lists of pieces the symbolic run finds.
-/
import proofs.«176492_j72395968741836_2_alg».proof.Proof.KRegion1

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) :
    Σ' (L3 : List (View.Piece (Elt F) S2048x512 .f32)) (LS0 : List (View.Piece (Elt F) S2048x1 .f32)) (LS1 : List (View.Piece (Elt F) S2048x1 .f32)), { LS2 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.R1

end
-- ==== Proof.KRun1C.lean ====
/-
  The attention body run whole in the case j = 7 (no reset; the quotient is written to the output block):
  on whole staging memrefs holding the three input blocks and the scratch buffers at the contents the point before left, the body runs to its end holding the inputs as they were
  and each buffer it stored into with its stores written, as lists of pieces the symbolic run finds.
-/
import proofs.«176492_j72395968741836_2_alg».proof.Proof.KRegion1

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) :
    Σ' (L3 : List (View.Piece (Elt F) S2048x512 .f32)) (LS0 : List (View.Piece (Elt F) S2048x1 .f32)) (LS1 : List (View.Piece (Elt F) S2048x1 .f32)), { LS2 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.R1

end
-- ==== Proof.KRegion1Dat.lean ====
/-
  The attention region's proof data: what the output window's buffer and the three scratch buffers (running maximum,
  running denominator, running numerator) hold after each of the 32 points, by recursion on the point — the case j = 0
  starts from the reset values, the other cases from what the point before left —, the region invariant that carries the
  scratch contents from point to point, and the body obligation at every point from the three whole-body runs.
-/
import proofs.«176492_j72395968741836_2_alg».proof.Proof.KRun1A
import proofs.«176492_j72395968741836_2_alg».proof.Proof.KRun1B
import proofs.«176492_j72395968741836_2_alg».proof.Proof.KRun1C

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Case A -/

/-- What case A leaves in the output window's staging buffer (nothing is stored: a placeholder nothing consults, the window being idle). -/
def out1_A_3 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond1_0 i) (hc1 : ¬cond1_1 i)
    (x0 : Vec F S2048x512 .bf16) (x1 : Vec F S1024x512 .bf16) (x2 : Vec F S1024x512 .bf16) : Vec F S2048x512 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)

/-- Case A's stores into scratch 0 cover it. -/
theorem scover1_A_0 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond1_0 i) (hc1 : ¬cond1_1 i)
    (x0 : Vec F S2048x512 .bf16) (x1 : Vec F S1024x512 .bf16) (x2 : Vec F S1024x512 .bf16) (y : S2048x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S2048x1.size (by sl_kernel_rfl) y

/-- What case A leaves in scratch 0: its stores read back. -/
def sout1_A_0 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond1_0 i) (hc1 : ¬cond1_1 i)
    (x0 : Vec F S2048x512 .bf16) (x1 : Vec F S1024x512 .bf16) (x2 : Vec F S1024x512 .bf16) : Vec F S2048x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

/-- Case A's stores into scratch 1 cover it. -/
theorem scover1_A_1 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond1_0 i) (hc1 : ¬cond1_1 i)
    (x0 : Vec F S2048x512 .bf16) (x1 : Vec F S1024x512 .bf16) (x2 : Vec F S1024x512 .bf16) (y : S2048x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S2048x1.size (by sl_kernel_rfl) y

/-- What case A leaves in scratch 1: its stores read back. -/
def sout1_A_1 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond1_0 i) (hc1 : ¬cond1_1 i)
    (x0 : Vec F S2048x512 .bf16) (x1 : Vec F S1024x512 .bf16) (x2 : Vec F S1024x512 .bf16) : Vec F S2048x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

/-- Case A's stores into scratch 2 cover it. -/
theorem scover1_A_2 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond1_0 i) (hc1 : ¬cond1_1 i)
    (x0 : Vec F S2048x512 .bf16) (x1 : Vec F S1024x512 .bf16) (x2 : Vec F S1024x512 .bf16) (y : S2048x512.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S2048x512.size (by sl_kernel_rfl) y

/-- What case A leaves in scratch 2: its stores read back. -/
def sout1_A_2 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond1_0 i) (hc1 : ¬cond1_1 i)
    (x0 : Vec F S2048x512 .bf16) (x1 : Vec F S1024x512 .bf16) (x2 : Vec F S1024x512 .bf16) : Vec F S2048x512 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-! ## Case B -/

/-- What case B leaves in the output window's staging buffer (nothing is stored: a placeholder nothing consults, the window being idle). -/
def out1_B_3 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) : Vec F S2048x512 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)

/-- Case B's stores into scratch 0 cover it. -/
theorem scover1_B_0 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) (y : S2048x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S2048x1.size (by sl_kernel_rfl) y

/-- What case B leaves in scratch 0: its stores read back. -/
def sout1_B_0 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) : Vec F S2048x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)

/-- Case B's stores into scratch 1 cover it. -/
theorem scover1_B_1 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) (y : S2048x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S2048x1.size (by sl_kernel_rfl) y

/-- What case B leaves in scratch 1: its stores read back. -/
def sout1_B_1 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) : Vec F S2048x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)

/-- Case B's stores into scratch 2 cover it. -/
theorem scover1_B_2 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) (y : S2048x512.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S2048x512.size (by sl_kernel_rfl) y

/-- What case B leaves in scratch 2: its stores read back. -/
def sout1_B_2 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) : Vec F S2048x512 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-! ## Case C -/

/-- In case C the one store into the output block covers it. -/
theorem cover1_C_3 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) (y : S2048x512.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S2048x512.size (by sl_kernel_rfl) y

/-- What case C leaves in the output window's staging buffer: its store read back. -/
def out1_C_3 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) : Vec F S2048x512 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- Case C's stores into scratch 0 cover it. -/
theorem scover1_C_0 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) (y : S2048x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S2048x1.size (by sl_kernel_rfl) y

/-- What case C leaves in scratch 0: its stores read back. -/
def sout1_C_0 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) : Vec F S2048x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- Case C's stores into scratch 1 cover it. -/
theorem scover1_C_1 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) (y : S2048x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S2048x1.size (by sl_kernel_rfl) y

/-- What case C leaves in scratch 1: its stores read back. -/
def sout1_C_1 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) : Vec F S2048x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- Case C's stores into scratch 2 cover it. -/
theorem scover1_C_2 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) (y : S2048x512.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S2048x512.size (by sl_kernel_rfl) y

/-- What case C leaves in scratch 2: its stores read back. -/
def sout1_C_2 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) : Vec F S2048x512 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-! ## What the output buffer and the three scratch buffers hold after each point -/

/-- A point of case A (j = 0). -/
def atA (c : Dev nD) (t : Fin cfg1.N) (h0 : t.val % 8 = 0) (h1 : ¬t.val % 8 = 7) : Vec F S2048x512 .f32 × Vec F S2048x1 .f32 × Vec F S2048x1 .f32 × Vec F S2048x512 .f32 :=
  (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))
/-- A point of case B (0 < j < 7), over what the point before left in the scratch buffers. -/
def atB (c : Dev nD) (t : Fin cfg1.N) (h0 : ¬t.val % 8 = 0) (h1 : ¬t.val % 8 = 7) (p : Vec F S2048x512 .f32 × Vec F S2048x1 .f32 × Vec F S2048x1 .f32 × Vec F S2048x512 .f32) : Vec F S2048x512 .f32 × Vec F S2048x1 .f32 × Vec F S2048x1 .f32 × Vec F S2048x512 .f32 :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2)
/-- A point of case C (j = 7), over what the point before left in the scratch buffers. -/
def atC (c : Dev nD) (t : Fin cfg1.N) (h0 : ¬t.val % 8 = 0) (h1 : t.val % 8 = 7) (p : Vec F S2048x512 .f32 × Vec F S2048x1 .f32 × Vec F S2048x1 .f32 × Vec F S2048x512 .f32) : Vec F S2048x512 .f32 × Vec F S2048x1 .f32 × Vec F S2048x1 .f32 × Vec F S2048x512 .f32 :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2)

/-- THE ACCUMULATION: the output window's buffer and the three scratch buffers after the body at position `n`, by recursion on
    the position: the case the closed forms select there, run on the point's input blocks and on the scratch contents the
    position before left. -/
def outsAt1 (c : Dev nD) : (n : ℕ) → n < cfg1.N → Vec F S2048x512 .f32 × Vec F S2048x1 .f32 × Vec F S2048x1 .f32 × Vec F S2048x512 .f32
  | 0, hn => atA V c ⟨0, hn⟩ (Nat.zero_mod _) (fun h => absurd (show (0 : ℕ) % 8 = 7 from h) (by decide))
  | n + 1, hn =>
    if h0 : (n + 1) % 8 = 0 then
      if h1 : (n + 1) % 8 = 7 then False.elim (by omega)
      else atA V c ⟨n + 1, hn⟩ h0 h1
    else
      if h1 : (n + 1) % 8 = 7 then atC V c ⟨n + 1, hn⟩ h0 h1 (outsAt1 c n (Nat.lt_of_succ_lt hn))
      else atB V c ⟨n + 1, hn⟩ h0 h1 (outsAt1 c n (Nat.lt_of_succ_lt hn))

theorem outsAt1_A (c : Dev nD) (t : Fin cfg1.N) (h0 : t.val % 8 = 0) (h1 : ¬t.val % 8 = 7) :
    outsAt1 V c t.val t.isLt = atA V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = atB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = atC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The region invariant before position `n`: before the first point the class's (every scratch at anything); afterwards the
    three scratch buffers at what the point before left in them, the other region's staging buffers and the generator register
    riding along. -/
def PhiS (c : Dev nD) : (n : ℕ) → n ≤ cfg1.N → sProp 𝕄
  | 0, _ => Pipeline.ΦA spec1 c
  | n + 1, hn => iprop(withOthers c iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(withOthers c iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

theorem PhiS_pos (c : Dev nD) (n : ℕ) (h : n ≤ cfg1.N) (hz : n ≠ 0) :
    PhiS V c n h = iprop(withOthers c iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The pipeline's proof data -/

/-- The proof data of the attention pipeline on core `c`: the arrays as the region finds them; after the body each input's
    buffer at its block and the output's at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the scratch buffers at what the point before left (at anything at the first point, and the
    case j = 0 overwrites them whatever they hold) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold atA sout1_A_0 sout1_A_1 sout1_A_2; (try dsimp only)
    by_cases hz : t.val = 0
    · rw [PhiS_castSucc V c t, PhiS_zero V c _ _ hz, PhiA1_eq]
      iintro ⟨⟨HW, Hg⟩, Ho, ⟨%d0, H0⟩, ⟨%d1, H1⟩, ⟨%d2, H2⟩, ⟨%d3, H3⟩⟩
      ihave HW' := (withOthers_split c _) $$ HW
      icases HW' with ⟨Hoth, HS0, HS1, HS2⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hoth HS0 HS1 HS2 Hg]
      · isplitl [Hoth HS0 HS1 HS2]
        · iapply (withOthers_join c _)
          isplitl [Hoth]; · iexact Hoth
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HW, Hg⟩, Ho, ⟨%d0, H0⟩, ⟨%d1, H1⟩, ⟨%d2, H2⟩, ⟨%d3, H3⟩⟩
      ihave HW' := (withOthers_split c _) $$ HW
      icases HW' with ⟨Hoth, HS0, HS1, HS2⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Hoth HS0 HS1 HS2 Hg]
      · isplitl [Hoth HS0 HS1 HS2]
        · iapply (withOthers_join c _)
          isplitl [Hoth]; · iexact Hoth
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold atC out1_C_3 sout1_C_0 sout1_C_1 sout1_C_2; (try dsimp only)
      rw [PhiS_castSucc V c t, PhiS_pos V c _ _ hz]
      iintro ⟨⟨HW, Hg⟩, Ho, ⟨%d0, H0⟩, ⟨%d1, H1⟩, ⟨%d2, H2⟩, ⟨%d3, H3⟩⟩
      ihave HW' := (withOthers_split c _) $$ HW
      icases HW' with ⟨Hoth, HS0, HS1, HS2⟩
      iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [Hoth HS0 HS1 HS2 Hg]
      · isplitl [Hoth HS0 HS1 HS2]
        · iapply (withOthers_join c _)
          isplitl [Hoth]; · iexact Hoth
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold atB sout1_B_0 sout1_B_1 sout1_B_2; (try dsimp only)
      rw [PhiS_castSucc V c t, PhiS_pos V c _ _ hz]
      iintro ⟨⟨HW, Hg⟩, Ho, ⟨%d0, H0⟩, ⟨%d1, H1⟩, ⟨%d2, H2⟩, ⟨%d3, H3⟩⟩
      ihave HW' := (withOthers_split c _) $$ HW
      icases HW' with ⟨Hoth, HS0, HS1, HS2⟩
      iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hoth HS0 HS1 HS2 Hg]
      · isplitl [Hoth HS0 HS1 HS2]
        · iapply (withOthers_join c _)
          isplitl [Hoth]; · iexact Hoth
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch buffers' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨HW, Hg⟩
  ihave HW' := (withOthers_split c _) $$ HW
  icases HW' with ⟨Hoth, HS0, HS1, HS2⟩
  isplitl [Hoth HS0 HS1 HS2]
  · iapply (withOthers_join c _)
    isplitl [Hoth]; · iexact Hoth
    isplitl [HS0]; · iexists _; iexact HS0
    isplitl [HS1]; · iexists _; iexact HS1
    iexists _; iexact HS2
  iexact Hg

end Cert.Kernel.R1

end
-- ==== Proof.KRunMain.lean ====
/-
  The kernel program run whole: the host prefix (three transposes and two concatenations), the projection region and the
  attention region as the launch theorem's three segments.  The buffer contents at each segment boundary are a fold from
  the launch memory: after the host prefix; after the projection region (its three output arrays at what its eight
  write-backs leave); after the attention region (the result array at what its four write-backs leave).  Every weakly
  fair execution terminates, without a fault, in a state whose unscoped buffers hold the last boundary's contents; the
  frame claim (the seven arguments unchanged) and the result array's contents are read off that.
-/
import proofs.«176492_j72395968741836_2_alg».proof.Proof.KRegion0
import proofs.«176492_j72395968741836_2_alg».proof.Proof.KRegion1Dat
import proofs.«176492_j72395968741836_2_alg».proof.Proof.Gen.Kernel.Regions

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the host prefix (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the attention region's exit. -/
def W3 (c : Dev nD) : Valuation τ sig (Elt F) :=
  Pipeline.withArrays spec1 c (W2 m c) fun w => (R1.dat1 (V2 m) c).arrAt w cfg1.N
theorem W3_arr (c : Dev nD) (w : Fin cfg1.W) :
    W3 m c (Proc.devRef .tc (Pipeline.arrRef spec1 w)) = (R1.dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (R1.dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

/-- The attention region's invariant before its first point, from the scoped rest and the generator register. -/
theorem hin1' (c : Dev nD) : iprop(Pipeline.scopedRest (Ix := Unit) (Name := ℕ) (U := UR sig nD τ) (Lvl := ℕ) (Val := Elt F) spec1 c ∗ ∃ r, prngReg c r) ⊢ (R1.dat1 (V2 m) c).Φ 0 :=
  R1.hin1 (V2 m) c
/-- After its last point the invariant gives them back. -/
theorem hout1' (c : Dev nD) : (R1.dat1 (V2 m) c).Φ (Fin.last cfg1.N) ⊢ iprop(Pipeline.scopedRest (Ix := Unit) (Name := ℕ) (U := UR sig nD τ) (Lvl := ℕ) (Val := Elt F) spec1 c ∗ ∃ r, prngReg c r) :=
  R1.hout1 (V2 m) c

set_option backward.isDefEq.respectTransparency.types false in
/-- The projection region over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (R1.dat1 (V2 m) c).Φ 0 from rfl]
    iintro ⟨Hp, -, Hr⟩
    iapply (hin1' m c)
    isplitl [Hr]; · iexact Hr
    iexact Hp
  hout c := by
    rw [Pipeline.ownSems0_none, show (pdats m 1 c).Φ (Fin.last _) = (R1.dat1 (V2 m) c).Φ (Fin.last cfg1.N) from rfl]
    iintro Hinv
    ihave Hinv' := (hout1' m c) $$ Hinv
    icases Hinv' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and every
    final state holds each unscoped buffer at the last boundary's contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched -/

theorem W1_of_arg (c : Dev nD) (r : Ref sig .tc) (h : r ∉ hostOps0_W) : W1 m c (Proc.devRef .tc r) = m ((c : Thread nD τ).loc r) :=
  (V1_of m c r h).trans rfl

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((R0.dat0 (V1 m) c).arrAt_in 0 rfl _).trans (R0.A_eq0 (V1 m) c 0))
    _ = m ((c : Thread nD τ).loc main_arg0) := W1_of_arg m c main_arg0 (by decide)

theorem W3_other (c : Dev nD) (r : Ref sig .tc) (h1 : ∀ w, Pipeline.arrRef spec1 w ≠ r) (h0 : ∀ w, Pipeline.arrRef spec0 w ≠ r) (h : r ∉ hostOps0_W) :
    W3 m c (Proc.devRef .tc r) = m ((c : Thread nD τ).loc r) :=
  (W3_of_ne m c r h1).trans ((W2_of_ne m c r h0).trans (W1_of_arg m c r h))

/-- THE FRAME at any `F`: every weakly fair execution terminates and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_main_arg0 m c),
     (h c _ (mem_uc main_arg1 (by decide))).trans (W3_other m c main_arg1 (by decide) (by decide) (by decide)),
     (h c _ (mem_uc main_arg2 (by decide))).trans (W3_other m c main_arg2 (by decide) (by decide) (by decide)),
     (h c _ (mem_uc main_arg3 (by decide))).trans (W3_other m c main_arg3 (by decide) (by decide) (by decide)),
     (h c _ (mem_uc main_arg4 (by decide))).trans (W3_other m c main_arg4 (by decide) (by decide) (by decide)),
     (h c _ (mem_uc main_arg5 (by decide))).trans (W3_other m c main_arg5 (by decide) (by decide) (by decide)),
     (h c _ (mem_uc main_arg6 (by decide))).trans (W3_other m c main_arg6 (by decide) (by decide) (by decide))⟩) (run m ρ)

/-- The result array after the run is what the attention region's four write-backs leave. -/
theorem run_value : θ_run defs (onTc (τ := τ) (main (F := F))) ⟨m, fun _ => 0, ρ⟩ (fun r => ∀ c : Dev nD,
      r.2.mem ((c.tc : Thread nD τ).loc main_v6) = (R1.dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v6 (by decide))).trans (W3_arr m c 3),
     (h c _ (mem_uc main_arg0 (by decide))).trans (W3_main_arg0 m c),
     (h c _ (mem_uc main_arg1 (by decide))).trans (W3_other m c main_arg1 (by decide) (by decide) (by decide)),
     (h c _ (mem_uc main_arg2 (by decide))).trans (W3_other m c main_arg2 (by decide) (by decide) (by decide)),
     (h c _ (mem_uc main_arg3 (by decide))).trans (W3_other m c main_arg3 (by decide) (by decide) (by decide)),
     (h c _ (mem_uc main_arg4 (by decide))).trans (W3_other m c main_arg4 (by decide) (by decide) (by decide)),
     (h c _ (mem_uc main_arg5 (by decide))).trans (W3_other m c main_arg5 (by decide) (by decide) (by decide)),
     (h c _ (mem_uc main_arg6 (by decide))).trans (W3_other m c main_arg6 (by decide) (by decide) (by decide))⟩) (run m ρ)

end Cert.Kernel.H

end
-- ==== Proof.KIRegion0.lean ====
/- Region 0 of the program: the fused projection kernel on a grid of 8 row blocks.  Each point reads a
   [1024,512] block of rows, the whole [512,1536] weight and the whole [1536] bias, and stores three
   [1024,512] blocks: the three 512-column slices of (rows · weight + bias).  This file states, at an
   arbitrary content V of the core's buffers on entry, what the body leaves in each staging buffer at a
   point, and proves the body's separation-logic triple and the pipeline's body obligation. -/
import proofs.«176492_j72395968741836_2_alg».proof.Proof.Gen.KernelIdeal.Launch
import proofs.«176492_j72395968741836_2_alg».proof.Proof.Gen.KernelIdeal.Skeleton
import proofs.«176492_j72395968741836_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block input's current staging buffer holds its block at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight's staging buffer (fetched at the first point only: its block index never moves) holds the
    whole weight at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias's staging buffer likewise holds the whole bias at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole buffer -/

abbrev r0_0 : Rect S1024x512 := Rect.unit (s := S1024x512) ![0, 0] S1024x512.size inb_S1024x512_S1024x512_0_0
abbrev r0_1 : Rect S512x1536 := Rect.unit (s := S512x1536) ![0, 0] S512x1536.size inb_S512x1536_S512x1536_0_0
abbrev r0_2 : Rect S1536 := Rect.unit (s := S1536) ![0] S1536.size inb_S1536_S1536_0

/-! ## What the body leaves in each output window's buffer -/

/-- The first output's staging buffer after the body: one whole-buffer store of columns 0..511 of
    (rows · weight + bias). -/
def out0_3 (x0 : Vec F S1024x512 .f32) (x1 : Vec F S512x1536 .f32) (x2 : Vec F S1536 .f32) : Vec F S1024x512 .bf16 :=
  View.canon [⟨r0_0, k0_pay2 (View.ld x0 r0_0) (View.ld x1 r0_1) (View.ld x2 r0_2)⟩]
/-- The second output's: columns 512..1023. -/
def out0_4 (x0 : Vec F S1024x512 .f32) (x1 : Vec F S512x1536 .f32) (x2 : Vec F S1536 .f32) : Vec F S1024x512 .bf16 :=
  View.canon [⟨r0_0, k0_pay3 (View.ld x0 r0_0) (View.ld x1 r0_1) (View.ld x2 r0_2)⟩]
/-- The third output's: columns 1024..1535. -/
def out0_5 (x0 : Vec F S1024x512 .f32) (x1 : Vec F S512x1536 .f32) (x2 : Vec F S1536 .f32) : Vec F S1024x512 .bf16 :=
  View.canon [⟨r0_0, k0_pay4 (View.ld x0 r0_0) (View.ld x1 r0_1) (View.ld x2 r0_2)⟩]

/-- A single whole-buffer store covers the buffer. -/
theorem cover0_3 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

/-! ## The body's triple -/

set_option maxHeartbeats 1000000 in
/-- The kernel body on whole staging memrefs, the inputs' at read contents and the outputs' at anything (each
    output buffer is loaded once, the value unused, before it is overwritten whole), runs to the continuation
    holding the inputs' as they were and each output's at `out0_W` of the inputs'. -/
theorem sound_kernel0 (c : Dev nD) (E : Set ℕ) (i : grid0.Coords) (arg1 : Memref sig .tc .vmem S1024x512 .f32) (harg1 : arg1.IsWhole) (arg2 : Memref sig .tc .vmem S512x1536 .f32) (harg2 : arg2.IsWhole) (arg3 : Memref sig .tc .vmem S1536 .f32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole)
    (x0 : Vec F S1024x512 .f32) (x1 : Vec F S512x1536 .f32) (x2 : Vec F S1536 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__qkv_proj_kernel i arg1 harg1 arg2 harg2 arg3 harg3 arg4 harg4 arg5 harg5 arg6 harg6) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_3 _)
  iexists _; isplitr
  swap; · iexact H5
  ipureintro
  exact View.read_writes_eq_canon _ _ _ (cover0_3 _)

/-! ## The pipeline's proof data -/

/-- The proof data of the projection pipeline on core `c`: the arrays as the region finds them (`V`); after
    the body at point `t` each input's buffer at its block and each output's at `out0_W` of the input blocks;
    the untouched rest as invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant
    and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.KIRegion1.lean ====
/-
  The attention region (the second pallas_call), at a parameter `V`: the TensorCore's buffer contents when the region
  is entered.  Its grid is 4 x 8: point t = 8·i + j works on query block i (2048 rows) and key/value block j (1024 rows).
  The body keeps three scratch buffers between points — the running row maximum, the running denominator and the
  running numerator —, resets them when j = 0 and writes the quotient numerator / denominator to the output block
  when j = 7.  This module holds what the three control cases share: the blocks the windows read, the two branch
  conditions in closed form over the grid, where the output window is idle, and the scratch buffers as memrefs.
-/
import proofs.«176492_j72395968741836_2_alg».proof.Proof.Gen.KernelIdeal.Launch
import proofs.«176492_j72395968741836_2_alg».proof.Proof.Gen.KernelIdeal.Skeleton
import proofs.«176492_j72395968741836_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point, fetched there or not (it is fetched when j = 0
    and its block index does not move with j). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value window's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- "This is the first key block" (j = 0): the reset of the three scratch buffers is taken. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key block" (j = 7): the output block is written. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where j ≠ 7 the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where j = 7 it is live. -/
theorem liveAt1_3 : ∀ t : Fin cfg1.N, cond1_1 (grid1.coords t) → cfg1.idle 3 (grid1.coords t) = false := by decide +kernel

/-! ## The staging and scratch memrefs -/

/-- One staging buffer of the output window, through which its contents are stated. -/
abbrev VO1_3 : View sig .tc .vmem S2048x512 .f32 := (Memref.whole cc1_stg3_0 : Memref sig .tc .vmem S2048x512 .f32).view
abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x512 .f32 := win1_3.stage (cfg1.slots t 3)
abbrev hs1_3 (t : Fin cfg1.N) : (ms1_3 t).IsWhole := hstage1_3 ((cfg1.slots t 3).cast nbuf1_3)
/-- The running maximum, the running denominator and the running numerator. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x512 .f32 := Memref.whole cc1_scratch2
abbrev VS1_0 : View sig .tc .vmem S2048x1 .f32 := scM1_0.view
abbrev VS1_1 : View sig .tc .vmem S2048x1 .f32 := scM1_1.view
abbrev VS1_2 : View sig .tc .vmem S2048x512 .f32 := scM1_2.view

/-- The scoped buffers of the other region (its ten staging buffers), each whole at some contents, in front of `T`:
    they ride along untouched. -/
def withOthers (c : Dev nD) (T : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ T)

/-- The ten staging buffers of the other region by themselves. -/
def others (c : Dev nD) : sProp 𝕄 := withOthers c iprop(emp)

theorem withOthers_split (c : Dev nD) (T : sProp 𝕄) : withOthers c T ⊢ iprop(others c ∗ T) := by
  unfold others withOthers
  iintro ⟨H0, H1, H2, H3, H4, H5, H6, H7, H8, H9, HT⟩
  isplitr [HT]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iempintro
  iexact HT

theorem withOthers_join (c : Dev nD) (T : sProp 𝕄) : iprop(others c ∗ T) ⊢ withOthers c T := by
  unfold others withOthers
  iintro ⟨⟨H0, H1, H2, H3, H4, H5, H6, H7, H8, H9, -⟩, HT⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HT

/-- The region's class invariant with the three scratch buffers as memrefs owned at some contents. -/
theorem PhiA1_eq (c : Dev nD) :
    (Pipeline.ΦA spec1 c : sProp 𝕄)
      = iprop(withOthers c iprop((∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA withOthers; rw [scopedRest1_eq]; simp only [scM1_0, scM1_1, scM1_2, owns_whole]; try rfl

end Cert.KernelIdeal.R1

end
-- ==== Proof.KIRun1A.lean ====
/-
  The attention body run whole in the case j = 0 (the scratch buffers are reset first; the output block is not written):
  on whole staging memrefs holding the three input blocks, the body runs to its end holding the inputs as they were
  and each buffer it stored into with its stores written, as lists of pieces the symbolic run finds.
-/
import proofs.«176492_j72395968741836_2_alg».proof.Proof.KIRegion1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond1_0 i) (hc1 : ¬cond1_1 i)
    (x0 : Vec F S2048x512 .bf16) (x1 : Vec F S1024x512 .bf16) (x2 : Vec F S1024x512 .bf16) :
    Σ' (L3 : List (View.Piece (Elt F) S2048x512 .f32)) (LS0 : List (View.Piece (Elt F) S2048x1 .f32)) (LS1 : List (View.Piece (Elt F) S2048x1 .f32)), { LS2 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.R1

end
-- ==== Proof.KIRun1B.lean ====
/-
  The attention body run whole in the case 0 < j < 7 (no reset; the output block is not written):
  on whole staging memrefs holding the three input blocks and the scratch buffers at the contents the point before left, the body runs to its end holding the inputs as they were
  and each buffer it stored into with its stores written, as lists of pieces the symbolic run finds.
-/
import proofs.«176492_j72395968741836_2_alg».proof.Proof.KIRegion1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) :
    Σ' (L3 : List (View.Piece (Elt F) S2048x512 .f32)) (LS0 : List (View.Piece (Elt F) S2048x1 .f32)) (LS1 : List (View.Piece (Elt F) S2048x1 .f32)), { LS2 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.R1

end
-- ==== Proof.KIRun1C.lean ====
/-
  The attention body run whole in the case j = 7 (no reset; the quotient is written to the output block):
  on whole staging memrefs holding the three input blocks and the scratch buffers at the contents the point before left, the body runs to its end holding the inputs as they were
  and each buffer it stored into with its stores written, as lists of pieces the symbolic run finds.
-/
import proofs.«176492_j72395968741836_2_alg».proof.Proof.KIRegion1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) :
    Σ' (L3 : List (View.Piece (Elt F) S2048x512 .f32)) (LS0 : List (View.Piece (Elt F) S2048x1 .f32)) (LS1 : List (View.Piece (Elt F) S2048x1 .f32)), { LS2 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.R1

end
-- ==== Proof.KIRegion1Dat.lean ====
/-
  The attention region's proof data: what the output window's buffer and the three scratch buffers (running maximum,
  running denominator, running numerator) hold after each of the 32 points, by recursion on the point — the case j = 0
  starts from the reset values, the other cases from what the point before left —, the region invariant that carries the
  scratch contents from point to point, and the body obligation at every point from the three whole-body runs.
-/
import proofs.«176492_j72395968741836_2_alg».proof.Proof.KIRun1A
import proofs.«176492_j72395968741836_2_alg».proof.Proof.KIRun1B
import proofs.«176492_j72395968741836_2_alg».proof.Proof.KIRun1C

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Case A -/

/-- What case A leaves in the output window's staging buffer (nothing is stored: a placeholder nothing consults, the window being idle). -/
def out1_A_3 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond1_0 i) (hc1 : ¬cond1_1 i)
    (x0 : Vec F S2048x512 .bf16) (x1 : Vec F S1024x512 .bf16) (x2 : Vec F S1024x512 .bf16) : Vec F S2048x512 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)

/-- Case A's stores into scratch 0 cover it. -/
theorem scover1_A_0 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond1_0 i) (hc1 : ¬cond1_1 i)
    (x0 : Vec F S2048x512 .bf16) (x1 : Vec F S1024x512 .bf16) (x2 : Vec F S1024x512 .bf16) (y : S2048x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S2048x1.size (by sl_kernel_rfl) y

/-- What case A leaves in scratch 0: its stores read back. -/
def sout1_A_0 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond1_0 i) (hc1 : ¬cond1_1 i)
    (x0 : Vec F S2048x512 .bf16) (x1 : Vec F S1024x512 .bf16) (x2 : Vec F S1024x512 .bf16) : Vec F S2048x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

/-- Case A's stores into scratch 1 cover it. -/
theorem scover1_A_1 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond1_0 i) (hc1 : ¬cond1_1 i)
    (x0 : Vec F S2048x512 .bf16) (x1 : Vec F S1024x512 .bf16) (x2 : Vec F S1024x512 .bf16) (y : S2048x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S2048x1.size (by sl_kernel_rfl) y

/-- What case A leaves in scratch 1: its stores read back. -/
def sout1_A_1 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond1_0 i) (hc1 : ¬cond1_1 i)
    (x0 : Vec F S2048x512 .bf16) (x1 : Vec F S1024x512 .bf16) (x2 : Vec F S1024x512 .bf16) : Vec F S2048x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

/-- Case A's stores into scratch 2 cover it. -/
theorem scover1_A_2 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond1_0 i) (hc1 : ¬cond1_1 i)
    (x0 : Vec F S2048x512 .bf16) (x1 : Vec F S1024x512 .bf16) (x2 : Vec F S1024x512 .bf16) (y : S2048x512.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S2048x512.size (by sl_kernel_rfl) y

/-- What case A leaves in scratch 2: its stores read back. -/
def sout1_A_2 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond1_0 i) (hc1 : ¬cond1_1 i)
    (x0 : Vec F S2048x512 .bf16) (x1 : Vec F S1024x512 .bf16) (x2 : Vec F S1024x512 .bf16) : Vec F S2048x512 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-! ## Case B -/

/-- What case B leaves in the output window's staging buffer (nothing is stored: a placeholder nothing consults, the window being idle). -/
def out1_B_3 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) : Vec F S2048x512 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)

/-- Case B's stores into scratch 0 cover it. -/
theorem scover1_B_0 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) (y : S2048x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S2048x1.size (by sl_kernel_rfl) y

/-- What case B leaves in scratch 0: its stores read back. -/
def sout1_B_0 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) : Vec F S2048x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)

/-- Case B's stores into scratch 1 cover it. -/
theorem scover1_B_1 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) (y : S2048x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S2048x1.size (by sl_kernel_rfl) y

/-- What case B leaves in scratch 1: its stores read back. -/
def sout1_B_1 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) : Vec F S2048x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)

/-- Case B's stores into scratch 2 cover it. -/
theorem scover1_B_2 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) (y : S2048x512.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S2048x512.size (by sl_kernel_rfl) y

/-- What case B leaves in scratch 2: its stores read back. -/
def sout1_B_2 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) : Vec F S2048x512 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-! ## Case C -/

/-- In case C the one store into the output block covers it. -/
theorem cover1_C_3 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) (y : S2048x512.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S2048x512.size (by sl_kernel_rfl) y

/-- What case C leaves in the output window's staging buffer: its store read back. -/
def out1_C_3 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) : Vec F S2048x512 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- Case C's stores into scratch 0 cover it. -/
theorem scover1_C_0 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) (y : S2048x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S2048x1.size (by sl_kernel_rfl) y

/-- What case C leaves in scratch 0: its stores read back. -/
def sout1_C_0 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) : Vec F S2048x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- Case C's stores into scratch 1 cover it. -/
theorem scover1_C_1 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) (y : S2048x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S2048x1.size (by sl_kernel_rfl) y

/-- What case C leaves in scratch 1: its stores read back. -/
def sout1_C_1 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) : Vec F S2048x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- Case C's stores into scratch 2 cover it. -/
theorem scover1_C_2 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) (y : S2048x512.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S2048x512.size (by sl_kernel_rfl) y

/-- What case C leaves in scratch 2: its stores read back. -/
def sout1_C_2 (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) : Vec F S2048x512 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-! ## What the output buffer and the three scratch buffers hold after each point -/

/-- A point of case A (j = 0). -/
def atA (c : Dev nD) (t : Fin cfg1.N) (h0 : t.val % 8 = 0) (h1 : ¬t.val % 8 = 7) : Vec F S2048x512 .f32 × Vec F S2048x1 .f32 × Vec F S2048x1 .f32 × Vec F S2048x512 .f32 :=
  (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))
/-- A point of case B (0 < j < 7), over what the point before left in the scratch buffers. -/
def atB (c : Dev nD) (t : Fin cfg1.N) (h0 : ¬t.val % 8 = 0) (h1 : ¬t.val % 8 = 7) (p : Vec F S2048x512 .f32 × Vec F S2048x1 .f32 × Vec F S2048x1 .f32 × Vec F S2048x512 .f32) : Vec F S2048x512 .f32 × Vec F S2048x1 .f32 × Vec F S2048x1 .f32 × Vec F S2048x512 .f32 :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2)
/-- A point of case C (j = 7), over what the point before left in the scratch buffers. -/
def atC (c : Dev nD) (t : Fin cfg1.N) (h0 : ¬t.val % 8 = 0) (h1 : t.val % 8 = 7) (p : Vec F S2048x512 .f32 × Vec F S2048x1 .f32 × Vec F S2048x1 .f32 × Vec F S2048x512 .f32) : Vec F S2048x512 .f32 × Vec F S2048x1 .f32 × Vec F S2048x1 .f32 × Vec F S2048x512 .f32 :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2)

/-- THE ACCUMULATION: the output window's buffer and the three scratch buffers after the body at position `n`, by recursion on
    the position: the case the closed forms select there, run on the point's input blocks and on the scratch contents the
    position before left. -/
def outsAt1 (c : Dev nD) : (n : ℕ) → n < cfg1.N → Vec F S2048x512 .f32 × Vec F S2048x1 .f32 × Vec F S2048x1 .f32 × Vec F S2048x512 .f32
  | 0, hn => atA V c ⟨0, hn⟩ (Nat.zero_mod _) (fun h => absurd (show (0 : ℕ) % 8 = 7 from h) (by decide))
  | n + 1, hn =>
    if h0 : (n + 1) % 8 = 0 then
      if h1 : (n + 1) % 8 = 7 then False.elim (by omega)
      else atA V c ⟨n + 1, hn⟩ h0 h1
    else
      if h1 : (n + 1) % 8 = 7 then atC V c ⟨n + 1, hn⟩ h0 h1 (outsAt1 c n (Nat.lt_of_succ_lt hn))
      else atB V c ⟨n + 1, hn⟩ h0 h1 (outsAt1 c n (Nat.lt_of_succ_lt hn))

theorem outsAt1_A (c : Dev nD) (t : Fin cfg1.N) (h0 : t.val % 8 = 0) (h1 : ¬t.val % 8 = 7) :
    outsAt1 V c t.val t.isLt = atA V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = atB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = atC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The region invariant before position `n`: before the first point the class's (every scratch at anything); afterwards the
    three scratch buffers at what the point before left in them, the other region's staging buffers and the generator register
    riding along. -/
def PhiS (c : Dev nD) : (n : ℕ) → n ≤ cfg1.N → sProp 𝕄
  | 0, _ => Pipeline.ΦA spec1 c
  | n + 1, hn => iprop(withOthers c iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(withOthers c iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

theorem PhiS_pos (c : Dev nD) (n : ℕ) (h : n ≤ cfg1.N) (hz : n ≠ 0) :
    PhiS V c n h = iprop(withOthers c iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The pipeline's proof data -/

/-- The proof data of the attention pipeline on core `c`: the arrays as the region finds them; after the body each input's
    buffer at its block and the output's at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the scratch buffers at what the point before left (at anything at the first point, and the
    case j = 0 overwrites them whatever they hold) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold atA sout1_A_0 sout1_A_1 sout1_A_2; (try dsimp only)
    by_cases hz : t.val = 0
    · rw [PhiS_castSucc V c t, PhiS_zero V c _ _ hz, PhiA1_eq]
      iintro ⟨⟨HW, Hg⟩, Ho, ⟨%d0, H0⟩, ⟨%d1, H1⟩, ⟨%d2, H2⟩, ⟨%d3, H3⟩⟩
      ihave HW' := (withOthers_split c _) $$ HW
      icases HW' with ⟨Hoth, HS0, HS1, HS2⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hoth HS0 HS1 HS2 Hg]
      · isplitl [Hoth HS0 HS1 HS2]
        · iapply (withOthers_join c _)
          isplitl [Hoth]; · iexact Hoth
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HW, Hg⟩, Ho, ⟨%d0, H0⟩, ⟨%d1, H1⟩, ⟨%d2, H2⟩, ⟨%d3, H3⟩⟩
      ihave HW' := (withOthers_split c _) $$ HW
      icases HW' with ⟨Hoth, HS0, HS1, HS2⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Hoth HS0 HS1 HS2 Hg]
      · isplitl [Hoth HS0 HS1 HS2]
        · iapply (withOthers_join c _)
          isplitl [Hoth]; · iexact Hoth
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold atC out1_C_3 sout1_C_0 sout1_C_1 sout1_C_2; (try dsimp only)
      rw [PhiS_castSucc V c t, PhiS_pos V c _ _ hz]
      iintro ⟨⟨HW, Hg⟩, Ho, ⟨%d0, H0⟩, ⟨%d1, H1⟩, ⟨%d2, H2⟩, ⟨%d3, H3⟩⟩
      ihave HW' := (withOthers_split c _) $$ HW
      icases HW' with ⟨Hoth, HS0, HS1, HS2⟩
      iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [Hoth HS0 HS1 HS2 Hg]
      · isplitl [Hoth HS0 HS1 HS2]
        · iapply (withOthers_join c _)
          isplitl [Hoth]; · iexact Hoth
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold atB sout1_B_0 sout1_B_1 sout1_B_2; (try dsimp only)
      rw [PhiS_castSucc V c t, PhiS_pos V c _ _ hz]
      iintro ⟨⟨HW, Hg⟩, Ho, ⟨%d0, H0⟩, ⟨%d1, H1⟩, ⟨%d2, H2⟩, ⟨%d3, H3⟩⟩
      ihave HW' := (withOthers_split c _) $$ HW
      icases HW' with ⟨Hoth, HS0, HS1, HS2⟩
      iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hoth HS0 HS1 HS2 Hg]
      · isplitl [Hoth HS0 HS1 HS2]
        · iapply (withOthers_join c _)
          isplitl [Hoth]; · iexact Hoth
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch buffers' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨HW, Hg⟩
  ihave HW' := (withOthers_split c _) $$ HW
  icases HW' with ⟨Hoth, HS0, HS1, HS2⟩
  isplitl [Hoth HS0 HS1 HS2]
  · iapply (withOthers_join c _)
    isplitl [Hoth]; · iexact Hoth
    isplitl [HS0]; · iexists _; iexact HS0
    isplitl [HS1]; · iexists _; iexact HS1
    iexists _; iexact HS2
  iexact Hg

end Cert.KernelIdeal.R1

end
-- ==== Proof.KIRunMain.lean ====
/-
  The kernel program run whole: the host prefix (three transposes and two concatenations), the projection region and the
  attention region as the launch theorem's three segments.  The buffer contents at each segment boundary are a fold from
  the launch memory: after the host prefix; after the projection region (its three output arrays at what its eight
  write-backs leave); after the attention region (the result array at what its four write-backs leave).  Every weakly
  fair execution terminates, without a fault, in a state whose unscoped buffers hold the last boundary's contents; the
  frame claim (the seven arguments unchanged) and the result array's contents are read off that.
-/
import proofs.«176492_j72395968741836_2_alg».proof.Proof.KIRegion0
import proofs.«176492_j72395968741836_2_alg».proof.Proof.KIRegion1Dat
import proofs.«176492_j72395968741836_2_alg».proof.Proof.Gen.KernelIdeal.Regions

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the host prefix (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the attention region's exit. -/
def W3 (c : Dev nD) : Valuation τ sig (Elt F) :=
  Pipeline.withArrays spec1 c (W2 m c) fun w => (R1.dat1 (V2 m) c).arrAt w cfg1.N
theorem W3_arr (c : Dev nD) (w : Fin cfg1.W) :
    W3 m c (Proc.devRef .tc (Pipeline.arrRef spec1 w)) = (R1.dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (R1.dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

/-- The attention region's invariant before its first point, from the scoped rest and the generator register. -/
theorem hin1' (c : Dev nD) : iprop(Pipeline.scopedRest (Ix := Unit) (Name := ℕ) (U := UR sig nD τ) (Lvl := ℕ) (Val := Elt F) spec1 c ∗ ∃ r, prngReg c r) ⊢ (R1.dat1 (V2 m) c).Φ 0 :=
  R1.hin1 (V2 m) c
/-- After its last point the invariant gives them back. -/
theorem hout1' (c : Dev nD) : (R1.dat1 (V2 m) c).Φ (Fin.last cfg1.N) ⊢ iprop(Pipeline.scopedRest (Ix := Unit) (Name := ℕ) (U := UR sig nD τ) (Lvl := ℕ) (Val := Elt F) spec1 c ∗ ∃ r, prngReg c r) :=
  R1.hout1 (V2 m) c

set_option backward.isDefEq.respectTransparency.types false in
/-- The projection region over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (R1.dat1 (V2 m) c).Φ 0 from rfl]
    iintro ⟨Hp, -, Hr⟩
    iapply (hin1' m c)
    isplitl [Hr]; · iexact Hr
    iexact Hp
  hout c := by
    rw [Pipeline.ownSems0_none, show (pdats m 1 c).Φ (Fin.last _) = (R1.dat1 (V2 m) c).Φ (Fin.last cfg1.N) from rfl]
    iintro Hinv
    ihave Hinv' := (hout1' m c) $$ Hinv
    icases Hinv' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and every
    final state holds each unscoped buffer at the last boundary's contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched -/

theorem W1_of_arg (c : Dev nD) (r : Ref sig .tc) (h : r ∉ hostOps0_W) : W1 m c (Proc.devRef .tc r) = m ((c : Thread nD τ).loc r) :=
  (V1_of m c r h).trans rfl

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((R0.dat0 (V1 m) c).arrAt_in 0 rfl _).trans (R0.A_eq0 (V1 m) c 0))
    _ = m ((c : Thread nD τ).loc main_arg0) := W1_of_arg m c main_arg0 (by decide)

theorem W3_other (c : Dev nD) (r : Ref sig .tc) (h1 : ∀ w, Pipeline.arrRef spec1 w ≠ r) (h0 : ∀ w, Pipeline.arrRef spec0 w ≠ r) (h : r ∉ hostOps0_W) :
    W3 m c (Proc.devRef .tc r) = m ((c : Thread nD τ).loc r) :=
  (W3_of_ne m c r h1).trans ((W2_of_ne m c r h0).trans (W1_of_arg m c r h))

/-- THE FRAME at any `F`: every weakly fair execution terminates and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_main_arg0 m c),
     (h c _ (mem_uc main_arg1 (by decide))).trans (W3_other m c main_arg1 (by decide) (by decide) (by decide)),
     (h c _ (mem_uc main_arg2 (by decide))).trans (W3_other m c main_arg2 (by decide) (by decide) (by decide)),
     (h c _ (mem_uc main_arg3 (by decide))).trans (W3_other m c main_arg3 (by decide) (by decide) (by decide)),
     (h c _ (mem_uc main_arg4 (by decide))).trans (W3_other m c main_arg4 (by decide) (by decide) (by decide)),
     (h c _ (mem_uc main_arg5 (by decide))).trans (W3_other m c main_arg5 (by decide) (by decide) (by decide)),
     (h c _ (mem_uc main_arg6 (by decide))).trans (W3_other m c main_arg6 (by decide) (by decide) (by decide))⟩) (run m ρ)

/-- The result array after the run is what the attention region's four write-backs leave. -/
theorem run_value : θ_run defs (onTc (τ := τ) (main (F := F))) ⟨m, fun _ => 0, ρ⟩ (fun r => ∀ c : Dev nD,
      r.2.mem ((c.tc : Thread nD τ).loc main_v6) = (R1.dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v6 (by decide))).trans (W3_arr m c 3),
     (h c _ (mem_uc main_arg0 (by decide))).trans (W3_main_arg0 m c),
     (h c _ (mem_uc main_arg1 (by decide))).trans (W3_other m c main_arg1 (by decide) (by decide) (by decide)),
     (h c _ (mem_uc main_arg2 (by decide))).trans (W3_other m c main_arg2 (by decide) (by decide) (by decide)),
     (h c _ (mem_uc main_arg3 (by decide))).trans (W3_other m c main_arg3 (by decide) (by decide) (by decide)),
     (h c _ (mem_uc main_arg4 (by decide))).trans (W3_other m c main_arg4 (by decide) (by decide) (by decide)),
     (h c _ (mem_uc main_arg5 (by decide))).trans (W3_other m c main_arg5 (by decide) (by decide) (by decide)),
     (h c _ (mem_uc main_arg6 (by decide))).trans (W3_other m c main_arg6 (by decide) (by decide) (by decide))⟩) (run m ρ)

end Cert.KernelIdeal.H

end
-- ==== Proof.KIRegion1Pieces.lean ====
/-
  What each control case of the attention body leaves in the scratch buffers and in the output block, as the body's
  pure payloads of the point's input blocks and of the scratch contents the point before left: the symbolic run's
  stores are whole-buffer stores, so each buffer ends at the payload of its last store, and each load reads either an
  input block or what an earlier store of the same point left.
-/
import proofs.«176492_j72395968741836_2_alg».proof.Proof.KIRegion1Dat
import Idealize.ShloMosaic.Lib.Pipeline.Value

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := by funext a; match a with | ⟨0, _⟩ => rfl | ⟨1, _⟩ => rfl

theorem sout1_A_0_eq (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond1_0 i) (hc1 : ¬cond1_1 i)
    (x0 : Vec F S2048x512 .bf16) (x1 : Vec F S1024x512 .bf16) (x2 : Vec F S1024x512 .bf16) :
    sout1_A_0 c i arg2 harg2 arg3 harg3 arg4 harg4 arg5 harg5 arg6 harg6 arg7 harg7 arg8 harg8 hc0 hc1 x0 x1 x2 = k1_pay2 (k1_pay9 x0 x1 k1_pay4) := by
  unfold sout1_A_0
  rw [View.read_writes_eq_canon _ _ _ (scover1_A_0 c i arg2 harg2 arg3 harg3 arg4 harg4 arg5 harg5 arg6 harg6 arg7 harg7 arg8 harg8 hc0 hc1 x0 x1 x2)]
  unfold kernelRun1_A
  dsimp only
  sl_unfold_run_names
  rw [View.canon_cons_unit_zero hz2]
  simp only [View.readAt_eq_ld, harg2.read_unread, harg3.read_unread, harg4.read_unread, harg6.read_unread, harg7.read_unread, harg8.read_unread, View.ld_unit_zero (S := S2048x512) hz2, View.ld_unit_zero (S := S1024x512) hz2, View.ld_unit_zero (S := S2048x1) hz2, View.readCov_unit_zero (S := S2048x1) _ hz2, View.readCov_unit_zero (S := S2048x512) _ hz2]

theorem sout1_A_1_eq (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond1_0 i) (hc1 : ¬cond1_1 i)
    (x0 : Vec F S2048x512 .bf16) (x1 : Vec F S1024x512 .bf16) (x2 : Vec F S1024x512 .bf16) :
    sout1_A_1 c i arg2 harg2 arg3 harg3 arg4 harg4 arg5 harg5 arg6 harg6 arg7 harg7 arg8 harg8 hc0 hc1 x0 x1 x2 = k1_pay12 x0 x1 k1_pay4 k1_pay4 k1_pay5 := by
  unfold sout1_A_1
  rw [View.read_writes_eq_canon _ _ _ (scover1_A_1 c i arg2 harg2 arg3 harg3 arg4 harg4 arg5 harg5 arg6 harg6 arg7 harg7 arg8 harg8 hc0 hc1 x0 x1 x2)]
  unfold kernelRun1_A
  dsimp only
  sl_unfold_run_names
  rw [View.canon_cons_unit_zero hz2]
  simp only [View.readAt_eq_ld, harg2.read_unread, harg3.read_unread, harg4.read_unread, harg6.read_unread, harg7.read_unread, harg8.read_unread, View.ld_unit_zero (S := S2048x512) hz2, View.ld_unit_zero (S := S1024x512) hz2, View.ld_unit_zero (S := S2048x1) hz2, View.readCov_unit_zero (S := S2048x1) _ hz2, View.readCov_unit_zero (S := S2048x512) _ hz2]

theorem sout1_A_2_eq (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : cond1_0 i) (hc1 : ¬cond1_1 i)
    (x0 : Vec F S2048x512 .bf16) (x1 : Vec F S1024x512 .bf16) (x2 : Vec F S1024x512 .bf16) :
    sout1_A_2 c i arg2 harg2 arg3 harg3 arg4 harg4 arg5 harg5 arg6 harg6 arg7 harg7 arg8 harg8 hc0 hc1 x0 x1 x2 = k1_pay1 (k1_pay7 x2) (k1_pay11 x0 x1 k1_pay4) (k1_pay13 x0 x1 k1_pay4 k1_pay4 k1_pay6) := by
  unfold sout1_A_2
  rw [View.read_writes_eq_canon _ _ _ (scover1_A_2 c i arg2 harg2 arg3 harg3 arg4 harg4 arg5 harg5 arg6 harg6 arg7 harg7 arg8 harg8 hc0 hc1 x0 x1 x2)]
  unfold kernelRun1_A
  dsimp only
  sl_unfold_run_names
  rw [View.canon_cons_unit_zero hz2]
  simp only [View.readAt_eq_ld, harg2.read_unread, harg3.read_unread, harg4.read_unread, harg6.read_unread, harg7.read_unread, harg8.read_unread, View.ld_unit_zero (S := S2048x512) hz2, View.ld_unit_zero (S := S1024x512) hz2, View.ld_unit_zero (S := S2048x1) hz2, View.readCov_unit_zero (S := S2048x1) _ hz2, View.readCov_unit_zero (S := S2048x512) _ hz2]

theorem sout1_B_0_eq (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) :
    sout1_B_0 c i arg2 harg2 arg3 harg3 arg4 harg4 arg5 harg5 arg6 harg6 arg7 harg7 arg8 harg8 hc0 hc1 x0 x1 x2 xs0 xs1 xs2 = k1_pay2 (k1_pay9 x0 x1 xs0) := by
  unfold sout1_B_0
  rw [View.read_writes_eq_canon _ _ _ (scover1_B_0 c i arg2 harg2 arg3 harg3 arg4 harg4 arg5 harg5 arg6 harg6 arg7 harg7 arg8 harg8 hc0 hc1 x0 x1 x2 xs0 xs1 xs2)]
  unfold kernelRun1_B
  dsimp only
  sl_unfold_run_names
  rw [View.canon_cons_unit_zero hz2]
  simp only [View.readAt_eq_ld, harg2.read_unread, harg3.read_unread, harg4.read_unread, harg6.read_unread, harg7.read_unread, harg8.read_unread, View.ld_unit_zero (S := S2048x512) hz2, View.ld_unit_zero (S := S1024x512) hz2, View.ld_unit_zero (S := S2048x1) hz2, View.readCov_unit_zero (S := S2048x1) _ hz2, View.readCov_unit_zero (S := S2048x512) _ hz2]

theorem sout1_B_1_eq (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) :
    sout1_B_1 c i arg2 harg2 arg3 harg3 arg4 harg4 arg5 harg5 arg6 harg6 arg7 harg7 arg8 harg8 hc0 hc1 x0 x1 x2 xs0 xs1 xs2 = k1_pay12 x0 x1 xs0 xs0 xs1 := by
  unfold sout1_B_1
  rw [View.read_writes_eq_canon _ _ _ (scover1_B_1 c i arg2 harg2 arg3 harg3 arg4 harg4 arg5 harg5 arg6 harg6 arg7 harg7 arg8 harg8 hc0 hc1 x0 x1 x2 xs0 xs1 xs2)]
  unfold kernelRun1_B
  dsimp only
  sl_unfold_run_names
  rw [View.canon_cons_unit_zero hz2]
  simp only [View.readAt_eq_ld, harg2.read_unread, harg3.read_unread, harg4.read_unread, harg6.read_unread, harg7.read_unread, harg8.read_unread, View.ld_unit_zero (S := S2048x512) hz2, View.ld_unit_zero (S := S1024x512) hz2, View.ld_unit_zero (S := S2048x1) hz2, View.readCov_unit_zero (S := S2048x1) _ hz2, View.readCov_unit_zero (S := S2048x512) _ hz2]

theorem sout1_B_2_eq (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) :
    sout1_B_2 c i arg2 harg2 arg3 harg3 arg4 harg4 arg5 harg5 arg6 harg6 arg7 harg7 arg8 harg8 hc0 hc1 x0 x1 x2 xs0 xs1 xs2 = k1_pay1 (k1_pay7 x2) (k1_pay11 x0 x1 xs0) (k1_pay13 x0 x1 xs0 xs0 xs2) := by
  unfold sout1_B_2
  rw [View.read_writes_eq_canon _ _ _ (scover1_B_2 c i arg2 harg2 arg3 harg3 arg4 harg4 arg5 harg5 arg6 harg6 arg7 harg7 arg8 harg8 hc0 hc1 x0 x1 x2 xs0 xs1 xs2)]
  unfold kernelRun1_B
  dsimp only
  sl_unfold_run_names
  rw [View.canon_cons_unit_zero hz2]
  simp only [View.readAt_eq_ld, harg2.read_unread, harg3.read_unread, harg4.read_unread, harg6.read_unread, harg7.read_unread, harg8.read_unread, View.ld_unit_zero (S := S2048x512) hz2, View.ld_unit_zero (S := S1024x512) hz2, View.ld_unit_zero (S := S2048x1) hz2, View.readCov_unit_zero (S := S2048x1) _ hz2, View.readCov_unit_zero (S := S2048x512) _ hz2]

theorem sout1_C_0_eq (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) :
    sout1_C_0 c i arg2 harg2 arg3 harg3 arg4 harg4 arg5 harg5 arg6 harg6 arg7 harg7 arg8 harg8 hc0 hc1 x0 x1 x2 xs0 xs1 xs2 = k1_pay2 (k1_pay9 x0 x1 xs0) := by
  unfold sout1_C_0
  rw [View.read_writes_eq_canon _ _ _ (scover1_C_0 c i arg2 harg2 arg3 harg3 arg4 harg4 arg5 harg5 arg6 harg6 arg7 harg7 arg8 harg8 hc0 hc1 x0 x1 x2 xs0 xs1 xs2)]
  unfold kernelRun1_C
  dsimp only
  sl_unfold_run_names
  rw [View.canon_cons_unit_zero hz2]
  simp only [View.readAt_eq_ld, harg2.read_unread, harg3.read_unread, harg4.read_unread, harg6.read_unread, harg7.read_unread, harg8.read_unread, View.ld_unit_zero (S := S2048x512) hz2, View.ld_unit_zero (S := S1024x512) hz2, View.ld_unit_zero (S := S2048x1) hz2, View.readCov_unit_zero (S := S2048x1) _ hz2, View.readCov_unit_zero (S := S2048x512) _ hz2]

theorem sout1_C_1_eq (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) :
    sout1_C_1 c i arg2 harg2 arg3 harg3 arg4 harg4 arg5 harg5 arg6 harg6 arg7 harg7 arg8 harg8 hc0 hc1 x0 x1 x2 xs0 xs1 xs2 = k1_pay12 x0 x1 xs0 xs0 xs1 := by
  unfold sout1_C_1
  rw [View.read_writes_eq_canon _ _ _ (scover1_C_1 c i arg2 harg2 arg3 harg3 arg4 harg4 arg5 harg5 arg6 harg6 arg7 harg7 arg8 harg8 hc0 hc1 x0 x1 x2 xs0 xs1 xs2)]
  unfold kernelRun1_C
  dsimp only
  sl_unfold_run_names
  rw [View.canon_cons_unit_zero hz2]
  simp only [View.readAt_eq_ld, harg2.read_unread, harg3.read_unread, harg4.read_unread, harg6.read_unread, harg7.read_unread, harg8.read_unread, View.ld_unit_zero (S := S2048x512) hz2, View.ld_unit_zero (S := S1024x512) hz2, View.ld_unit_zero (S := S2048x1) hz2, View.readCov_unit_zero (S := S2048x1) _ hz2, View.readCov_unit_zero (S := S2048x512) _ hz2]

theorem sout1_C_2_eq (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) :
    sout1_C_2 c i arg2 harg2 arg3 harg3 arg4 harg4 arg5 harg5 arg6 harg6 arg7 harg7 arg8 harg8 hc0 hc1 x0 x1 x2 xs0 xs1 xs2 = k1_pay1 (k1_pay7 x2) (k1_pay11 x0 x1 xs0) (k1_pay13 x0 x1 xs0 xs0 xs2) := by
  unfold sout1_C_2
  rw [View.read_writes_eq_canon _ _ _ (scover1_C_2 c i arg2 harg2 arg3 harg3 arg4 harg4 arg5 harg5 arg6 harg6 arg7 harg7 arg8 harg8 hc0 hc1 x0 x1 x2 xs0 xs1 xs2)]
  unfold kernelRun1_C
  dsimp only
  sl_unfold_run_names
  rw [View.canon_cons_unit_zero hz2]
  simp only [View.readAt_eq_ld, harg2.read_unread, harg3.read_unread, harg4.read_unread, harg6.read_unread, harg7.read_unread, harg8.read_unread, View.ld_unit_zero (S := S2048x512) hz2, View.ld_unit_zero (S := S1024x512) hz2, View.ld_unit_zero (S := S2048x1) hz2, View.readCov_unit_zero (S := S2048x1) _ hz2, View.readCov_unit_zero (S := S2048x512) _ hz2]

theorem out1_C_3_eq (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S2048x512 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x512 .f32) (harg8 : arg8.IsWhole) (hc0 : ¬cond1_0 i) (hc1 : cond1_1 i)
    (x0 : Vec F S2048x512 .bf16) (x1 : Vec F S1024x512 .bf16) (x2 : Vec F S1024x512 .bf16) (xs0 : Vec F S2048x1 .f32) (xs1 : Vec F S2048x1 .f32) (xs2 : Vec F S2048x512 .f32) :
    out1_C_3 c i arg2 harg2 arg3 harg3 arg4 harg4 arg5 harg5 arg6 harg6 arg7 harg7 arg8 harg8 hc0 hc1 x0 x1 x2 xs0 xs1 xs2 = k1_pay3 (k1_pay1 (k1_pay7 x2) (k1_pay11 x0 x1 xs0) (k1_pay13 x0 x1 xs0 xs0 xs2)) (k1_pay12 x0 x1 xs0 xs0 xs1) := by
  unfold out1_C_3
  rw [View.read_writes_eq_canon _ _ _ (cover1_C_3 c i arg2 harg2 arg3 harg3 arg4 harg4 arg5 harg5 arg6 harg6 arg7 harg7 arg8 harg8 hc0 hc1 x0 x1 x2 xs0 xs1 xs2)]
  unfold kernelRun1_C
  dsimp only
  sl_unfold_run_names
  rw [View.canon_cons_unit_zero hz2]
  simp only [View.readAt_eq_ld, harg2.read_unread, harg3.read_unread, harg4.read_unread, harg6.read_unread, harg7.read_unread, harg8.read_unread, View.ld_unit_zero (S := S2048x512) hz2, View.ld_unit_zero (S := S1024x512) hz2, View.ld_unit_zero (S := S2048x1) hz2, View.readCov_unit_zero (S := S2048x1) _ hz2, View.readCov_unit_zero (S := S2048x512) _ hz2]

end Cert.KernelIdeal.R1

end
-- ==== Proof.Spec.lean ====
/-
  The specification both programs are compared with, index by index on the extended reals.

  A projection of the N = 8192 rows z[n, ·] by a 512 x 512 weight W and a bias b is
      proj z W b n e = (∑ k, z[n,k] · W[e,k]) + b[e].
  With q, k, v three such projections, the score of row n against row t is
      score q k n t = (∑ e, q n e · k t e) · c,        c the f32 constant 0x3D3504F3 (the binary value of 512^(-1/2)),
  and the attention output is the softmax-weighted sum of the rows of v,
      attn q k v n d = ∑ t, (exp (score n t - mx n) / (0 + ∑ t', exp (score n t' - mx n))) · v t d,
  mx n the maximum of row n's scores folded from -∞ and joined with -∞ once more, the denominator summed from 0.
-/
import Idealize.ShloMosaic.PureOps.Ideal
import Idealize.ShloMosaic.Lib.ValueIdx

noncomputable section

namespace Cert.Spec

open Idealize.ShloMosaic Idealize.ShloMosaic.ValueIdx

/-- The shared scale: the f32 word of 512^(-1/2), read at its exact binary value. -/
def scale : EReal := Ideal.ofBits .f32 0x3D3504F3#32

/-- One linear projection of the rows of `z`: `(∑ k, z[n,k] · W[e,k]) + b[e]`. -/
def proj (z : (⟨2, ![8192, 512]⟩ : Shape).Idx → EReal) (W : (⟨2, ![512, 512]⟩ : Shape).Idx → EReal)
    (b : (⟨1, ![512]⟩ : Shape).Idx → EReal) (n : Fin 8192) (e : Fin 512) : EReal :=
  (∑ k : Fin 512, z (ix2 n k) * W (ix2 e k)) + b (ix1 e)

/-- The scaled score of row `n` against row `t`. -/
def score (q k : Fin 8192 → Fin 512 → EReal) (n t : Fin 8192) : EReal :=
  (∑ e : Fin 512, q n e * k t e) * scale

/-- A row's maximum, folded from -∞ and joined with -∞ once more. -/
def rowmax (s : Fin 8192 → EReal) : EReal :=
  max ⊥ ((Finset.univ : Finset (Fin 8192)).fold max ⊥ s)

/-- The softmax-weighted sum of the rows of `v`. -/
def attn (q k v : Fin 8192 → Fin 512 → EReal) (n : Fin 8192) (d : Fin 512) : EReal :=
  ∑ t : Fin 8192,
    Ideal.div (Ideal.exp (score q k n t - rowmax (score q k n)))
      (0 + ∑ t' : Fin 8192, Ideal.exp (score q k n t' - rowmax (score q k n))) * v t d

/-- The whole result array as one function of the seven argument arrays. -/
def G (z : (⟨2, ![8192, 512]⟩ : Shape).Idx → EReal)
    (Wq : (⟨2, ![512, 512]⟩ : Shape).Idx → EReal) (bq : (⟨1, ![512]⟩ : Shape).Idx → EReal)
    (Wk : (⟨2, ![512, 512]⟩ : Shape).Idx → EReal) (bk : (⟨1, ![512]⟩ : Shape).Idx → EReal)
    (Wv : (⟨2, ![512, 512]⟩ : Shape).Idx → EReal) (bv : (⟨1, ![512]⟩ : Shape).Idx → EReal) :
    (⟨2, ![8192, 512]⟩ : Shape).Idx → EReal :=
  fun i => attn (proj z Wq bq) (proj z Wk bk) (proj z Wv bv) (i 0) (i 1)

/-- Row `n`'s scores as a sequence over ℕ (zero past the last column), the form a block recursion reads. -/
def srow (q k : Fin 8192 → Fin 512 → EReal) (n : Fin 8192) (t : ℕ) : EReal :=
  if h : t < 8192 then score q k n ⟨t, h⟩ else 0

/-- Column `d` of `v` as a sequence over ℕ (zero past the last row). -/
def vcol (v : Fin 8192 → Fin 512 → EReal) (d : Fin 512) (t : ℕ) : EReal :=
  if h : t < 8192 then v ⟨t, h⟩ d else 0

end Cert.Spec

end
-- ==== Proof.LibOnlineSoftmax.lean ====
/-
  The online-softmax recursion computes the softmax-weighted sum.

  A row of N = n * b real scores σ 0, …, σ (N - 1) with real values β 0, …, β (N - 1) is read in n blocks
  of length b.  The recursion keeps a running maximum M (from -∞), a running denominator L and a running
  numerator A (both from 0); at each block the new maximum M' is the old one joined with the block's
  maximum, and L and A are rescaled by exp (M - M') before the block's terms exp (s - M') and
  exp (s - M') * β are added.  This file proves, for every n > 0 and b > 0 (generic in both extents),
  that after n blocks the quotient A / L equals the ordinary softmax-weighted sum

      ∑ t, (exp (σ t - mx) / ∑ t', exp (σ t' - mx)) * β t,       mx = the maximum of all N scores,

  all operations being the exact ones on the extended reals (exp (-∞) = 0, so the first rescale factor
  is 0 and multiplies the initial 0).  The argument: after j ≥ 1 blocks the state is
  (μ, ∑_{t < j b} exp (σ t - μ), ∑_{t < j b} exp (σ t - μ) * β t) for a real μ (exp (μ - μ') * exp (σ - μ)
  = exp (σ - μ')), and a softmax-weighted sum does not depend on the real shift μ that is subtracted.
-/
import Idealize.ShloMosaic.PureOps.Ideal

noncomputable section

namespace Cert.LibOnlineSoftmax

open Idealize.ShloMosaic

variable {b : ℕ}

/-- The new running maximum: the old one joined with the block's maximum (folded from -∞). -/
def stepM (M : EReal) (s : Fin b → EReal) : EReal :=
  max M ((Finset.univ : Finset (Fin b)).fold max ⊥ s)

/-- The new running denominator: the old one rescaled, plus the block's exponentials. -/
def stepL (M L : EReal) (s : Fin b → EReal) : EReal :=
  Ideal.exp (M - stepM M s) * L + ∑ k : Fin b, Ideal.exp (s k - stepM M s)

/-- The new running numerator: the old one rescaled, plus the block's weighted values. -/
def stepA (M A : EReal) (s β : Fin b → EReal) : EReal :=
  Ideal.exp (M - stepM M s) * A + ∑ k : Fin b, Ideal.exp (s k - stepM M s) * β k

/-- The state (M, L, A) after j blocks; block j has scores s j and values β j. -/
def state (s β : ℕ → Fin b → EReal) : ℕ → EReal × EReal × EReal
  | 0 => (⊥, 0, 0)
  | j + 1 => (stepM (state s β j).1 (s j), stepL (state s β j).1 (state s β j).2.1 (s j),
      stepA (state s β j).1 (state s β j).2.2 (s j) (β j))

theorem state_zero (s β : ℕ → Fin b → EReal) : state s β 0 = (⊥, 0, 0) := rfl

theorem state_succ (s β : ℕ → Fin b → EReal) (j : ℕ) :
    state s β (j + 1) = (stepM (state s β j).1 (s j), stepL (state s β j).1 (state s β j).2.1 (s j),
      stepA (state s β j).1 (state s β j).2.2 (s j) (β j)) := rfl

/-! ### Coercions -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two coerced reals is the coerced maximum. -/
theorem max_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- exp of a difference of two reals. -/
theorem exp_coe_sub_coe (x y : ℝ) :
    Ideal.exp ((x : EReal) - (y : EReal)) = ((Real.exp (x - y) : ℝ) : EReal) := by
  rw [← EReal.coe_sub, Ideal.exp_coe]

/-- Division of two reals by a nonzero denominator is the real division. -/
theorem div_coe_coe (x y : ℝ) (hy : y ≠ 0) :
    Ideal.div (x : EReal) (y : EReal) = ((x / y : ℝ) : EReal) := by
  rw [Ideal.div_coe hy, ← EReal.coe_mul, mul_one_div]

/-! ### The running maximum stays real -/

/-- A real joined with the maximum (from -∞) of finitely many reals is a real. -/
theorem max_fold_coe {ι : Type*} (s : Finset ι) (f : ι → ℝ) :
    ∀ r0 : ℝ, ∃ r : ℝ, max (r0 : EReal) (s.fold max ⊥ (fun k => (f k : EReal))) = (r : EReal) := by
  classical
  induction s using Finset.induction_on with
  | empty => intro r0; exact ⟨r0, by rw [Finset.fold_empty, max_eq_left bot_le]⟩
  | insert a s ha ih =>
    intro r0
    obtain ⟨r, hr⟩ := ih (max r0 (f a))
    exact ⟨r, by rw [Finset.fold_insert ha, ← max_assoc, max_coe, hr]⟩

theorem stepM_coe (μ : ℝ) (f : Fin b → ℝ) :
    ∃ r : ℝ, stepM (μ : EReal) (fun k => (f k : EReal)) = (r : EReal) :=
  max_fold_coe Finset.univ f μ

theorem stepM_bot (hb : 0 < b) (f : Fin b → ℝ) :
    ∃ r : ℝ, stepM ⊥ (fun k => (f k : EReal)) = (r : EReal) := by
  classical
  obtain ⟨r, hr⟩ := max_fold_coe ((Finset.univ : Finset (Fin b)).erase ⟨0, hb⟩) f (f ⟨0, hb⟩)
  refine ⟨r, ?_⟩
  rw [stepM, max_eq_right bot_le, ← Finset.insert_erase (Finset.mem_univ (⟨0, hb⟩ : Fin b)),
    Finset.fold_insert (Finset.notMem_erase _ _), hr]

/-! ### One block, on reals -/

/-- The block's exponentials, all real. -/
theorem block_exp (μ' : ℝ) (f : Fin b → ℝ) :
    ∑ k : Fin b, Ideal.exp ((f k : EReal) - (μ' : EReal))
      = ((∑ k : Fin b, Real.exp (f k - μ') : ℝ) : EReal) := by
  rw [coe_sum]
  exact Finset.sum_congr rfl (fun k _ => exp_coe_sub_coe _ _)

/-- The block's weighted values, all real. -/
theorem block_exp_mul (μ' : ℝ) (f g : Fin b → ℝ) :
    ∑ k : Fin b, Ideal.exp ((f k : EReal) - (μ' : EReal)) * (g k : EReal)
      = ((∑ k : Fin b, Real.exp (f k - μ') * g k : ℝ) : EReal) := by
  rw [coe_sum]
  exact Finset.sum_congr rfl (fun k _ => by rw [exp_coe_sub_coe, EReal.coe_mul])

/-- A denominator step from a real state. -/
theorem stepL_coe (μ μ' L : ℝ) (f : Fin b → ℝ)
    (h : stepM (μ : EReal) (fun k => (f k : EReal)) = (μ' : EReal)) :
    stepL (μ : EReal) (L : EReal) (fun k => (f k : EReal))
      = ((Real.exp (μ - μ') * L + ∑ k : Fin b, Real.exp (f k - μ') : ℝ) : EReal) := by
  rw [stepL, h, exp_coe_sub_coe, block_exp, ← EReal.coe_mul, ← EReal.coe_add]

/-- A numerator step from a real state. -/
theorem stepA_coe (μ μ' A : ℝ) (f g : Fin b → ℝ)
    (h : stepM (μ : EReal) (fun k => (f k : EReal)) = (μ' : EReal)) :
    stepA (μ : EReal) (A : EReal) (fun k => (f k : EReal)) (fun k => (g k : EReal))
      = ((Real.exp (μ - μ') * A + ∑ k : Fin b, Real.exp (f k - μ') * g k : ℝ) : EReal) := by
  rw [stepA, h, exp_coe_sub_coe, block_exp_mul, ← EReal.coe_mul, ← EReal.coe_add]

/-- The first denominator step: the rescale factor is exp (-∞) = 0. -/
theorem stepL_bot (μ' : ℝ) (f : Fin b → ℝ)
    (h : stepM ⊥ (fun k => (f k : EReal)) = (μ' : EReal)) :
    stepL ⊥ 0 (fun k => (f k : EReal)) = ((∑ k : Fin b, Real.exp (f k - μ') : ℝ) : EReal) := by
  rw [stepL, h, EReal.bot_sub, Ideal.exp_bot, zero_mul, zero_add, block_exp]

/-- The first numerator step. -/
theorem stepA_bot (μ' : ℝ) (f g : Fin b → ℝ)
    (h : stepM ⊥ (fun k => (f k : EReal)) = (μ' : EReal)) :
    stepA ⊥ 0 (fun k => (f k : EReal)) (fun k => (g k : EReal))
      = ((∑ k : Fin b, Real.exp (f k - μ') * g k : ℝ) : EReal) := by
  rw [stepA, h, EReal.bot_sub, Ideal.exp_bot, zero_mul, zero_add, block_exp_mul]

/-! ### The rescaled prefix sums -/

/-- Rescaling the first m terms from the shift μ to the shift μ' and adding the next b terms gives the
    first m + b terms at the shift μ'. -/
theorem rescale_add (σ w : ℕ → ℝ) (μ μ' : ℝ) (m b : ℕ) :
    Real.exp (μ - μ') * (∑ t ∈ Finset.range m, Real.exp (σ t - μ) * w t)
        + ∑ k : Fin b, Real.exp (σ (m + k.val) - μ') * w (m + k.val)
      = ∑ t ∈ Finset.range (m + b), Real.exp (σ t - μ') * w t := by
  rw [Finset.sum_range_add, Fin.sum_univ_eq_sum_range (fun k => Real.exp (σ (m + k) - μ') * w (m + k)) b,
    Finset.mul_sum]
  congr 1
  refine Finset.sum_congr rfl (fun t _ => ?_)
  rw [← mul_assoc, ← Real.exp_add]
  congr 2
  ring

/-- The same for the unweighted sums. -/
theorem rescale_add_one (σ : ℕ → ℝ) (μ μ' : ℝ) (m b : ℕ) :
    Real.exp (μ - μ') * (∑ t ∈ Finset.range m, Real.exp (σ t - μ))
        + ∑ k : Fin b, Real.exp (σ (m + k.val) - μ')
      = ∑ t ∈ Finset.range (m + b), Real.exp (σ t - μ') := by
  have h := rescale_add σ (fun _ => 1) μ μ' m b
  simp only [mul_one] at h
  exact h

/-- The first block's sum is the sum over the first b indices. -/
theorem first_block (g : ℕ → ℝ) (b : ℕ) :
    ∑ k : Fin b, g (0 * b + k.val) = ∑ t ∈ Finset.range ((0 + 1) * b), g t := by
  rw [Fin.sum_univ_eq_sum_range (fun k => g (0 * b + k)) b]
  simp only [Nat.zero_mul, Nat.zero_add, Nat.one_mul]

/-! ### The state after j ≥ 1 blocks -/

/-- After j + 1 blocks the state is (μ, ∑_{t < (j+1) b} exp (σ t - μ), ∑_{t < (j+1) b} exp (σ t - μ) * β t)
    for a real μ. -/
theorem state_real (hb : 0 < b) (σ β : ℕ → ℝ) (j : ℕ) :
    ∃ μ : ℝ,
      state (fun j (k : Fin b) => ((σ (j * b + k.val) : ℝ) : EReal))
          (fun j (k : Fin b) => ((β (j * b + k.val) : ℝ) : EReal)) (j + 1)
        = ((μ : EReal), ((∑ t ∈ Finset.range ((j + 1) * b), Real.exp (σ t - μ) : ℝ) : EReal),
            ((∑ t ∈ Finset.range ((j + 1) * b), Real.exp (σ t - μ) * β t : ℝ) : EReal)) := by
  induction j with
  | zero =>
    obtain ⟨μ', h⟩ := stepM_bot hb (fun k : Fin b => σ (0 * b + k.val))
    refine ⟨μ', ?_⟩
    rw [state_succ, state_zero]
    dsimp only
    rw [h, stepL_bot μ' _ h, stepA_bot μ' _ _ h,
      first_block (fun t => Real.exp (σ t - μ')) b,
      first_block (fun t => Real.exp (σ t - μ') * β t) b]
  | succ j ih =>
    obtain ⟨μ, ih⟩ := ih
    obtain ⟨μ', h⟩ := stepM_coe μ (fun k : Fin b => σ ((j + 1) * b + k.val))
    refine ⟨μ', ?_⟩
    rw [state_succ, ih]
    dsimp only
    rw [h, stepL_coe μ μ' _ _ h, stepA_coe μ μ' _ _ _ h, rescale_add_one, rescale_add,
      ← Nat.succ_mul]

/-! ### The softmax-weighted sum does not depend on the shift -/

/-- Subtracting μ or m from every score gives the same softmax-weighted sum: the common factor
    exp (m - μ) cancels in the quotient. -/
theorem softmax_shift (s : Finset ℕ) (σ β : ℕ → ℝ) (μ m : ℝ) :
    (∑ t ∈ s, Real.exp (σ t - μ) * β t) / (∑ t ∈ s, Real.exp (σ t - μ))
      = ∑ t ∈ s, Real.exp (σ t - m) / (∑ t' ∈ s, Real.exp (σ t' - m)) * β t := by
  have hc : ∀ t, Real.exp (σ t - μ) = Real.exp (m - μ) * Real.exp (σ t - m) := by
    intro t
    rw [← Real.exp_add]
    congr 1
    ring
  have h1 : ∑ t ∈ s, Real.exp (σ t - μ) * β t
      = Real.exp (m - μ) * ∑ t ∈ s, Real.exp (σ t - m) * β t := by
    rw [Finset.mul_sum]
    exact Finset.sum_congr rfl (fun t _ => by rw [hc t, mul_assoc])
  have h2 : ∑ t ∈ s, Real.exp (σ t - μ) = Real.exp (m - μ) * ∑ t ∈ s, Real.exp (σ t - m) := by
    rw [Finset.mul_sum]
    exact Finset.sum_congr rfl (fun t _ => hc t)
  rw [h1, h2, mul_div_mul_left _ _ (Real.exp_pos _).ne', Finset.sum_div]
  exact Finset.sum_congr rfl (fun t _ => by ring)

/-- A sum of exponentials over a nonempty range is not zero. -/
theorem sum_exp_ne_zero (σ : ℕ → ℝ) (m : ℝ) (N : ℕ) (hN : 0 < N) :
    (∑ t ∈ Finset.range N, Real.exp (σ t - m)) ≠ 0 :=
  (Finset.sum_pos (fun t _ => Real.exp_pos _) (Finset.nonempty_range_iff.2 hN.ne')).ne'

/-! ### The theorem -/

/-- After n > 0 blocks of length b > 0 the quotient A / L of the online recursion is the
    softmax-weighted sum of the n * b values (flat index t = j * b + k), the maximum being folded
    from -∞ and joined with -∞ once more and the denominator summed from 0. -/
theorem online_eq (n b : ℕ) (hn : 0 < n) (hb : 0 < b) (σ β : ℕ → ℝ) :
    Ideal.div
        (state (fun j (k : Fin b) => ((σ (j * b + k.val) : ℝ) : EReal))
          (fun j (k : Fin b) => ((β (j * b + k.val) : ℝ) : EReal)) n).2.2
        (state (fun j (k : Fin b) => ((σ (j * b + k.val) : ℝ) : EReal))
          (fun j (k : Fin b) => ((β (j * b + k.val) : ℝ) : EReal)) n).2.1
      = ∑ t : Fin (n * b),
          Ideal.div
            (Ideal.exp (((σ t.val : ℝ) : EReal)
              - max ⊥ ((Finset.univ : Finset (Fin (n * b))).fold max ⊥
                  (fun t => ((σ t.val : ℝ) : EReal)))))
            (0 + ∑ t' : Fin (n * b), Ideal.exp (((σ t'.val : ℝ) : EReal)
              - max ⊥ ((Finset.univ : Finset (Fin (n * b))).fold max ⊥
                  (fun t => ((σ t.val : ℝ) : EReal)))))
            * ((β t.val : ℝ) : EReal) := by
  obtain ⟨j, rfl⟩ : ∃ j, n = j + 1 := ⟨n - 1, by omega⟩
  obtain ⟨μ, hμ⟩ := state_real hb σ β j
  have hN : 0 < (j + 1) * b := Nat.mul_pos (Nat.succ_pos j) hb
  obtain ⟨m, hm⟩ := stepM_bot hN (fun t : Fin ((j + 1) * b) => σ t.val)
  rw [stepM] at hm
  rw [hμ, hm]
  dsimp only
  rw [div_coe_coe _ _ (sum_exp_ne_zero σ μ _ hN), softmax_shift _ σ β μ m, zero_add,
    block_exp m (fun t : Fin ((j + 1) * b) => σ t.val),
    Fin.sum_univ_eq_sum_range (fun t => Real.exp (σ t - m)) ((j + 1) * b), coe_sum,
    ← Fin.sum_univ_eq_sum_range
      (fun t => ((Real.exp (σ t - m) / (∑ t' ∈ Finset.range ((j + 1) * b), Real.exp (σ t' - m))
        * β t : ℝ) : EReal)) ((j + 1) * b)]
  refine Finset.sum_congr rfl (fun t _ => ?_)
  rw [exp_coe_sub_coe, div_coe_coe _ _ (sum_exp_ne_zero σ m _ hN), EReal.coe_mul]

/-- The same for extended-real scores and values that are all finite. -/
theorem online_eq_finite (n b : ℕ) (hn : 0 < n) (hb : 0 < b) (S B : ℕ → EReal)
    (hS : ∀ t, S t ≠ ⊤ ∧ S t ≠ ⊥) (hB : ∀ t, B t ≠ ⊤ ∧ B t ≠ ⊥) :
    Ideal.div
        (state (fun j (k : Fin b) => S (j * b + k.val)) (fun j (k : Fin b) => B (j * b + k.val)) n).2.2
        (state (fun j (k : Fin b) => S (j * b + k.val)) (fun j (k : Fin b) => B (j * b + k.val)) n).2.1
      = ∑ t : Fin (n * b),
          Ideal.div
            (Ideal.exp (S t.val
              - max ⊥ ((Finset.univ : Finset (Fin (n * b))).fold max ⊥ (fun t => S t.val))))
            (0 + ∑ t' : Fin (n * b), Ideal.exp (S t'.val
              - max ⊥ ((Finset.univ : Finset (Fin (n * b))).fold max ⊥ (fun t => S t.val))))
            * B t.val := by
  obtain ⟨σ, rfl⟩ : ∃ σ : ℕ → ℝ, S = fun t => ((σ t : ℝ) : EReal) :=
    ⟨fun t => (S t).toReal, funext fun t => (EReal.coe_toReal (hS t).1 (hS t).2).symm⟩
  obtain ⟨β, rfl⟩ : ∃ β : ℕ → ℝ, B = fun t => ((β t : ℝ) : EReal) :=
    ⟨fun t => (B t).toReal, funext fun t => (EReal.coe_toReal (hB t).1 (hB t).2).symm⟩
  exact online_eq n b hn hb σ β

end Cert.LibOnlineSoftmax

end
-- ==== Proof.KIRegion1Pay.lean ====
/- The attention body's arithmetic, read entry by entry on the extended reals.  One grid point holds a block of
   2048 query rows x0, a block of 1024 key rows x1 and value rows x2, and the running maximum M, denominator L
   and numerator A of the online softmax.  The scaled scores of the block are
       sc r κ = (∑ e, x0[r,e] · x1[κ,e]) · c,
   and the body's stored values are exactly one step of the online-softmax recursion on them: the new maximum
   is M joined with the block's row maximum, and L and A are rescaled by exp (M - M') before the block's
   exponentials (times the value rows, for A) are added. -/
import proofs.«176492_j72395968741836_2_alg».proof.Proof.Gen.KernelIdeal.Skeleton
import proofs.«176492_j72395968741836_2_alg».proof.Proof.Spec
import proofs.«176492_j72395968741836_2_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.R1P

open Cert.KernelIdeal Cert.KernelIdeal.Gen
open Idealize.ShloMosaic Idealize.ShloMosaic.ValueIdx
open Cert.LibOnlineSoftmax

/-! ## Layout operations on a column of row statistics -/

/-- A vector cast to a one-column matrix reads, at (i, 0), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its rows reads, at (p, c), the column at (p, 0). -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The f32 word of -∞ is the bottom of the extended reals. -/
theorem ofBits_neg_inf_f32 : Ideal.ofBits .f32 0xFF800000#32 = ⊥ := by simp [Ideal.ofBits, Ideal.ieee]

/-! ## The scores -/

local notation "D2" => dot_S2048x512_S512x1024_S2048x1024_1_0_0_1_n_n
local notation "D3" => dot_S2048x1024_S1024x512_S2048x512_1_0_0_1_n_n

/-- The scaled score of query row r against key row κ of the block. -/
def sc (x0 : FVec Ideal S2048x512 .bf16) (x1 : FVec Ideal S1024x512 .bf16) (r : Fin 2048) (κ : Fin 1024) : EReal :=
  (∑ e : Fin 512, x0 (ix2 r e) * x1 (ix2 κ e)) * Cert.Spec.scale

theorem d2_lhs_row (j : S2048x1024.Idx) (q : DotDims.contr D2 |>.Idx) : (DotDims.lhsIdx D2 j q 0).val = (j 0).val := by
  unfold DotDims.lhsIdx
  rw [dif_neg (show ¬(0 : Fin S2048x512.rank) ∈ DotDims.lhsBatch D2 by decide), dif_pos (show (0 : Fin S2048x512.rank) ∈ DotDims.lhsNonContracting D2 by decide)]
  rfl
theorem d2_lhs_contr (j : S2048x1024.Idx) (q : DotDims.contr D2 |>.Idx) : (DotDims.lhsIdx D2 j q 1).val = (q ⟨0, by decide⟩).val :=
  DotDims.lhsIdx_val_of_single D2 rfl j q
theorem d2_rhs_contr (j : S2048x1024.Idx) (q : DotDims.contr D2 |>.Idx) : (DotDims.rhsIdx D2 j q 0).val = (q ⟨0, by decide⟩).val :=
  DotDims.rhsIdx_val_of_single D2 rfl j q
theorem d2_rhs_col (j : S2048x1024.Idx) (q : DotDims.contr D2 |>.Idx) : (DotDims.rhsIdx D2 j q 1).val = (j 1).val := by
  unfold DotDims.rhsIdx
  rw [dif_neg (show ¬(1 : Fin S512x1024.rank) ∈ DotDims.rhsBatch D2 by decide), dif_pos (show (1 : Fin S512x1024.rank) ∈ DotDims.rhsNonContracting D2 by decide)]
  rfl

/-- The block's scaled scores: the casts to the same shape are the identity, the transposed key block at (e, κ)
    is the key block at (κ, e), the product into the zero accumulator is the sum over the 512 features, and the
    scale is a splat of the shared constant. -/
theorem pay8_apply (x0 : FVec Ideal S2048x512 .bf16) (x1 : FVec Ideal S1024x512 .bf16) (r : Fin 2048) (κ : Fin 1024) :
    k1_pay8 (F := Ideal) x0 x1 (ix2 r κ) = sc x0 x1 r κ := by
  unfold k1_pay8 sc
  refine congrArg₂ (· * ·) ?_ rfl
  simp only [matmul]
  refine (Ideal.matmul_constant_zero_apply D2 none _ _ (ix2 r κ)).trans ?_
  rw [← Equiv.sum_comp (contrEquiv1 D2 512 rfl rfl).symm]
  refine Finset.sum_congr rfl fun e _ => ?_
  have hk := contrEquiv1_symm_val D2 512 rfl rfl e
  have el : DotDims.lhsIdx D2 (ix2 r κ) ((contrEquiv1 D2 512 rfl rfl).symm e) = ix2 r e := funext fun a => Fin.ext (by
    match a with
    | ⟨0, _⟩ => exact d2_lhs_row _ _
    | ⟨1, _⟩ => exact (d2_lhs_contr _ _).trans hk)
  have er : DotDims.rhsIdx D2 (ix2 r κ) ((contrEquiv1 D2 512 rfl rfl).symm e) = ix2 e κ := funext fun a => Fin.ext (by
    match a with
    | ⟨0, _⟩ => exact (d2_rhs_contr _ _).trans hk
    | ⟨1, _⟩ => exact d2_rhs_col _ _)
  rw [el, er, shapeCast_self, shapeCast_self]
  exact congrArg (x0 (ix2 r e) * ·) (transpose_ix2_apply x1 transposes_S1024x512_p1_0_S512x1024 e κ)

/-! ## The new running maximum -/

/-- The index a reduction over the key axis reads at row r, position κ, is (r, κ). -/
theorem lift_row (r : Fin 2048) (κ : Fin 1024) :
    Shape.Reduces.lift reduces_S2048x1024_S2048 (ix1 r) κ = ix2 r κ :=
  funext fun a => Fin.ext (by match a with | ⟨0, _⟩ => rfl | ⟨1, _⟩ => rfl)

/-- The new maximum at row r: the old one joined with the maximum (from -∞) of the block's scores. -/
theorem pay9_apply (x0 : FVec Ideal S2048x512 .bf16) (x1 : FVec Ideal S1024x512 .bf16) (M : FVec Ideal S2048x1 .f32) (r : Fin 2048) :
    k1_pay9 (F := Ideal) x0 x1 M (ix2 r (0 : Fin 1)) = stepM (M (ix2 r (0 : Fin 1))) (fun κ : Fin 1024 => sc x0 x1 r κ) := by
  unfold k1_pay9 stepM
  refine congrArg (max (M (ix2 r (0 : Fin 1)))) ?_
  refine (shapeCast_a_a1_apply _ shapeCasts_S2048_S2048x1 r (0 : Fin 1)).trans ?_
  refine (Ideal.multiReduction_maximumf_single (k1_pay8 (F := Ideal) x0 x1) _ reduces_S2048x1024_S2048 _ _ (ix1 r)).trans ?_
  show (Finset.univ : Finset (Fin 1024)).fold max (Ideal.ofBits .f32 0xFF800000#32)
      (fun κ => k1_pay8 (F := Ideal) x0 x1 (Shape.Reduces.lift reduces_S2048x1024_S2048 (ix1 r) κ)) = _
  rw [ofBits_neg_inf_f32]
  exact congrArg (fun f : Fin 1024 → EReal => (Finset.univ : Finset (Fin 1024)).fold max ⊥ f)
    (funext fun κ : Fin 1024 => (congrArg (k1_pay8 (F := Ideal) x0 x1) (lift_row r κ)).trans (pay8_apply x0 x1 r κ))

/-! ## The rescale factor and the block's exponentials -/

/-- The rescale factor exp (M - M') at row r. -/
theorem pay10_apply (x0 : FVec Ideal S2048x512 .bf16) (x1 : FVec Ideal S1024x512 .bf16) (M : FVec Ideal S2048x1 .f32) (r : Fin 2048) :
    k1_pay10 (F := Ideal) x0 x1 M M (ix2 r (0 : Fin 1))
      = Ideal.exp (M (ix2 r (0 : Fin 1)) - stepM (M (ix2 r (0 : Fin 1))) (fun κ : Fin 1024 => sc x0 x1 r κ)) := by
  unfold k1_pay10
  show Ideal.exp (M (ix2 r (0 : Fin 1)) - k1_pay9 (F := Ideal) x0 x1 M (ix2 r (0 : Fin 1))) = _
  rw [pay9_apply]

/-- The block's exponentials exp (s - M') at (r, κ): the new maximum is broadcast along the row. -/
theorem pay11_apply (x0 : FVec Ideal S2048x512 .bf16) (x1 : FVec Ideal S1024x512 .bf16) (M : FVec Ideal S2048x1 .f32) (r : Fin 2048) (κ : Fin 1024) :
    k1_pay11 (F := Ideal) x0 x1 M (ix2 r κ)
      = Ideal.exp (sc x0 x1 r κ - stepM (M (ix2 r (0 : Fin 1))) (fun κ : Fin 1024 => sc x0 x1 r κ)) := by
  unfold k1_pay11
  show Ideal.exp (k1_pay8 (F := Ideal) x0 x1 (ix2 r κ) - broadcastTo S2048x1024 (k1_pay9 (F := Ideal) x0 x1 M) broadcasts_S2048x1_S2048x1024 (ix2 r κ)) = _
  rw [pay8_apply, broadcastTo_a1_ab_apply (k1_pay9 (F := Ideal) x0 x1 M) broadcasts_S2048x1_S2048x1024 r κ, pay9_apply]

/-! ## The new running denominator -/

/-- The new denominator at row r: the old one rescaled, plus the sum of the block's exponentials. -/
theorem pay12_apply (x0 : FVec Ideal S2048x512 .bf16) (x1 : FVec Ideal S1024x512 .bf16) (M L : FVec Ideal S2048x1 .f32) (r : Fin 2048) :
    k1_pay12 (F := Ideal) x0 x1 M M L (ix2 r (0 : Fin 1))
      = stepL (M (ix2 r (0 : Fin 1))) (L (ix2 r (0 : Fin 1))) (fun κ : Fin 1024 => sc x0 x1 r κ) := by
  unfold k1_pay12 stepL
  rw [shapeCast_self]
  refine congrArg₂ (· + ·) (congrArg (· * L (ix2 r (0 : Fin 1))) (pay10_apply x0 x1 M r)) ?_
  refine (shapeCast_a_a1_apply _ shapeCasts_S2048_S2048x1 r (0 : Fin 1)).trans ?_
  refine (Ideal.multiReduction_add_single (k1_pay11 (F := Ideal) x0 x1 M) _ reduces_S2048x1024_S2048 _ _ (ix1 r)).trans ?_
  show ∑ κ : Fin 1024, k1_pay11 (F := Ideal) x0 x1 M (Shape.Reduces.lift reduces_S2048x1024_S2048 (ix1 r) κ) = _
  exact Finset.sum_congr rfl fun (κ : Fin 1024) _ => (congrArg (k1_pay11 (F := Ideal) x0 x1 M) (lift_row r κ)).trans (pay11_apply x0 x1 M r κ)

/-! ## The new running numerator -/

theorem d3_lhs_row (j : S2048x512.Idx) (q : DotDims.contr D3 |>.Idx) : (DotDims.lhsIdx D3 j q 0).val = (j 0).val := by
  unfold DotDims.lhsIdx
  rw [dif_neg (show ¬(0 : Fin S2048x1024.rank) ∈ DotDims.lhsBatch D3 by decide), dif_pos (show (0 : Fin S2048x1024.rank) ∈ DotDims.lhsNonContracting D3 by decide)]
  rfl
theorem d3_lhs_contr (j : S2048x512.Idx) (q : DotDims.contr D3 |>.Idx) : (DotDims.lhsIdx D3 j q 1).val = (q ⟨0, by decide⟩).val :=
  DotDims.lhsIdx_val_of_single D3 rfl j q
theorem d3_rhs_contr (j : S2048x512.Idx) (q : DotDims.contr D3 |>.Idx) : (DotDims.rhsIdx D3 j q 0).val = (q ⟨0, by decide⟩).val :=
  DotDims.rhsIdx_val_of_single D3 rfl j q
theorem d3_rhs_col (j : S2048x512.Idx) (q : DotDims.contr D3 |>.Idx) : (DotDims.rhsIdx D3 j q 1).val = (j 1).val := by
  unfold DotDims.rhsIdx
  rw [dif_neg (show ¬(1 : Fin S1024x512.rank) ∈ DotDims.rhsBatch D3 by decide), dif_pos (show (1 : Fin S1024x512.rank) ∈ DotDims.rhsNonContracting D3 by decide)]
  rfl

/-- The rescaled old numerator at (r, d): the rescale factor is broadcast along the row. -/
theorem pay13_apply (x0 : FVec Ideal S2048x512 .bf16) (x1 : FVec Ideal S1024x512 .bf16) (M : FVec Ideal S2048x1 .f32) (A : FVec Ideal S2048x512 .f32)
    (r : Fin 2048) (d : Fin 512) :
    k1_pay13 (F := Ideal) x0 x1 M M A (ix2 r d)
      = Ideal.exp (M (ix2 r (0 : Fin 1)) - stepM (M (ix2 r (0 : Fin 1))) (fun κ : Fin 1024 => sc x0 x1 r κ)) * A (ix2 r d) := by
  unfold k1_pay13
  show broadcastTo S2048x512 (k1_pay10 (F := Ideal) x0 x1 M M) broadcasts_S2048x1_S2048x512 (ix2 r d) * A (ix2 r d) = _
  rw [broadcastTo_a1_ab_apply (k1_pay10 (F := Ideal) x0 x1 M M) broadcasts_S2048x1_S2048x512 r d, pay10_apply]

/-- The value block as the body holds it: a cast to the same shape. -/
theorem pay7_eq (x2 : FVec Ideal S1024x512 .bf16) : k1_pay7 (F := Ideal) x2 = x2 := by
  unfold k1_pay7; exact shapeCast_self _ _

/-- The new numerator at (r, d): the old one rescaled, plus the block's exponentials times the value rows, summed
    over the 1024 keys of the block. -/
theorem pay1_apply (x0 : FVec Ideal S2048x512 .bf16) (x1 x2 : FVec Ideal S1024x512 .bf16) (M : FVec Ideal S2048x1 .f32) (A : FVec Ideal S2048x512 .f32)
    (r : Fin 2048) (d : Fin 512) :
    k1_pay1 (F := Ideal) (k1_pay7 (F := Ideal) x2) (k1_pay11 (F := Ideal) x0 x1 M) (k1_pay13 (F := Ideal) x0 x1 M M A) (ix2 r d)
      = stepA (M (ix2 r (0 : Fin 1))) (A (ix2 r d)) (fun κ : Fin 1024 => sc x0 x1 r κ) (fun κ : Fin 1024 => x2 (ix2 κ d)) := by
  rw [pay7_eq]
  unfold k1_pay1 stepA
  rw [shapeCast_self]
  refine congrArg₂ (· + ·) (pay13_apply x0 x1 M A r d) ?_
  simp only [matmul]
  refine (Ideal.matmul_constant_zero_apply D3 none _ _ (ix2 r d)).trans ?_
  rw [← Equiv.sum_comp (contrEquiv1 D3 1024 rfl rfl).symm]
  refine Finset.sum_congr rfl fun κ _ => ?_
  have hk := contrEquiv1_symm_val D3 1024 rfl rfl κ
  have el : DotDims.lhsIdx D3 (ix2 r d) ((contrEquiv1 D3 1024 rfl rfl).symm κ) = ix2 r κ := funext fun a => Fin.ext (by
    match a with
    | ⟨0, _⟩ => exact d3_lhs_row _ _
    | ⟨1, _⟩ => exact (d3_lhs_contr _ _).trans hk)
  have er : DotDims.rhsIdx D3 (ix2 r d) ((contrEquiv1 D3 1024 rfl rfl).symm κ) = ix2 κ d := funext fun a => Fin.ext (by
    match a with
    | ⟨0, _⟩ => exact (d3_rhs_contr _ _).trans hk
    | ⟨1, _⟩ => exact d3_rhs_col _ _)
  rw [el, er]
  exact congrArg (· * x2 (ix2 κ d)) (pay11_apply x0 x1 M r κ)

/-! ## The stored statistics, the final quotient and the initial values -/

/-- The stored maximum: a cast to the same shape. -/
theorem pay2_eq (v : FVec Ideal S2048x1 .f32) : k1_pay2 (F := Ideal) v = v := by
  unfold k1_pay2; exact shapeCast_self _ _

/-- The output at (r, d): the numerator divided by the row's denominator. -/
theorem pay3_apply (A : FVec Ideal S2048x512 .f32) (L : FVec Ideal S2048x1 .f32) (r : Fin 2048) (d : Fin 512) :
    k1_pay3 (F := Ideal) A L (ix2 r d) = Ideal.div (A (ix2 r d)) (L (ix2 r (0 : Fin 1))) := by
  unfold k1_pay3
  show Ideal.div (A (ix2 r d)) (broadcastTo S2048x512 L broadcasts_S2048x1_S2048x512 (ix2 r d)) = _
  rw [broadcastTo_a1_ab_apply L broadcasts_S2048x1_S2048x512 r d]

/-- The initial maximum is -∞ … -/
theorem pay4_apply (i : S2048x1.Idx) : k1_pay4 (F := Ideal) i = ⊥ := by
  unfold k1_pay4
  rw [shapeCast_self]
  exact ofBits_neg_inf_f32
/-- … the initial denominator 0 … -/
theorem pay5_apply (i : S2048x1.Idx) : k1_pay5 (F := Ideal) i = 0 := by
  unfold k1_pay5
  rw [shapeCast_self]
  exact Ideal.ofBits_zero_f32
/-- … and the initial numerator 0. -/
theorem pay6_apply (i : S2048x512.Idx) : k1_pay6 (F := Ideal) i = 0 := by
  unfold k1_pay6
  rw [shapeCast_self]
  exact Ideal.ofBits_zero_f32

end Cert.KernelIdeal.R1P

end
-- ==== Proof.KIRegion1Blocks.lean ====
/-
  The attention region's blocks, read in the arrays.

  The region's grid is 4 x 8; point t = 8 · i + j.  The query window's block at t is rows
  2048 · i … 2048 · i + 2047 of its array, the key and the value windows' blocks are rows
  1024 · j … 1024 · j + 1023 of theirs, and the output window's block is rows 2048 · i … of the output
  array, written back only where j = 7.  A block's element sits in the array, on each axis, at the block
  index times the block's size plus its own coordinate; the printed index maps are decided once over
  the 32 points.  Since row n of the output lies in the block written back at the point
  8 · (n / 2048) + 7, the four written blocks tile the output array, and the array after the region
  is any function whose blocks those four points write.
-/
import proofs.«176492_j72395968741836_2_alg».proof.Proof.KIRegion1
import Idealize.ShloMosaic.Lib.Pipeline.Value
import Idealize.ShloMosaic.Lib.ValueIdx

set_option maxRecDepth 16384

noncomputable section

namespace Cert.KernelIdeal.R1B

open Cert.KernelIdeal Cert.KernelIdeal.Gen Cert.KernelIdeal.R1
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-! ## The index maps over the grid -/

/-- The printed index maps, decided over the 32 points: the query and the output windows sit at block
    (t / 8, 0), the key and the value windows at block (t % 8, 0). -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0 :=
  (by decide +kernel : ∀ t : Fin grid1.N, _)

/-- A point is below 32. -/
theorem pos_lt (t : Fin cfg1.N) : t.val < 32 := Nat.lt_of_lt_of_eq t.isLt N_1

/-- Row r of the query block of point t is a row of the array. -/
theorem row_lt (t : Fin cfg1.N) (r : Fin 2048) : 2048 * (t.val / 8) + r.val < 8192 := by
  have := pos_lt t; have := r.isLt; omega

/-- Row κ of the key block of point t is a row of the array. -/
theorem key_lt (t : Fin cfg1.N) (κ : Fin 1024) : 1024 * (t.val % 8) + κ.val < 8192 := by
  have := κ.isLt; omega

/-! ## The input blocks -/

/-- The query block at point t, at (r, e), is the query array at (2048 · (t / 8) + r, e). -/
theorem iblk1_0_apply (c : Dev nD) (t : Fin cfg1.N) (r : Fin 2048) (e : Fin 512) :
    (iblk1 V c 0 t : S2048x512.Idx → Elt F .bf16) (ix2 r e)
      = (V c main_v5_0 : S8192x512.Idx → Elt F .bf16) (ix2 ⟨2048 * (t.val / 8) + r.val, row_lt t r⟩ e) := by
  obtain ⟨e0, e1, -⟩ := idx_facts1 t
  show (V c main_v5_0 : S8192x512.Idx → Elt F .bf16) (((cfg1.win 0).blk t).view.emb (ix2 r e)) = _
  refine congrArg _ (funext fun a => Fin.ext ?_)
  match a with
  | ⟨0, _⟩ => show win1_0.index t (0 : Fin 2) * 2048 + 1 * r.val = 2048 * (t.val / 8) + r.val; omega
  | ⟨1, _⟩ => show win1_0.index t (1 : Fin 2) * 512 + 1 * e.val = e.val; omega

/-- The key block at point t, at (κ, e), is the key array at (1024 · (t % 8) + κ, e). -/
theorem iblk1_1_apply (c : Dev nD) (t : Fin cfg1.N) (κ : Fin 1024) (e : Fin 512) :
    (iblk1 V c 1 t : S1024x512.Idx → Elt F .bf16) (ix2 κ e)
      = (V c main_v5_1 : S8192x512.Idx → Elt F .bf16) (ix2 ⟨1024 * (t.val % 8) + κ.val, key_lt t κ⟩ e) := by
  obtain ⟨-, -, e0, e1, -⟩ := idx_facts1 t
  show (V c main_v5_1 : S8192x512.Idx → Elt F .bf16) (((cfg1.win 1).blk t).view.emb (ix2 κ e)) = _
  refine congrArg _ (funext fun a => Fin.ext ?_)
  match a with
  | ⟨0, _⟩ => show win1_1.index t (0 : Fin 2) * 1024 + 1 * κ.val = 1024 * (t.val % 8) + κ.val; omega
  | ⟨1, _⟩ => show win1_1.index t (1 : Fin 2) * 512 + 1 * e.val = e.val; omega

/-- The value block at point t, at (κ, e), is the value array at (1024 · (t % 8) + κ, e). -/
theorem iblk1_2_apply (c : Dev nD) (t : Fin cfg1.N) (κ : Fin 1024) (e : Fin 512) :
    (iblk1 V c 2 t : S1024x512.Idx → Elt F .bf16) (ix2 κ e)
      = (V c main_v5_2 : S8192x512.Idx → Elt F .bf16) (ix2 ⟨1024 * (t.val % 8) + κ.val, key_lt t κ⟩ e) := by
  obtain ⟨-, -, -, -, e0, e1, -⟩ := idx_facts1 t
  show (V c main_v5_2 : S8192x512.Idx → Elt F .bf16) (((cfg1.win 2).blk t).view.emb (ix2 κ e)) = _
  refine congrArg _ (funext fun a => Fin.ext ?_)
  match a with
  | ⟨0, _⟩ => show win1_2.index t (0 : Fin 2) * 1024 + 1 * κ.val = 1024 * (t.val % 8) + κ.val; omega
  | ⟨1, _⟩ => show win1_2.index t (1 : Fin 2) * 512 + 1 * e.val = e.val; omega

/-! ## The output array -/

/-- An index of the output array is in point t's block iff each coordinate is in the block's range. -/
theorem mem_blk1_3 (t : Fin cfg1.N) (i : S8192x512.Idx) :
    i ∈ ((cfg1.win 3).blk t).view.set ↔ ∀ a : Fin 2, win1_3.index t a * S2048x512.size a ≤ (i a).val
      ∧ (i a).val < win1_3.index t a * S2048x512.size a + S2048x512.size a := by
  show i ∈ ((View.whole main_v6).slice (win1_3.rect t)).set ↔ _
  rw [View.set_slice_whole, Rect.mem_set_unit]
  exact Iff.rfl

/-- Row n lies in the block written back at the point 8 · (n / 2048) + 7: the four written blocks tile
    the array. -/
theorem cover1_3 (i : S8192x512.Idx) :
    ∃ t : Fin cfg1.N, (cfg1.win 3).flush t = true ∧ i ∈ ((cfg1.win 3).blk t).view.set := by
  have hi0 : (i 0).val < 8192 := idx2_lt0 i
  have hi1 : (i 1).val < 512 := idx2_lt1 i
  have hlt : 8 * ((i 0).val / 2048) + 7 < cfg1.N :=
    Nat.lt_of_lt_of_eq (by omega : 8 * ((i 0).val / 2048) + 7 < 32) N_1.symm
  refine ⟨⟨8 * ((i 0).val / 2048) + 7, hlt⟩, (flush1_3 _).2 (by show (8 * ((i 0).val / 2048) + 7) % 8 = 7; omega), ?_⟩
  rw [mem_blk1_3]
  obtain ⟨-, -, -, -, -, -, f0, f1⟩ := idx_facts1 ⟨8 * ((i 0).val / 2048) + 7, hlt⟩
  have g0 : win1_3.index ⟨8 * ((i 0).val / 2048) + 7, hlt⟩ (0 : Fin 2) = (8 * ((i 0).val / 2048) + 7) / 8 := f0
  intro a
  match a with
  | ⟨0, _⟩ => show win1_3.index _ (0 : Fin 2) * 2048 ≤ (i 0).val ∧ (i 0).val < win1_3.index _ (0 : Fin 2) * 2048 + 2048; omega
  | ⟨1, _⟩ => show win1_3.index _ (1 : Fin 2) * 512 ≤ (i 1).val ∧ (i 1).val < win1_3.index _ (1 : Fin 2) * 512 + 512; omega

/-- What a point that writes back writes is its block of G, when the output window's buffer after
    every point with j = 7 holds the rows of G that the point's block covers. -/
theorem flushed1_3_eq {c : Dev nD} (dat : Dat τ (Elt F) Unit ℕ (UR sig nD τ) ℕ cfg1 c)
    (G : S8192x512.Idx → Elt F .f32)
    (h : ∀ (t : Fin cfg1.N), t.val % 8 = 7 → ∀ (r : Fin 2048) (d : Fin 512),
      (dat.after 3 t : S2048x512.Idx → Elt F .f32) (ix2 r d)
        = G (ix2 ⟨2048 * (t.val / 8) + r.val, row_lt t r⟩ d))
    (t : Fin cfg1.N) (hf : (cfg1.win 3).flush t = true) :
    dat.flushed 3 t = ((cfg1.win 3).blk t).view.read (Elt F) G := by
  have h7 : t.val % 8 = 7 := (flush1_3 t).1 hf
  obtain ⟨-, -, -, -, -, -, e0, e1⟩ := idx_facts1 t
  show (cfg1.win 3).cut (grid1.coords t) (dat.after 3 t) = _
  funext y
  obtain ⟨r, d, rfl⟩ : ∃ (r : Fin 2048) (d : Fin 512), y = ix2 r d := ⟨y 0, y 1, eq_ix2 y⟩
  show (dat.after 3 t : S2048x512.Idx → Elt F .f32) (ix2 r d) = G (((cfg1.win 3).blk t).view.emb (ix2 r d))
  rw [h t h7 r d]
  refine congrArg G (funext fun a => Fin.ext ?_)
  match a with
  | ⟨0, _⟩ => show 2048 * (t.val / 8) + r.val = win1_3.index t (0 : Fin 2) * 2048 + 1 * r.val; omega
  | ⟨1, _⟩ => show d.val = win1_3.index t (1 : Fin 2) * 512 + 1 * d.val; omega

/-- The output array after the region's 32 points is G. -/
theorem final1_3 {c : Dev nD} (dat : Dat τ (Elt F) Unit ℕ (UR sig nD τ) ℕ cfg1 c)
    (G : S8192x512.Idx → Elt F .f32)
    (h : ∀ (t : Fin cfg1.N), t.val % 8 = 7 → ∀ (r : Fin 2048) (d : Fin 512),
      (dat.after 3 t : S2048x512.Idx → Elt F .f32) (ix2 r d)
        = G (ix2 ⟨2048 * (t.val / 8) + r.val, row_lt t r⟩ d)) :
    dat.arrAt 3 cfg1.N = G :=
  dat.arrAt_eq_of_cover 3 G (fun t hf => flushed1_3_eq dat G h t hf) cover1_3

end Cert.KernelIdeal.R1B

end
-- ==== Proof.OnlineRow.lean ====
/-
  Finiteness of the projections and scores, and the online recursion over one row.

  When every entry of z, W and b is a real, each projection entry (∑ k, z[n,k] · W[e,k]) + b[e] is a
  real: finite sums and products of reals are reals.  The scale is a real constant, so each score
  (∑ e, q n e · k t e) · c of real q and k is a real as well.  Row n of the scores, read as eight
  blocks of 1024 with the values of column d of v, therefore satisfies the hypotheses of the
  online-softmax theorem, whose conclusion, 8 · 1024 being 8192, is the attention entry (n, d).
-/
import proofs.«176492_j72395968741836_2_alg».proof.Proof.Spec
import proofs.«176492_j72395968741836_2_alg».proof.Proof.LibOnlineSoftmax

noncomputable section

namespace Cert.OnlineRow

open Idealize.ShloMosaic Idealize.ShloMosaic.ValueIdx

/-! ### Reals are closed under the operations used -/

/-- An extended real that is neither infinity is a real. -/
theorem exists_coe {x : EReal} (h : x ≠ ⊤ ∧ x ≠ ⊥) : ∃ r : ℝ, x = (r : EReal) :=
  ⟨x.toReal, (EReal.coe_toReal h.1 h.2).symm⟩

/-- A real is neither infinity. -/
theorem coe_finite (r : ℝ) : (r : EReal) ≠ ⊤ ∧ (r : EReal) ≠ ⊥ :=
  ⟨EReal.coe_ne_top r, EReal.coe_ne_bot r⟩

/-- The product of two reals is a real. -/
theorem mul_finite {x y : EReal} (hx : x ≠ ⊤ ∧ x ≠ ⊥) (hy : y ≠ ⊤ ∧ y ≠ ⊥) :
    x * y ≠ ⊤ ∧ x * y ≠ ⊥ := by
  obtain ⟨a, rfl⟩ := exists_coe hx
  obtain ⟨b, rfl⟩ := exists_coe hy
  rw [← EReal.coe_mul]
  exact coe_finite _

/-- The sum of two reals is a real. -/
theorem add_finite {x y : EReal} (hx : x ≠ ⊤ ∧ x ≠ ⊥) (hy : y ≠ ⊤ ∧ y ≠ ⊥) :
    x + y ≠ ⊤ ∧ x + y ≠ ⊥ := by
  obtain ⟨a, rfl⟩ := exists_coe hx
  obtain ⟨b, rfl⟩ := exists_coe hy
  rw [← EReal.coe_add]
  exact coe_finite _

/-- A finite sum of reals is a real. -/
theorem sum_finite {ι : Type*} (s : Finset ι) (f : ι → EReal) (h : ∀ i, f i ≠ ⊤ ∧ f i ≠ ⊥) :
    (∑ i ∈ s, f i) ≠ ⊤ ∧ (∑ i ∈ s, f i) ≠ ⊥ := by
  obtain ⟨g, rfl⟩ : ∃ g : ι → ℝ, f = fun i => ((g i : ℝ) : EReal) :=
    ⟨fun i => (f i).toReal, funext fun i => (EReal.coe_toReal (h i).1 (h i).2).symm⟩
  rw [← LibOnlineSoftmax.coe_sum]
  exact coe_finite _

/-! ### Projections, the scale and the scores -/

/-- A projection of real rows by a real weight and bias has real entries. -/
theorem proj_finite (z : (⟨2, ![8192, 512]⟩ : Shape).Idx → EReal)
    (W : (⟨2, ![512, 512]⟩ : Shape).Idx → EReal) (b : (⟨1, ![512]⟩ : Shape).Idx → EReal)
    (hz : ∀ i, z i ≠ ⊤ ∧ z i ≠ ⊥) (hW : ∀ i, W i ≠ ⊤ ∧ W i ≠ ⊥) (hb : ∀ i, b i ≠ ⊤ ∧ b i ≠ ⊥)
    (n : Fin 8192) (e : Fin 512) :
    Spec.proj z W b n e ≠ ⊤ ∧ Spec.proj z W b n e ≠ ⊥ :=
  add_finite (sum_finite _ _ (fun k => mul_finite (hz _) (hW _))) (hb _)

/-- The scale is a real. -/
theorem scale_finite : Spec.scale ≠ ⊤ ∧ Spec.scale ≠ ⊥ := by
  constructor <;> simp [Spec.scale, Ideal.ofBits, Ideal.ieee, -EReal.coe_mul]

/-- A score of real q and k is a real. -/
theorem score_finite (q k : Fin 8192 → Fin 512 → EReal)
    (hq : ∀ n e, q n e ≠ ⊤ ∧ q n e ≠ ⊥) (hk : ∀ n e, k n e ≠ ⊤ ∧ k n e ≠ ⊥) (n t : Fin 8192) :
    Spec.score q k n t ≠ ⊤ ∧ Spec.score q k n t ≠ ⊥ :=
  mul_finite (sum_finite _ _ (fun e => mul_finite (hq n e) (hk t e))) scale_finite

/-! ### One row as a sequence -/

/-- Inside the row the sequence of scores is the score. -/
theorem srow_val (q k : Fin 8192 → Fin 512 → EReal) (n t : Fin 8192) :
    Spec.srow q k n t.val = Spec.score q k n t := by
  rw [Spec.srow, dif_pos t.isLt]

/-- Inside the column the sequence of values is the value. -/
theorem vcol_val (v : Fin 8192 → Fin 512 → EReal) (d : Fin 512) (t : Fin 8192) :
    Spec.vcol v d t.val = v t d := by
  rw [Spec.vcol, dif_pos t.isLt]

/-- The sequence of scores of real q and k is real everywhere (zero past the row). -/
theorem srow_finite (q k : Fin 8192 → Fin 512 → EReal)
    (hq : ∀ n e, q n e ≠ ⊤ ∧ q n e ≠ ⊥) (hk : ∀ n e, k n e ≠ ⊤ ∧ k n e ≠ ⊥) (n : Fin 8192) (t : ℕ) :
    Spec.srow q k n t ≠ ⊤ ∧ Spec.srow q k n t ≠ ⊥ := by
  unfold Spec.srow
  split
  · exact score_finite q k hq hk n _
  · exact coe_finite 0

/-- The sequence of values of a real v is real everywhere (zero past the column). -/
theorem vcol_finite (v : Fin 8192 → Fin 512 → EReal)
    (hv : ∀ n e, v n e ≠ ⊤ ∧ v n e ≠ ⊥) (d : Fin 512) (t : ℕ) :
    Spec.vcol v d t ≠ ⊤ ∧ Spec.vcol v d t ≠ ⊥ := by
  unfold Spec.vcol
  split
  · exact hv _ d
  · exact coe_finite 0

/-! ### The online recursion over a row is the attention entry -/

/-- Eight blocks of 1024 scores of row n, with the values of column d of v, leave the quotient
    A / L equal to the attention entry (n, d). -/
theorem online_row (q k v : Fin 8192 → Fin 512 → EReal)
    (hq : ∀ n e, q n e ≠ ⊤ ∧ q n e ≠ ⊥) (hk : ∀ n e, k n e ≠ ⊤ ∧ k n e ≠ ⊥)
    (hv : ∀ n e, v n e ≠ ⊤ ∧ v n e ≠ ⊥) (n : Fin 8192) (d : Fin 512) :
    Ideal.div
        (Cert.LibOnlineSoftmax.state (b := 1024)
          (fun j κ => Cert.Spec.srow q k n (j * 1024 + κ.val))
          (fun j κ => Cert.Spec.vcol v d (j * 1024 + κ.val)) 8).2.2
        (Cert.LibOnlineSoftmax.state (b := 1024)
          (fun j κ => Cert.Spec.srow q k n (j * 1024 + κ.val))
          (fun j κ => Cert.Spec.vcol v d (j * 1024 + κ.val)) 8).2.1
      = Cert.Spec.attn q k v n d := by
  have h : _ = ∑ t : Fin 8192,
      Ideal.div
        (Ideal.exp (Spec.srow q k n t.val
          - max ⊥ ((Finset.univ : Finset (Fin 8192)).fold max ⊥ (fun t => Spec.srow q k n t.val))))
        (0 + ∑ t' : Fin 8192, Ideal.exp (Spec.srow q k n t'.val
          - max ⊥ ((Finset.univ : Finset (Fin 8192)).fold max ⊥ (fun t => Spec.srow q k n t.val))))
        * Spec.vcol v d t.val :=
    LibOnlineSoftmax.online_eq_finite 8 1024 (by norm_num) (by norm_num)
      (Spec.srow q k n) (Spec.vcol v d) (srow_finite q k hq hk n) (vcol_finite v hv d)
  rw [h]
  simp only [srow_val, vcol_val]
  rfl

end Cert.OnlineRow

end
-- ==== Proof.OnlineInd.lean ====
/-
  The online recursion along the grid of the attention region.

  The region visits 32 positions t = 8 · i + j: i < 4 is the block of 2048 query rows, j < 8 the block
  of 1024 keys.  Row r of query block i is row 2048 · i + r of the whole array.  Three families
  indexed by the position, M and L (one entry per row of the block) and A (one entry per row and
  column), are given by the recursion's first step where j = 0 and by its general step from the
  position before where j > 0, the block of scores being columns 1024 · j … 1024 · j + 1023 of the
  row.  Then after position t they are the state of the online recursion over that row after j + 1
  blocks (induction on j inside a block of eight positions: t and t - 1 have the same i when j > 0),
  and where j = 7 the quotient A / L is the attention entry.
-/
import proofs.«176492_j72395968741836_2_alg».proof.Proof.Spec
import proofs.«176492_j72395968741836_2_alg».proof.Proof.LibOnlineSoftmax
import proofs.«176492_j72395968741836_2_alg».proof.Proof.OnlineRow

noncomputable section

namespace Cert.OnlineInd

open Idealize.ShloMosaic Cert.LibOnlineSoftmax

/-- Row r of the query block of position t, as a row of the whole array. -/
abbrev row (t : ℕ) (ht : t < 32) (r : Fin 2048) : Fin 8192 :=
  ⟨2048 * (t / 8) + r.val, by have := r.isLt; omega⟩

variable (q k v : Fin 8192 → Fin 512 → EReal)
  (M L : ℕ → Fin 2048 → EReal) (A : ℕ → Fin 2048 → Fin 512 → EReal)

/-- After position t the three families are the state of the online recursion over the row after
    t % 8 + 1 blocks. -/
theorem state_at
    (hA : ∀ (t : ℕ) (ht : t < 32), t % 8 = 0 → ∀ r : Fin 2048,
      M t r = stepM ⊥ (fun κ : Fin 1024 => Spec.srow q k (row t ht r) ((t % 8) * 1024 + κ.val))
      ∧ L t r = stepL ⊥ 0 (fun κ : Fin 1024 => Spec.srow q k (row t ht r) ((t % 8) * 1024 + κ.val))
      ∧ ∀ d : Fin 512, A t r d = stepA ⊥ 0 (fun κ : Fin 1024 => Spec.srow q k (row t ht r) ((t % 8) * 1024 + κ.val))
          (fun κ : Fin 1024 => Spec.vcol v d ((t % 8) * 1024 + κ.val)))
    (hB : ∀ (t : ℕ) (ht : t < 32), t % 8 ≠ 0 → ∀ r : Fin 2048,
      M t r = stepM (M (t - 1) r) (fun κ : Fin 1024 => Spec.srow q k (row t ht r) ((t % 8) * 1024 + κ.val))
      ∧ L t r = stepL (M (t - 1) r) (L (t - 1) r) (fun κ : Fin 1024 => Spec.srow q k (row t ht r) ((t % 8) * 1024 + κ.val))
      ∧ ∀ d : Fin 512, A t r d = stepA (M (t - 1) r) (A (t - 1) r d) (fun κ : Fin 1024 => Spec.srow q k (row t ht r) ((t % 8) * 1024 + κ.val))
          (fun κ : Fin 1024 => Spec.vcol v d ((t % 8) * 1024 + κ.val))) :
    ∀ (t : ℕ) (ht : t < 32) (r : Fin 2048) (d : Fin 512),
      (M t r, L t r, A t r d)
        = state (b := 1024) (fun j κ => Spec.srow q k (row t ht r) (j * 1024 + κ.val))
          (fun j κ => Spec.vcol v d (j * 1024 + κ.val)) (t % 8 + 1) := by
  have key : ∀ (j t : ℕ) (ht : t < 32), t % 8 = j → ∀ (r : Fin 2048) (d : Fin 512),
      (M t r, L t r, A t r d)
        = state (b := 1024) (fun j κ => Spec.srow q k (row t ht r) (j * 1024 + κ.val))
          (fun j κ => Spec.vcol v d (j * 1024 + κ.val)) (j + 1) := by
    intro j
    induction j with
    | zero =>
      intro t ht h0 r d
      obtain ⟨h1, h2, h3⟩ := hA t ht h0 r
      rw [state_succ, state_zero, h1, h2, h3 d]
      dsimp only
      simp only [h0]
    | succ j ih =>
      intro t ht hj r d
      have hne : t % 8 ≠ 0 := by omega
      have ht' : t - 1 < 32 := by omega
      have hj' : (t - 1) % 8 = j := by omega
      have hrow : row (t - 1) ht' r = row t ht r :=
        Fin.ext (by show 2048 * ((t - 1) / 8) + r.val = 2048 * (t / 8) + r.val; omega)
      have IH := ih (t - 1) ht' hj' r d
      rw [hrow] at IH
      obtain ⟨h1, h2, h3⟩ := hB t ht hne r
      rw [state_succ, ← IH, h1, h2, h3 d]
      dsimp only
      simp only [hj]
  intro t ht r d
  exact key (t % 8) t ht rfl r d

/-- Where the key block is the last one the quotient A / L is the attention entry. -/
theorem quotient_at
    (hA : ∀ (t : ℕ) (ht : t < 32), t % 8 = 0 → ∀ r : Fin 2048,
      M t r = stepM ⊥ (fun κ : Fin 1024 => Spec.srow q k (row t ht r) ((t % 8) * 1024 + κ.val))
      ∧ L t r = stepL ⊥ 0 (fun κ : Fin 1024 => Spec.srow q k (row t ht r) ((t % 8) * 1024 + κ.val))
      ∧ ∀ d : Fin 512, A t r d = stepA ⊥ 0 (fun κ : Fin 1024 => Spec.srow q k (row t ht r) ((t % 8) * 1024 + κ.val))
          (fun κ : Fin 1024 => Spec.vcol v d ((t % 8) * 1024 + κ.val)))
    (hB : ∀ (t : ℕ) (ht : t < 32), t % 8 ≠ 0 → ∀ r : Fin 2048,
      M t r = stepM (M (t - 1) r) (fun κ : Fin 1024 => Spec.srow q k (row t ht r) ((t % 8) * 1024 + κ.val))
      ∧ L t r = stepL (M (t - 1) r) (L (t - 1) r) (fun κ : Fin 1024 => Spec.srow q k (row t ht r) ((t % 8) * 1024 + κ.val))
      ∧ ∀ d : Fin 512, A t r d = stepA (M (t - 1) r) (A (t - 1) r d) (fun κ : Fin 1024 => Spec.srow q k (row t ht r) ((t % 8) * 1024 + κ.val))
          (fun κ : Fin 1024 => Spec.vcol v d ((t % 8) * 1024 + κ.val)))
    (hq : ∀ n e, q n e ≠ ⊤ ∧ q n e ≠ ⊥) (hk : ∀ n e, k n e ≠ ⊤ ∧ k n e ≠ ⊥)
    (hv : ∀ n e, v n e ≠ ⊤ ∧ v n e ≠ ⊥) :
    ∀ (t : ℕ) (ht : t < 32), t % 8 = 7 → ∀ (r : Fin 2048) (d : Fin 512),
      Ideal.div (A t r d) (L t r) = Spec.attn q k v (row t ht r) d := by
  intro t ht h7 r d
  have h := state_at q k v M L A hA hB t ht r d
  have h8 : t % 8 + 1 = 8 := by omega
  rw [h8] at h
  have e := OnlineRow.online_row q k v hq hk hv (row t ht r) d
  rw [← h] at e
  exact e

end Cert.OnlineInd

end
-- ==== Proof.KIRegion1Value.lean ====
/- What the attention region leaves in the result array.  The region visits 32 positions t = 8 i + j; at each
   it reads query rows 2048 i …, key and value rows 1024 j …, and performs one step of the online-softmax
   recursion on the three scratch buffers (running maximum, denominator, numerator), from the reset values
   where j = 0 and from what the position before left otherwise; where j = 7 it stores numerator / denominator.
   The scratch contents after each position therefore satisfy the recursion's step equations over the rows of
   the score matrix, and the stored quotient is the attention entry. -/
import proofs.«176492_j72395968741836_2_alg».proof.Proof.KIRegion1Dat
import proofs.«176492_j72395968741836_2_alg».proof.Proof.KIRegion1Pieces
import proofs.«176492_j72395968741836_2_alg».proof.Proof.KIRegion1Pay
import proofs.«176492_j72395968741836_2_alg».proof.Proof.KIRegion1Blocks
import proofs.«176492_j72395968741836_2_alg».proof.Proof.OnlineInd

set_option maxRecDepth 16384

noncomputable section

namespace Cert.KernelIdeal.R1V

open Cert.KernelIdeal Cert.KernelIdeal.Gen Cert.KernelIdeal.R1 Cert.KernelIdeal.R1P Cert.KernelIdeal.R1B
open Idealize.ShloMosaic Idealize.ShloMosaic.TcCoe Idealize.SL.Sem
open Idealize.ShloMosaic.Pipeline (Dat)
open Idealize.ShloMosaic.ValueIdx
open Cert.LibOnlineSoftmax Cert.OnlineInd

variable (V : (c : Dev nD) → (b : Ref sig .tc) → Buf (Elt Ideal) ((c : Thread nD τ).loc b)) (c : Dev nD)
variable (q k v : Fin 8192 → Fin 512 → EReal)

/-! ## The block's scores and values are the row's -/

/-- Column κ of key block t % 8 is column (t % 8) · 1024 + κ of the row. -/
theorem col_lt (t : Fin cfg1.N) (κ : Fin 1024) : (t.val % 8) * 1024 + κ.val < 8192 := by
  have := κ.isLt; omega

theorem key_eq (t : Fin cfg1.N) (κ : Fin 1024) :
    (⟨1024 * (t.val % 8) + κ.val, key_lt t κ⟩ : Fin 8192) = ⟨(t.val % 8) * 1024 + κ.val, col_lt t κ⟩ :=
  Fin.ext (by show 1024 * (t.val % 8) + κ.val = (t.val % 8) * 1024 + κ.val; omega)

/-- The block's scaled score at (r, κ) is the score of the row against that column. -/
theorem sc_eq (hq : ∀ n e, (V c main_v5_0 : S8192x512.Idx → EReal) (ix2 n e) = q n e) (hk : ∀ n e, (V c main_v5_1 : S8192x512.Idx → EReal) (ix2 n e) = k n e) (t : Fin cfg1.N) (r : Fin 2048) (κ : Fin 1024) :
    sc (iblk1 V c 0 t) (iblk1 V c 1 t) r κ = Spec.srow q k (row t.val (pos_lt t) r) ((t.val % 8) * 1024 + κ.val) := by
  refine Eq.trans ?_ (OnlineRow.srow_val q k (row t.val (pos_lt t) r) ⟨(t.val % 8) * 1024 + κ.val, col_lt t κ⟩).symm
  unfold sc Spec.score
  refine congrArg (· * Spec.scale) (Finset.sum_congr rfl fun e _ => congrArg₂ (· * ·) ?_ ?_)
  · exact (iblk1_0_apply V c t r e).trans (hq _ e)
  · exact (iblk1_1_apply V c t κ e).trans ((hk _ e).trans (congrArg (fun n => k n e) (key_eq t κ)))

/-- The value block at (κ, d) is the value column at that row. -/
theorem val_eq (hv : ∀ n e, (V c main_v5_2 : S8192x512.Idx → EReal) (ix2 n e) = v n e) (t : Fin cfg1.N) (κ : Fin 1024) (d : Fin 512) :
    (iblk1 V c 2 t : S1024x512.Idx → EReal) (ix2 κ d) = Spec.vcol v d ((t.val % 8) * 1024 + κ.val) :=
  (iblk1_2_apply V c t κ d).trans ((hv _ d).trans ((congrArg (fun n => v n d) (key_eq t κ)).trans
    (OnlineRow.vcol_val v d ⟨(t.val % 8) * 1024 + κ.val, col_lt t κ⟩).symm))

/-! ## One step of the recursion at a position, from any previous state -/

theorem stepM_at (hq : ∀ n e, (V c main_v5_0 : S8192x512.Idx → EReal) (ix2 n e) = q n e) (hk : ∀ n e, (V c main_v5_1 : S8192x512.Idx → EReal) (ix2 n e) = k n e) (t : Fin cfg1.N) (M : FVec Ideal S2048x1 .f32) (r : Fin 2048) :
    k1_pay2 (F := Ideal) (k1_pay9 (F := Ideal) (iblk1 V c 0 t) (iblk1 V c 1 t) M) (ix2 r (0 : Fin 1)) = stepM (M (ix2 r (0 : Fin 1))) (fun κ : Fin 1024 => Spec.srow q k (row t.val (pos_lt t) r) ((t.val % 8) * 1024 + κ.val)) := by
  rw [pay2_eq]
  exact (pay9_apply (iblk1 V c 0 t) (iblk1 V c 1 t) M r).trans
    (congrArg (stepM (M (ix2 r (0 : Fin 1)))) (funext fun κ => sc_eq V c q k hq hk t r κ))

theorem stepL_at (hq : ∀ n e, (V c main_v5_0 : S8192x512.Idx → EReal) (ix2 n e) = q n e) (hk : ∀ n e, (V c main_v5_1 : S8192x512.Idx → EReal) (ix2 n e) = k n e) (t : Fin cfg1.N) (M L : FVec Ideal S2048x1 .f32) (r : Fin 2048) :
    k1_pay12 (F := Ideal) (iblk1 V c 0 t) (iblk1 V c 1 t) M M L (ix2 r (0 : Fin 1)) = stepL (M (ix2 r (0 : Fin 1))) (L (ix2 r (0 : Fin 1))) (fun κ : Fin 1024 => Spec.srow q k (row t.val (pos_lt t) r) ((t.val % 8) * 1024 + κ.val)) :=
  (pay12_apply (iblk1 V c 0 t) (iblk1 V c 1 t) M L r).trans
    (congrArg (stepL (M (ix2 r (0 : Fin 1))) (L (ix2 r (0 : Fin 1)))) (funext fun κ => sc_eq V c q k hq hk t r κ))

theorem stepA_at (hq : ∀ n e, (V c main_v5_0 : S8192x512.Idx → EReal) (ix2 n e) = q n e) (hk : ∀ n e, (V c main_v5_1 : S8192x512.Idx → EReal) (ix2 n e) = k n e) (hv : ∀ n e, (V c main_v5_2 : S8192x512.Idx → EReal) (ix2 n e) = v n e) (t : Fin cfg1.N) (M : FVec Ideal S2048x1 .f32) (A : FVec Ideal S2048x512 .f32) (r : Fin 2048) (d : Fin 512) :
    k1_pay1 (F := Ideal) (k1_pay7 (F := Ideal) (iblk1 V c 2 t)) (k1_pay11 (F := Ideal) (iblk1 V c 0 t) (iblk1 V c 1 t) M) (k1_pay13 (F := Ideal) (iblk1 V c 0 t) (iblk1 V c 1 t) M M A) (ix2 r d) = stepA (M (ix2 r (0 : Fin 1))) (A (ix2 r d)) (fun κ : Fin 1024 => Spec.srow q k (row t.val (pos_lt t) r) ((t.val % 8) * 1024 + κ.val)) (fun κ : Fin 1024 => Spec.vcol v d ((t.val % 8) * 1024 + κ.val)) :=
  (pay1_apply (iblk1 V c 0 t) (iblk1 V c 1 t) (iblk1 V c 2 t) M A r d).trans
    (congrArg₂ (stepA (M (ix2 r (0 : Fin 1))) (A (ix2 r d))) (funext fun κ => sc_eq V c q k hq hk t r κ)
      (funext fun κ => val_eq V c v hv t κ d))

/-! ## The scratch contents after each position, as the body's arithmetic -/

/-- What the position before left. -/
abbrev prev (t : Fin cfg1.N) : Vec Ideal S2048x512 .f32 × Vec Ideal S2048x1 .f32 × Vec Ideal S2048x1 .f32 × Vec Ideal S2048x512 .f32 :=
  outsAt1 (F := Ideal) V c (t.val - 1) (Nat.lt_of_le_of_lt (Nat.sub_le _ _) t.isLt)

/-- At the first key block the three scratch buffers are one step from the reset values. -/
theorem comps_first (t : Fin cfg1.N) (h0 : t.val % 8 = 0) (h1 : ¬t.val % 8 = 7) :
    (outsAt1 (F := Ideal) V c t.val t.isLt).2.1 = k1_pay2 (F := Ideal) (k1_pay9 (F := Ideal) (iblk1 V c 0 t) (iblk1 V c 1 t) (k1_pay4 (F := Ideal)))
    ∧ (outsAt1 (F := Ideal) V c t.val t.isLt).2.2.1 = k1_pay12 (F := Ideal) (iblk1 V c 0 t) (iblk1 V c 1 t) (k1_pay4 (F := Ideal)) (k1_pay4 (F := Ideal)) (k1_pay5 (F := Ideal))
    ∧ (outsAt1 (F := Ideal) V c t.val t.isLt).2.2.2 = k1_pay1 (F := Ideal) (k1_pay7 (F := Ideal) (iblk1 V c 2 t)) (k1_pay11 (F := Ideal) (iblk1 V c 0 t) (iblk1 V c 1 t) (k1_pay4 (F := Ideal))) (k1_pay13 (F := Ideal) (iblk1 V c 0 t) (iblk1 V c 1 t) (k1_pay4 (F := Ideal)) (k1_pay4 (F := Ideal)) (k1_pay6 (F := Ideal))) := by
  rw [outsAt1_A V c t h0 h1]
  unfold atA
  dsimp only
  exact ⟨sout1_A_0_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)⟩

/-- At a later key block they are one step from what the position before left (whether or not the position stores
    the output as well). -/
theorem comps_step (t : Fin cfg1.N) (h0 : ¬t.val % 8 = 0) :
    (outsAt1 (F := Ideal) V c t.val t.isLt).2.1 = k1_pay2 (F := Ideal) (k1_pay9 (F := Ideal) (iblk1 V c 0 t) (iblk1 V c 1 t) (prev V c t).2.1)
    ∧ (outsAt1 (F := Ideal) V c t.val t.isLt).2.2.1 = k1_pay12 (F := Ideal) (iblk1 V c 0 t) (iblk1 V c 1 t) (prev V c t).2.1 (prev V c t).2.1 (prev V c t).2.2.1
    ∧ (outsAt1 (F := Ideal) V c t.val t.isLt).2.2.2 = k1_pay1 (F := Ideal) (k1_pay7 (F := Ideal) (iblk1 V c 2 t)) (k1_pay11 (F := Ideal) (iblk1 V c 0 t) (iblk1 V c 1 t) (prev V c t).2.1) (k1_pay13 (F := Ideal) (iblk1 V c 0 t) (iblk1 V c 1 t) (prev V c t).2.1 (prev V c t).2.1 (prev V c t).2.2.2) := by
  by_cases h1 : t.val % 8 = 7
  · rw [outsAt1_C V c t h0 h1]
    unfold atC
    dsimp only
    exact ⟨sout1_C_0_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (prev V c t).2.1 (prev V c t).2.2.1 (prev V c t).2.2.2, sout1_C_1_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (prev V c t).2.1 (prev V c t).2.2.1 (prev V c t).2.2.2, sout1_C_2_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (prev V c t).2.1 (prev V c t).2.2.1 (prev V c t).2.2.2⟩
  · rw [outsAt1_B V c t h0 h1]
    unfold atB
    dsimp only
    exact ⟨sout1_B_0_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (prev V c t).2.1 (prev V c t).2.2.1 (prev V c t).2.2.2, sout1_B_1_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (prev V c t).2.1 (prev V c t).2.2.1 (prev V c t).2.2.2, sout1_B_2_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (prev V c t).2.1 (prev V c t).2.2.1 (prev V c t).2.2.2⟩

/-- At the last key block the output buffer holds the new numerator divided by the new denominator. -/
theorem out_last (t : Fin cfg1.N) (h0 : ¬t.val % 8 = 0) (h1 : t.val % 8 = 7) :
    (outsAt1 (F := Ideal) V c t.val t.isLt).1
      = k1_pay3 (F := Ideal) (k1_pay1 (F := Ideal) (k1_pay7 (F := Ideal) (iblk1 V c 2 t)) (k1_pay11 (F := Ideal) (iblk1 V c 0 t) (iblk1 V c 1 t) (prev V c t).2.1) (k1_pay13 (F := Ideal) (iblk1 V c 0 t) (iblk1 V c 1 t) (prev V c t).2.1 (prev V c t).2.1 (prev V c t).2.2.2)) (k1_pay12 (F := Ideal) (iblk1 V c 0 t) (iblk1 V c 1 t) (prev V c t).2.1 (prev V c t).2.1 (prev V c t).2.2.1) := by
  rw [outsAt1_C V c t h0 h1]
  unfold atC
  dsimp only
  exact out1_C_3_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (prev V c t).2.1 (prev V c t).2.2.1 (prev V c t).2.2.2

/-! ## The three families of the recursion -/

/-- The running maximum of row r after position n … -/
def Mf (n : ℕ) (r : Fin 2048) : EReal :=
  if h : n < 32 then ((outsAt1 (F := Ideal) V c n (Nat.lt_of_lt_of_eq h N_1.symm)).2.1 (ix2 r (0 : Fin 1)) : EReal) else 0
/-- … its running denominator … -/
def Lf (n : ℕ) (r : Fin 2048) : EReal :=
  if h : n < 32 then ((outsAt1 (F := Ideal) V c n (Nat.lt_of_lt_of_eq h N_1.symm)).2.2.1 (ix2 r (0 : Fin 1)) : EReal) else 0
/-- … and its running numerator at column d. -/
def Af (n : ℕ) (r : Fin 2048) (d : Fin 512) : EReal :=
  if h : n < 32 then ((outsAt1 (F := Ideal) V c n (Nat.lt_of_lt_of_eq h N_1.symm)).2.2.2 (ix2 r d) : EReal) else 0

theorem Mf_val (n : ℕ) (h : n < cfg1.N) (r : Fin 2048) :
    Mf V c n r = (outsAt1 (F := Ideal) V c n h).2.1 (ix2 r (0 : Fin 1)) := by
  unfold Mf; rw [dif_pos (Nat.lt_of_lt_of_eq h N_1)]
theorem Lf_val (n : ℕ) (h : n < cfg1.N) (r : Fin 2048) :
    Lf V c n r = (outsAt1 (F := Ideal) V c n h).2.2.1 (ix2 r (0 : Fin 1)) := by
  unfold Lf; rw [dif_pos (Nat.lt_of_lt_of_eq h N_1)]
theorem Af_val (n : ℕ) (h : n < cfg1.N) (r : Fin 2048) (d : Fin 512) :
    Af V c n r d = (outsAt1 (F := Ideal) V c n h).2.2.2 (ix2 r d) := by
  unfold Af; rw [dif_pos (Nat.lt_of_lt_of_eq h N_1)]

/-- Where the key block is the first one, the families are the recursion's first step from (-∞, 0, 0). -/
theorem first_step (hq : ∀ n e, (V c main_v5_0 : S8192x512.Idx → EReal) (ix2 n e) = q n e) (hk : ∀ n e, (V c main_v5_1 : S8192x512.Idx → EReal) (ix2 n e) = k n e) (hv : ∀ n e, (V c main_v5_2 : S8192x512.Idx → EReal) (ix2 n e) = v n e) :
    ∀ (t : ℕ) (ht : t < 32), t % 8 = 0 → ∀ r : Fin 2048,
      Mf V c t r = stepM ⊥ (fun κ : Fin 1024 => Spec.srow q k (row t ht r) ((t % 8) * 1024 + κ.val))
      ∧ Lf V c t r = stepL ⊥ 0 (fun κ : Fin 1024 => Spec.srow q k (row t ht r) ((t % 8) * 1024 + κ.val))
      ∧ ∀ d : Fin 512, Af V c t r d = stepA ⊥ 0 (fun κ : Fin 1024 => Spec.srow q k (row t ht r) ((t % 8) * 1024 + κ.val)) (fun κ : Fin 1024 => Spec.vcol v d ((t % 8) * 1024 + κ.val)) := by
  intro n ht h0 r
  obtain ⟨t, rfl⟩ : ∃ t : Fin cfg1.N, t.val = n := ⟨⟨n, Nat.lt_of_lt_of_eq ht N_1.symm⟩, rfl⟩
  have h1 : ¬t.val % 8 = 7 := by omega
  obtain ⟨c0, c1, c2⟩ := comps_first V c t h0 h1
  refine ⟨?_, ?_, fun d => ?_⟩
  · rw [Mf_val V c t.val t.isLt r, c0]
    refine (stepM_at V c q k hq hk t (k1_pay4 (F := Ideal)) r).trans ?_
    rw [pay4_apply]
  · rw [Lf_val V c t.val t.isLt r, c1]
    refine (stepL_at V c q k hq hk t (k1_pay4 (F := Ideal)) (k1_pay5 (F := Ideal)) r).trans ?_
    rw [pay4_apply, pay5_apply]
  · rw [Af_val V c t.val t.isLt r d, c2]
    refine (stepA_at V c q k v hq hk hv t (k1_pay4 (F := Ideal)) (k1_pay6 (F := Ideal)) r d).trans ?_
    rw [pay4_apply, pay6_apply]

/-- Elsewhere they are the recursion's step from the position before. -/
theorem later_step (hq : ∀ n e, (V c main_v5_0 : S8192x512.Idx → EReal) (ix2 n e) = q n e) (hk : ∀ n e, (V c main_v5_1 : S8192x512.Idx → EReal) (ix2 n e) = k n e) (hv : ∀ n e, (V c main_v5_2 : S8192x512.Idx → EReal) (ix2 n e) = v n e) :
    ∀ (t : ℕ) (ht : t < 32), t % 8 ≠ 0 → ∀ r : Fin 2048,
      Mf V c t r = stepM (Mf V c (t - 1) r) (fun κ : Fin 1024 => Spec.srow q k (row t ht r) ((t % 8) * 1024 + κ.val))
      ∧ Lf V c t r = stepL (Mf V c (t - 1) r) (Lf V c (t - 1) r) (fun κ : Fin 1024 => Spec.srow q k (row t ht r) ((t % 8) * 1024 + κ.val))
      ∧ ∀ d : Fin 512, Af V c t r d = stepA (Mf V c (t - 1) r) (Af V c (t - 1) r d) (fun κ : Fin 1024 => Spec.srow q k (row t ht r) ((t % 8) * 1024 + κ.val)) (fun κ : Fin 1024 => Spec.vcol v d ((t % 8) * 1024 + κ.val)) := by
  intro n ht h0 r
  obtain ⟨t, rfl⟩ : ∃ t : Fin cfg1.N, t.val = n := ⟨⟨n, Nat.lt_of_lt_of_eq ht N_1.symm⟩, rfl⟩
  obtain ⟨c0, c1, c2⟩ := comps_step V c t h0
  have hp : t.val - 1 < cfg1.N := Nat.lt_of_le_of_lt (Nat.sub_le _ _) t.isLt
  refine ⟨?_, ?_, fun d => ?_⟩
  · rw [Mf_val V c t.val t.isLt r, c0, Mf_val V c (t.val - 1) hp r]
    exact stepM_at V c q k hq hk t (prev V c t).2.1 r
  · rw [Lf_val V c t.val t.isLt r, c1, Mf_val V c (t.val - 1) hp r, Lf_val V c (t.val - 1) hp r]
    exact stepL_at V c q k hq hk t (prev V c t).2.1 (prev V c t).2.2.1 r
  · rw [Af_val V c t.val t.isLt r d, c2, Mf_val V c (t.val - 1) hp r, Af_val V c (t.val - 1) hp r d]
    exact stepA_at V c q k v hq hk hv t (prev V c t).2.1 (prev V c t).2.2.2 r d

/-! ## The result array -/

/-- After the region's 32 positions the result array is the attention of the three arrays it read, when their
    entries are real. -/
theorem region1_value (hq : ∀ n e, (V c main_v5_0 : S8192x512.Idx → EReal) (ix2 n e) = q n e) (hk : ∀ n e, (V c main_v5_1 : S8192x512.Idx → EReal) (ix2 n e) = k n e) (hv : ∀ n e, (V c main_v5_2 : S8192x512.Idx → EReal) (ix2 n e) = v n e)
    (fq : ∀ n e, q n e ≠ ⊤ ∧ q n e ≠ ⊥) (fk : ∀ n e, k n e ≠ ⊤ ∧ k n e ≠ ⊥) (fv : ∀ n e, v n e ≠ ⊤ ∧ v n e ≠ ⊥) :
    (dat1 (F := Ideal) V c).arrAt 3 cfg1.N = fun i : S8192x512.Idx => Cert.Spec.attn q k v (i 0) (i 1) := by
  refine final1_3 (dat1 (F := Ideal) V c) (fun i : S8192x512.Idx => Cert.Spec.attn q k v (i 0) (i 1)) ?_
  intro t h7 r d
  have h0 : ¬t.val % 8 = 0 := by omega
  obtain ⟨c0, c1, c2⟩ := comps_step V c t h0
  have hquot := quotient_at q k v (Mf V c) (Lf V c) (Af V c) (first_step V c q k v hq hk hv) (later_step V c q k v hq hk hv)
    fq fk fv t.val (pos_lt t) h7 r d
  rw [Af_val V c t.val t.isLt r d, Lf_val V c t.val t.isLt r, c2, c1] at hquot
  rw [after1_3, out_last V c t h0 h7]
  exact (pay3_apply _ _ r d).trans hquot

end Cert.KernelIdeal.R1V

end
-- ==== Proof.KIRegion0Value.lean ====
/- What the projection region leaves in its three output arrays, in closed form.  Each of the 8 grid points
   writes a [1024,512] block of rows; block t of output w holds, at (r, e), the sum over k of
   rows[1024 t + r, k] · weight[k, e + o] plus bias[e + o], with o = 0, 512, 1024 the output's column offset
   in the fused [512,1536] weight.  The blocks tile the [8192,512] arrays, so each array is that one function
   of the entry contents of the row array, the weight and the bias. -/
import proofs.«176492_j72395968741836_2_alg».proof.Proof.KIRegion0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0V

open Cert.KernelIdeal Cert.KernelIdeal.Gen Cert.KernelIdeal.R0
open Idealize.ShloMosaic Idealize.ShloMosaic.TcCoe Idealize.SL.Sem
open Idealize.ShloMosaic.Pipeline (Dat)
open Idealize.ShloMosaic.ValueIdx

/-! ## The body's arithmetic at an index -/

local notation "DD" => dot_S1024x512_S512x1536_S1024x1536_1_0_0_1_n_n

/-- The product's left index keeps the output row … -/
theorem lhs_row (j : S1024x1536.Idx) (q : DotDims.contr DD |>.Idx) : (DotDims.lhsIdx DD j q 0).val = (j 0).val := by
  unfold DotDims.lhsIdx
  rw [dif_neg (show ¬(0 : Fin S1024x512.rank) ∈ DotDims.lhsBatch DD by decide), dif_pos (show (0 : Fin S1024x512.rank) ∈ DotDims.lhsNonContracting DD by decide)]
  rfl
/-- … and runs over the contraction position on its second axis; -/
theorem lhs_contr (j : S1024x1536.Idx) (q : DotDims.contr DD |>.Idx) : (DotDims.lhsIdx DD j q 1).val = (q ⟨0, by decide⟩).val :=
  DotDims.lhsIdx_val_of_single DD rfl j q
/-- the right index runs over it on its first axis … -/
theorem rhs_contr (j : S1024x1536.Idx) (q : DotDims.contr DD |>.Idx) : (DotDims.rhsIdx DD j q 0).val = (q ⟨0, by decide⟩).val :=
  DotDims.rhsIdx_val_of_single DD rfl j q
/-- … and keeps the output column. -/
theorem rhs_col (j : S1024x1536.Idx) (q : DotDims.contr DD |>.Idx) : (DotDims.rhsIdx DD j q 1).val = (j 1).val := by
  unfold DotDims.rhsIdx
  rw [dif_neg (show ¬(1 : Fin S512x1536.rank) ∈ DotDims.rhsBatch DD by decide), dif_pos (show (1 : Fin S512x1536.rank) ∈ DotDims.rhsNonContracting DD by decide)]
  rfl

/-- The fused product plus bias at (p, q): the changes of float format are the identity on the extended reals,
    the product into the zero accumulator is the plain sum over the 512 contraction positions, and the bias row
    is broadcast down the rows. -/
theorem pay1_apply (x0 : Vec Ideal S1024x512 .f32) (x1 : Vec Ideal S512x1536 .f32) (x2 : Vec Ideal S1536 .f32)
    (p : Fin 1024) (q : Fin 1536) :
    (k0_pay1 x0 x1 x2 : S1024x1536.Idx → EReal) (ix2 p q) = (∑ k : Fin 512, (x0 : S1024x512.Idx → EReal) (ix2 p k) * (x1 : S512x1536.Idx → EReal) (ix2 k q)) + (x2 : S1536.Idx → EReal) (ix1 q) := by
  unfold k0_pay1
  refine congrArg₂ (· + ·) ?_ ?_
  · simp only [matmul]
    refine (Ideal.matmul_constant_zero_apply DD none _ _ (ix2 p q)).trans ?_
    rw [← Equiv.sum_comp (contrEquiv1 DD 512 rfl rfl).symm]
    refine Finset.sum_congr rfl fun k _ => ?_
    have hk := contrEquiv1_symm_val DD 512 rfl rfl k
    have el : DotDims.lhsIdx DD (ix2 p q) ((contrEquiv1 DD 512 rfl rfl).symm k) = ix2 p k := funext fun a => Fin.ext (by
      match a with
      | ⟨0, _⟩ => exact lhs_row _ _
      | ⟨1, _⟩ => exact (lhs_contr _ _).trans hk)
    have er : DotDims.rhsIdx DD (ix2 p q) ((contrEquiv1 DD 512 rfl rfl).symm k) = ix2 k q := funext fun a => Fin.ext (by
      match a with
      | ⟨0, _⟩ => exact (rhs_contr _ _).trans hk
      | ⟨1, _⟩ => exact rhs_col _ _)
    rw [el, er, shapeCast_self]
    rfl
  · refine (broadcastTo_1b_ab_apply _ broadcasts_S1x1536_S1024x1536 p q).trans ?_
    refine (shapeCast_a_1a_apply _ shapeCasts_S1536_S1x1536 (0 : Fin 1) q).trans ?_
    rw [shapeCast_self]

/-- A 512-column slice of it at (p, q): the fused product plus bias at column q + o. -/
theorem pay2_apply (x0 : Vec Ideal S1024x512 .f32) (x1 : Vec Ideal S512x1536 .f32) (x2 : Vec Ideal S1536 .f32)
    (p : Fin 1024) (q : Fin 512) (q' : Fin 1536) (hq : q'.val = q.val + 0) :
    (k0_pay2 x0 x1 x2 : S1024x512.Idx → EReal) (ix2 p q) = (∑ k : Fin 512, (x0 : S1024x512.Idx → EReal) (ix2 p k) * (x1 : S512x1536.Idx → EReal) (ix2 k q')) + (x2 : S1536.Idx → EReal) (ix1 q') := by
  unfold k0_pay2
  exact (slice2_axis1_apply 0 (k0_pay1 x0 x1 x2) slices_S1024x1536_o0_0_S1024x512 p q q' (by omega)).trans (pay1_apply x0 x1 x2 p q')
theorem pay3_apply (x0 : Vec Ideal S1024x512 .f32) (x1 : Vec Ideal S512x1536 .f32) (x2 : Vec Ideal S1536 .f32)
    (p : Fin 1024) (q : Fin 512) (q' : Fin 1536) (hq : q'.val = q.val + 512) :
    (k0_pay3 x0 x1 x2 : S1024x512.Idx → EReal) (ix2 p q) = (∑ k : Fin 512, (x0 : S1024x512.Idx → EReal) (ix2 p k) * (x1 : S512x1536.Idx → EReal) (ix2 k q')) + (x2 : S1536.Idx → EReal) (ix1 q') := by
  unfold k0_pay3
  exact (slice2_axis1_apply 512 (k0_pay1 x0 x1 x2) slices_S1024x1536_o0_512_S1024x512 p q q' (by omega)).trans (pay1_apply x0 x1 x2 p q')
theorem pay4_apply (x0 : Vec Ideal S1024x512 .f32) (x1 : Vec Ideal S512x1536 .f32) (x2 : Vec Ideal S1536 .f32)
    (p : Fin 1024) (q : Fin 512) (q' : Fin 1536) (hq : q'.val = q.val + 1024) :
    (k0_pay4 x0 x1 x2 : S1024x512.Idx → EReal) (ix2 p q) = (∑ k : Fin 512, (x0 : S1024x512.Idx → EReal) (ix2 p k) * (x1 : S512x1536.Idx → EReal) (ix2 k q')) + (x2 : S1536.Idx → EReal) (ix1 q') := by
  unfold k0_pay4
  exact (slice2_axis1_apply 1024 (k0_pay1 x0 x1 x2) slices_S1024x1536_o0_1024_S1024x512 p q q' (by omega)).trans (pay1_apply x0 x1 x2 p q')

/-! ## The closed form -/

/-- Columns o … o+511 of (rows · weight + bias): entry (n, e) is the sum over k of z[n,k] · W[k, e+o], plus b[e+o]. -/
def projCols (o : ℕ) (ho : o + 512 ≤ 1536) (z : S8192x512.Idx → EReal) (W : S512x1536.Idx → EReal) (b : S1536.Idx → EReal) :
    S8192x512.Idx → EReal :=
  fun i => (∑ k : Fin 512, z (ix2 (i 0) k) * W (ix2 k ⟨(i 1).val + o, by have := idx2_lt1 i; omega⟩))
    + b (ix1 ⟨(i 1).val + o, by have := idx2_lt1 i; omega⟩)

theorem hz2 : (![0, 0] : Fin 2 → Nat) = fun _ => 0 := funext fun a => by fin_cases a <;> rfl
theorem hz1 : (![0] : Fin 1 → Nat) = fun _ => 0 := funext fun a => by fin_cases a; rfl

/-- The printed index maps, decided over the 8 points: the row-block input and the three outputs sit at block
    (t, 0); the weight and the bias at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The closed form at explicit coordinates. -/
theorem projCols_ix2 (o : ℕ) (ho : o + 512 ≤ 1536) (z : S8192x512.Idx → EReal) (W : S512x1536.Idx → EReal) (b : S1536.Idx → EReal)
    (n : Fin 8192) (e : Fin 512) :
    projCols o ho z W b (ix2 n e) = (∑ k : Fin 512, z (ix2 n k) * W (ix2 k ⟨e.val + o, by omega⟩)) + b (ix1 ⟨e.val + o, by omega⟩) := rfl

section
variable (V : (c : Dev nD) → (b : Ref sig .tc) → Buf (Elt Ideal) ((c : Thread nD τ).loc b))

/-- The three arrays the region reads, as it finds them: the rows, the fused weight, the fused bias. -/
abbrev rowsArr (c : Dev nD) : S8192x512.Idx → EReal := V c main_arg0
abbrev weightArr (c : Dev nD) : S512x1536.Idx → EReal := V c main_v3
abbrev biasArr (c : Dev nD) : S1536.Idx → EReal := V c main_v4

/-- The row block at point t, at (p, k), is the row array at (1024 t + p, k), written through any output's block. -/
theorem rows_read (c : Dev nD) (t : Fin cfg0.N) (p : Fin 1024) (k : Fin 512) (n : Fin 8192) (hn : n.val = t.val * 1024 + p.val) :
    (iblk0 V c 0 t : S1024x512.Idx → EReal) (ix2 p k) = rowsArr V c (ix2 n k) := by
  obtain ⟨e0, e1, -⟩ := idx_facts t
  show rowsArr V c (((cfg0.win 0).blk t).view.emb (ix2 p k)) = _
  refine congrArg _ (funext fun a => Fin.ext ?_)
  match a with
  | ⟨0, _⟩ => show win0_0.index t (0 : Fin 2) * 1024 + 1 * p.val = n.val; omega
  | ⟨1, _⟩ => show win0_0.index t (1 : Fin 2) * 512 + 1 * k.val = k.val; omega
/-- The weight's block is the whole weight. -/
theorem weight_read (c : Dev nD) (t : Fin cfg0.N) (k : Fin 512) (q : Fin 1536) :
    (iblk0 V c 1 t : S512x1536.Idx → EReal) (ix2 k q) = weightArr V c (ix2 k q) := by
  obtain ⟨-, -, e0, e1, -⟩ := idx_facts t
  show weightArr V c (((cfg0.win 1).blk t).view.emb (ix2 k q)) = _
  refine congrArg _ (funext fun a => Fin.ext ?_)
  match a with
  | ⟨0, _⟩ => show win0_1.index t (0 : Fin 2) * 512 + 1 * k.val = k.val; omega
  | ⟨1, _⟩ => show win0_1.index t (1 : Fin 2) * 1536 + 1 * q.val = q.val; omega
/-- The bias's block is the whole bias. -/
theorem bias_read (c : Dev nD) (t : Fin cfg0.N) (q : Fin 1536) :
    (iblk0 V c 2 t : S1536.Idx → EReal) (ix1 q) = biasArr V c (ix1 q) := by
  obtain ⟨-, -, -, -, e0, -⟩ := idx_facts t
  show biasArr V c (((cfg0.win 2).blk t).view.emb (ix1 q)) = _
  refine congrArg _ (funext fun a => Fin.ext ?_)
  match a with
  | ⟨0, _⟩ => show win0_2.index t (0 : Fin 1) * 1536 + 1 * q.val = q.val; omega

/-! ## Output 3 (columns 0 … 511 of the fused projection) -/

/-- What point t writes back is block t of the closed form of the entry contents. -/
theorem flushed0_3_eq (c : Dev nD) (t : Fin cfg0.N) :
    (dat0 (F := Ideal) V c).flushed 3 t = ((cfg0.win 3).blk t).view.read (Elt Ideal)
      (projCols 0 (by omega) (rowsArr V c) (weightArr V c) (biasArr V c)) := by
  show (cfg0.win 3).cut (grid0.coords t) ((dat0 (F := Ideal) V c).after 3 t) = _
  rw [after0_3]
  unfold out0_3
  rw [View.canon_unit_zero hz2]
  simp only [View.ld_unit_zero (S := S1024x512) hz2, View.ld_unit_zero (S := S512x1536) hz2, View.ld_unit_zero (S := S1536) hz1]
  funext j
  obtain ⟨p, q, rfl⟩ : ∃ (p : Fin 1024) (q : Fin 512), j = ix2 p q := ⟨j 0, j 1, eq_ix2 j⟩
  obtain ⟨-, -, -, -, -, f30, f31, f40, f41, f50, f51⟩ := idx_facts t
  have ht : t.val < 8 := Nat.lt_of_lt_of_eq t.isLt N_0
  have e0 : ((((cfg0.win 3).blk t).view.emb (ix2 p q) : S8192x512.Idx) 0).val = t.val * 1024 + p.val := by
    show win0_3.index t (0 : Fin 2) * 1024 + 1 * p.val = _; omega
  have e1 : ((((cfg0.win 3).blk t).view.emb (ix2 p q) : S8192x512.Idx) 1).val = q.val := by
    show win0_3.index t (1 : Fin 2) * 512 + 1 * q.val = _; omega
  refine (pay2_apply (iblk0 V c 0 t) (iblk0 V c 1 t) (iblk0 V c 2 t) p q ⟨q.val + 0, by omega⟩ rfl).trans ?_
  unfold projCols
  show _ = (∑ k : Fin 512, _ * _) + _
  refine congrArg₂ (· + ·) (Finset.sum_congr rfl fun k _ => congrArg₂ (· * ·) ?_ ?_) ?_
  · exact rows_read V c t p k _ e0
  · exact (weight_read V c t k _).trans (congrArg (fun x => weightArr V c (ix2 k x)) (Fin.ext (by show q.val + 0 = _ + 0; rw [e1])))
  · exact (bias_read V c t _).trans (congrArg (fun x => biasArr V c (ix1 x)) (Fin.ext (by show q.val + 0 = _ + 0; rw [e1])))

/-- An index of the array is in point t's block iff each coordinate is in the block's range on its axis. -/
theorem mem_blk3 (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v5_0).slice (win0_3.rect t)).set ↔ _
  rw [View.set_slice_whole, Rect.mem_set_unit]
  exact Iff.rfl

/-- Row n lies in the block of point n / 1024: the 8 blocks tile the array. -/
theorem cover3 (i : S8192x512.Idx) : ∃ t : Fin cfg0.N, (cfg0.win 3).flush t = true ∧ i ∈ ((cfg0.win 3).blk t).view.set := by
  have hi0 : (i 0).val < 8192 := idx2_lt0 i
  have hi1 : (i 1).val < 512 := idx2_lt1 i
  have hlt : (i 0).val / 1024 < cfg0.N := Nat.lt_of_lt_of_eq (by omega : (i 0).val / 1024 < 8) N_0.symm
  refine ⟨⟨(i 0).val / 1024, hlt⟩, flush0_3 _, ?_⟩
  rw [mem_blk3]
  obtain ⟨-, -, -, -, -, f30, f31, f40, f41, f50, f51⟩ := idx_facts ⟨(i 0).val / 1024, hlt⟩
  have g0 : win0_3.index ⟨(i 0).val / 1024, hlt⟩ (0 : Fin 2) = (i 0).val / 1024 := f30
  intro a
  match a with
  | ⟨0, _⟩ => show win0_3.index _ (0 : Fin 2) * 1024 ≤ (i 0).val ∧ (i 0).val < win0_3.index _ (0 : Fin 2) * 1024 + 1024; omega
  | ⟨1, _⟩ => show win0_3.index _ (1 : Fin 2) * 512 ≤ (i 1).val ∧ (i 1).val < win0_3.index _ (1 : Fin 2) * 512 + 512; omega

/-- The array after the region's 8 points is the closed form of the entry contents. -/
theorem final0_3' (c : Dev nD) : (dat0 (F := Ideal) V c).arrAt 3 cfg0.N
    = projCols 0 (by omega) (rowsArr V c) (weightArr V c) (biasArr V c) :=
  (dat0 (F := Ideal) V c).arrAt_eq_of_cover 3 (projCols 0 (by omega) (rowsArr V c) (weightArr V c) (biasArr V c))
    (fun t _ => flushed0_3_eq V c t) (cover3)

/-- The same, written out: entry (n, e) is the sum over k of rows[n,k] · weight[k, e + 0], plus bias[e + 0]. -/
theorem final0_3 (c : Dev nD) : (dat0 (F := Ideal) V c).arrAt 3 cfg0.N
    = fun i : S8192x512.Idx => (∑ k : Fin 512, rowsArr V c (ix2 (i 0) k)
          * weightArr V c (ix2 k ⟨(i 1).val + 0, by have := idx2_lt1 i; omega⟩))
        + biasArr V c (ix1 ⟨(i 1).val + 0, by have := idx2_lt1 i; omega⟩) :=
  final0_3' V c

/-! ## Output 4 (columns 512 … 1023 of the fused projection) -/

/-- What point t writes back is block t of the closed form of the entry contents. -/
theorem flushed0_4_eq (c : Dev nD) (t : Fin cfg0.N) :
    (dat0 (F := Ideal) V c).flushed 4 t = ((cfg0.win 4).blk t).view.read (Elt Ideal)
      (projCols 512 (by omega) (rowsArr V c) (weightArr V c) (biasArr V c)) := by
  show (cfg0.win 4).cut (grid0.coords t) ((dat0 (F := Ideal) V c).after 4 t) = _
  rw [after0_4]
  unfold out0_4
  rw [View.canon_unit_zero hz2]
  simp only [View.ld_unit_zero (S := S1024x512) hz2, View.ld_unit_zero (S := S512x1536) hz2, View.ld_unit_zero (S := S1536) hz1]
  funext j
  obtain ⟨p, q, rfl⟩ : ∃ (p : Fin 1024) (q : Fin 512), j = ix2 p q := ⟨j 0, j 1, eq_ix2 j⟩
  obtain ⟨-, -, -, -, -, f30, f31, f40, f41, f50, f51⟩ := idx_facts t
  have ht : t.val < 8 := Nat.lt_of_lt_of_eq t.isLt N_0
  have e0 : ((((cfg0.win 4).blk t).view.emb (ix2 p q) : S8192x512.Idx) 0).val = t.val * 1024 + p.val := by
    show win0_4.index t (0 : Fin 2) * 1024 + 1 * p.val = _; omega
  have e1 : ((((cfg0.win 4).blk t).view.emb (ix2 p q) : S8192x512.Idx) 1).val = q.val := by
    show win0_4.index t (1 : Fin 2) * 512 + 1 * q.val = _; omega
  refine (pay3_apply (iblk0 V c 0 t) (iblk0 V c 1 t) (iblk0 V c 2 t) p q ⟨q.val + 512, by omega⟩ rfl).trans ?_
  unfold projCols
  show _ = (∑ k : Fin 512, _ * _) + _
  refine congrArg₂ (· + ·) (Finset.sum_congr rfl fun k _ => congrArg₂ (· * ·) ?_ ?_) ?_
  · exact rows_read V c t p k _ e0
  · exact (weight_read V c t k _).trans (congrArg (fun x => weightArr V c (ix2 k x)) (Fin.ext (by show q.val + 512 = _ + 512; rw [e1])))
  · exact (bias_read V c t _).trans (congrArg (fun x => biasArr V c (ix1 x)) (Fin.ext (by show q.val + 512 = _ + 512; rw [e1])))

/-- An index of the array is in point t's block iff each coordinate is in the block's range on its axis. -/
theorem mem_blk4 (t : Fin cfg0.N) (i : S8192x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v5_1).slice (win0_4.rect t)).set ↔ _
  rw [View.set_slice_whole, Rect.mem_set_unit]
  exact Iff.rfl

/-- Row n lies in the block of point n / 1024: the 8 blocks tile the array. -/
theorem cover4 (i : S8192x512.Idx) : ∃ t : Fin cfg0.N, (cfg0.win 4).flush t = true ∧ i ∈ ((cfg0.win 4).blk t).view.set := by
  have hi0 : (i 0).val < 8192 := idx2_lt0 i
  have hi1 : (i 1).val < 512 := idx2_lt1 i
  have hlt : (i 0).val / 1024 < cfg0.N := Nat.lt_of_lt_of_eq (by omega : (i 0).val / 1024 < 8) N_0.symm
  refine ⟨⟨(i 0).val / 1024, hlt⟩, flush0_4 _, ?_⟩
  rw [mem_blk4]
  obtain ⟨-, -, -, -, -, f30, f31, f40, f41, f50, f51⟩ := idx_facts ⟨(i 0).val / 1024, hlt⟩
  have g0 : win0_4.index ⟨(i 0).val / 1024, hlt⟩ (0 : Fin 2) = (i 0).val / 1024 := f40
  intro a
  match a with
  | ⟨0, _⟩ => show win0_4.index _ (0 : Fin 2) * 1024 ≤ (i 0).val ∧ (i 0).val < win0_4.index _ (0 : Fin 2) * 1024 + 1024; omega
  | ⟨1, _⟩ => show win0_4.index _ (1 : Fin 2) * 512 ≤ (i 1).val ∧ (i 1).val < win0_4.index _ (1 : Fin 2) * 512 + 512; omega

/-- The array after the region's 8 points is the closed form of the entry contents. -/
theorem final0_4' (c : Dev nD) : (dat0 (F := Ideal) V c).arrAt 4 cfg0.N
    = projCols 512 (by omega) (rowsArr V c) (weightArr V c) (biasArr V c) :=
  (dat0 (F := Ideal) V c).arrAt_eq_of_cover 4 (projCols 512 (by omega) (rowsArr V c) (weightArr V c) (biasArr V c))
    (fun t _ => flushed0_4_eq V c t) (cover4)

/-- The same, written out: entry (n, e) is the sum over k of rows[n,k] · weight[k, e + 512], plus bias[e + 512]. -/
theorem final0_4 (c : Dev nD) : (dat0 (F := Ideal) V c).arrAt 4 cfg0.N
    = fun i : S8192x512.Idx => (∑ k : Fin 512, rowsArr V c (ix2 (i 0) k)
          * weightArr V c (ix2 k ⟨(i 1).val + 512, by have := idx2_lt1 i; omega⟩))
        + biasArr V c (ix1 ⟨(i 1).val + 512, by have := idx2_lt1 i; omega⟩) :=
  final0_4' V c

/-! ## Output 5 (columns 1024 … 1535 of the fused projection) -/

/-- What point t writes back is block t of the closed form of the entry contents. -/
theorem flushed0_5_eq (c : Dev nD) (t : Fin cfg0.N) :
    (dat0 (F := Ideal) V c).flushed 5 t = ((cfg0.win 5).blk t).view.read (Elt Ideal)
      (projCols 1024 (by omega) (rowsArr V c) (weightArr V c) (biasArr V c)) := by
  show (cfg0.win 5).cut (grid0.coords t) ((dat0 (F := Ideal) V c).after 5 t) = _
  rw [after0_5]
  unfold out0_5
  rw [View.canon_unit_zero hz2]
  simp only [View.ld_unit_zero (S := S1024x512) hz2, View.ld_unit_zero (S := S512x1536) hz2, View.ld_unit_zero (S := S1536) hz1]
  funext j
  obtain ⟨p, q, rfl⟩ : ∃ (p : Fin 1024) (q : Fin 512), j = ix2 p q := ⟨j 0, j 1, eq_ix2 j⟩
  obtain ⟨-, -, -, -, -, f30, f31, f40, f41, f50, f51⟩ := idx_facts t
  have ht : t.val < 8 := Nat.lt_of_lt_of_eq t.isLt N_0
  have e0 : ((((cfg0.win 5).blk t).view.emb (ix2 p q) : S8192x512.Idx) 0).val = t.val * 1024 + p.val := by
    show win0_5.index t (0 : Fin 2) * 1024 + 1 * p.val = _; omega
  have e1 : ((((cfg0.win 5).blk t).view.emb (ix2 p q) : S8192x512.Idx) 1).val = q.val := by
    show win0_5.index t (1 : Fin 2) * 512 + 1 * q.val = _; omega
  refine (pay4_apply (iblk0 V c 0 t) (iblk0 V c 1 t) (iblk0 V c 2 t) p q ⟨q.val + 1024, by omega⟩ rfl).trans ?_
  unfold projCols
  show _ = (∑ k : Fin 512, _ * _) + _
  refine congrArg₂ (· + ·) (Finset.sum_congr rfl fun k _ => congrArg₂ (· * ·) ?_ ?_) ?_
  · exact rows_read V c t p k _ e0
  · exact (weight_read V c t k _).trans (congrArg (fun x => weightArr V c (ix2 k x)) (Fin.ext (by show q.val + 1024 = _ + 1024; rw [e1])))
  · exact (bias_read V c t _).trans (congrArg (fun x => biasArr V c (ix1 x)) (Fin.ext (by show q.val + 1024 = _ + 1024; rw [e1])))

/-- An index of the array is in point t's block iff each coordinate is in the block's range on its axis. -/
theorem mem_blk5 (t : Fin cfg0.N) (i : S8192x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v5_2).slice (win0_5.rect t)).set ↔ _
  rw [View.set_slice_whole, Rect.mem_set_unit]
  exact Iff.rfl

/-- Row n lies in the block of point n / 1024: the 8 blocks tile the array. -/
theorem cover5 (i : S8192x512.Idx) : ∃ t : Fin cfg0.N, (cfg0.win 5).flush t = true ∧ i ∈ ((cfg0.win 5).blk t).view.set := by
  have hi0 : (i 0).val < 8192 := idx2_lt0 i
  have hi1 : (i 1).val < 512 := idx2_lt1 i
  have hlt : (i 0).val / 1024 < cfg0.N := Nat.lt_of_lt_of_eq (by omega : (i 0).val / 1024 < 8) N_0.symm
  refine ⟨⟨(i 0).val / 1024, hlt⟩, flush0_5 _, ?_⟩
  rw [mem_blk5]
  obtain ⟨-, -, -, -, -, f30, f31, f40, f41, f50, f51⟩ := idx_facts ⟨(i 0).val / 1024, hlt⟩
  have g0 : win0_5.index ⟨(i 0).val / 1024, hlt⟩ (0 : Fin 2) = (i 0).val / 1024 := f50
  intro a
  match a with
  | ⟨0, _⟩ => show win0_5.index _ (0 : Fin 2) * 1024 ≤ (i 0).val ∧ (i 0).val < win0_5.index _ (0 : Fin 2) * 1024 + 1024; omega
  | ⟨1, _⟩ => show win0_5.index _ (1 : Fin 2) * 512 ≤ (i 1).val ∧ (i 1).val < win0_5.index _ (1 : Fin 2) * 512 + 512; omega

/-- The array after the region's 8 points is the closed form of the entry contents. -/
theorem final0_5' (c : Dev nD) : (dat0 (F := Ideal) V c).arrAt 5 cfg0.N
    = projCols 1024 (by omega) (rowsArr V c) (weightArr V c) (biasArr V c) :=
  (dat0 (F := Ideal) V c).arrAt_eq_of_cover 5 (projCols 1024 (by omega) (rowsArr V c) (weightArr V c) (biasArr V c))
    (fun t _ => flushed0_5_eq V c t) (cover5)

/-- The same, written out: entry (n, e) is the sum over k of rows[n,k] · weight[k, e + 1024], plus bias[e + 1024]. -/
theorem final0_5 (c : Dev nD) : (dat0 (F := Ideal) V c).arrAt 5 cfg0.N
    = fun i : S8192x512.Idx => (∑ k : Fin 512, rowsArr V c (ix2 (i 0) k)
          * weightArr V c (ix2 k ⟨(i 1).val + 1024, by have := idx2_lt1 i; omega⟩))
        + biasArr V c (ix1 ⟨(i 1).val + 1024, by have := idx2_lt1 i; omega⟩) :=
  final0_5' V c

end

end Cert.KernelIdeal.R0V

end
-- ==== Proof.KIHostPrefix.lean ====
/-
  The host operations before the projection region, read at an index.

  Before the first region the program transposes the three 512 x 512 weights, lays the three
  transposes side by side into one 512 x 1536 array, and lays the three biases end to end into one
  vector of 1536.  Entry (k, e + 512 · p) of the fused weight is therefore entry (e, k) of weight p,
  and entry e + 512 · p of the fused bias is entry e of bias p; the rows array is not written.  The
  projection region leaves, in its three output arrays, columns 0 …, 512 …, 1024 … of
  rows · fused weight + fused bias: with the readings above these are the specification's three
  projections of the arguments.
-/
import proofs.«176492_j72395968741836_2_alg».proof.Proof.Spec
import proofs.«176492_j72395968741836_2_alg».proof.Proof.KIRegion0Value
import proofs.«176492_j72395968741836_2_alg».proof.Proof.Gen.KernelIdeal.Regions
import Idealize.ShloMosaic.Lib.StableHlo.Run
import Idealize.ShloMosaic.Lib.Pipeline.Value
import Idealize.ShloMosaic.Lib.ValueIdx

set_option maxRecDepth 16384

noncomputable section

namespace Cert.KernelIdeal.HP

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (c : Dev nD)

/-- The TensorCore's buffer contents after the host operations, from the launch contents m. -/
abbrev U1 (b : Ref sig .tc) : Buf (Elt Ideal) ((c : Thread nD τ).loc b) :=
  StableHlo.after (hostOps0 (F := Ideal)) (fun b => m (c, b)) (Proc.devRef .tc b)

/-! ## The three results of the host operations -/

/-- The three transposed weights. -/
abbrev wPieces : List ((s : Shape) × (s.Idx → EReal)) :=
  [⟨S512x512, transpose S512x512 [1, 0] ((m ((c : Thread nD τ).loc main_arg1)) : S512x512.Idx → EReal) transposes_S512x512_S512x512_1_0⟩,
   ⟨S512x512, transpose S512x512 [1, 0] ((m ((c : Thread nD τ).loc main_arg3)) : S512x512.Idx → EReal) transposes_S512x512_S512x512_1_0⟩,
   ⟨S512x512, transpose S512x512 [1, 0] ((m ((c : Thread nD τ).loc main_arg5)) : S512x512.Idx → EReal) transposes_S512x512_S512x512_1_0⟩]

/-- The three biases. -/
abbrev bPieces : List ((s : Shape) × (s.Idx → EReal)) :=
  [⟨S512, ((m ((c : Thread nD τ).loc main_arg2)) : S512.Idx → EReal)⟩,
   ⟨S512, ((m ((c : Thread nD τ).loc main_arg4)) : S512.Idx → EReal)⟩,
   ⟨S512, ((m ((c : Thread nD τ).loc main_arg6)) : S512.Idx → EReal)⟩]

/-- The fused weight: the three transposed weights side by side. -/
theorem weight_eq :
    (U1 m c main_v3 : S512x1536.Idx → EReal)
      = concatenate S512x1536 1 (wPieces m c) concatenates_S512x512_S512x512_S512x512_S512x1536_d1 := by
  show StableHlo.after (hostOps0 (F := Ideal)) (fun b => m (c, b)) (Proc.devRef .tc main_v3) = _
  after_results
  rfl

/-- The fused bias: the three biases end to end. -/
theorem bias_eq :
    (U1 m c main_v4 : S1536.Idx → EReal)
      = concatenate S1536 0 (bPieces m c) concatenates_S512_S512_S512_S1536_d0 := by
  show StableHlo.after (hostOps0 (F := Ideal)) (fun b => m (c, b)) (Proc.devRef .tc main_v4) = _
  after_results
  rfl

/-- No host operation writes the rows array. -/
theorem rows_read : U1 m c main_arg0 = (m ((c : Thread nD τ).loc main_arg0)) :=
  Gen.V1_of m c main_arg0 (by decide)

/-! ## The fused weight and bias at an index -/

theorem weight_read (k e : Fin 512) :
    (U1 m c main_v3 : S512x1536.Idx → EReal) (ix2 k ⟨e.val + 0, by have := e.isLt; omega⟩)
      = ((m ((c : Thread nD τ).loc main_arg1)) : S512x512.Idx → EReal) (ix2 e k) := by
  refine (congrFun (weight_eq m c) _).trans ?_
  refine (concatenate_apply_piece (t := S512x1536) (α := EReal) (1 : Fin 2) (wPieces m c) concatenates_S512x512_S512x512_S512x512_S512x1536_d1
    (ix2 k ⟨e.val + 0, by have := e.isLt; omega⟩) 0 (show 0 < 3 by omega) S512x512 _ rfl rfl 0 rfl
    (ix2 k e) (fun b hb => ?_) ?_).trans ?_
  · match b with
    | ⟨0, _⟩ => rfl
    | ⟨1, _⟩ => exact (hb (Fin.ext rfl)).elim
  · show 0 + e.val = e.val + 0; omega
  · exact transpose_apply [1, 0] _ transposes_S512x512_S512x512_1_0 (ix2 k e) (ix2 e k)
      (fun b => match b with | ⟨0, _⟩ => rfl | ⟨1, _⟩ => rfl)

theorem weight_read_512 (k e : Fin 512) :
    (U1 m c main_v3 : S512x1536.Idx → EReal) (ix2 k ⟨e.val + 512, by have := e.isLt; omega⟩)
      = ((m ((c : Thread nD τ).loc main_arg3)) : S512x512.Idx → EReal) (ix2 e k) := by
  refine (congrFun (weight_eq m c) _).trans ?_
  refine (concatenate_apply_piece (t := S512x1536) (α := EReal) (1 : Fin 2) (wPieces m c) concatenates_S512x512_S512x512_S512x512_S512x1536_d1
    (ix2 k ⟨e.val + 512, by have := e.isLt; omega⟩) 1 (show 1 < 3 by omega) S512x512 _ rfl rfl 512 rfl
    (ix2 k e) (fun b hb => ?_) ?_).trans ?_
  · match b with
    | ⟨0, _⟩ => rfl
    | ⟨1, _⟩ => exact (hb (Fin.ext rfl)).elim
  · show 512 + e.val = e.val + 512; omega
  · exact transpose_apply [1, 0] _ transposes_S512x512_S512x512_1_0 (ix2 k e) (ix2 e k)
      (fun b => match b with | ⟨0, _⟩ => rfl | ⟨1, _⟩ => rfl)

theorem weight_read_1024 (k e : Fin 512) :
    (U1 m c main_v3 : S512x1536.Idx → EReal) (ix2 k ⟨e.val + 1024, by have := e.isLt; omega⟩)
      = ((m ((c : Thread nD τ).loc main_arg5)) : S512x512.Idx → EReal) (ix2 e k) := by
  refine (congrFun (weight_eq m c) _).trans ?_
  refine (concatenate_apply_piece (t := S512x1536) (α := EReal) (1 : Fin 2) (wPieces m c) concatenates_S512x512_S512x512_S512x512_S512x1536_d1
    (ix2 k ⟨e.val + 1024, by have := e.isLt; omega⟩) 2 (show 2 < 3 by omega) S512x512 _ rfl rfl 1024 rfl
    (ix2 k e) (fun b hb => ?_) ?_).trans ?_
  · match b with
    | ⟨0, _⟩ => rfl
    | ⟨1, _⟩ => exact (hb (Fin.ext rfl)).elim
  · show 1024 + e.val = e.val + 1024; omega
  · exact transpose_apply [1, 0] _ transposes_S512x512_S512x512_1_0 (ix2 k e) (ix2 e k)
      (fun b => match b with | ⟨0, _⟩ => rfl | ⟨1, _⟩ => rfl)

theorem bias_read (e : Fin 512) :
    (U1 m c main_v4 : S1536.Idx → EReal) (ix1 ⟨e.val + 0, by have := e.isLt; omega⟩)
      = ((m ((c : Thread nD τ).loc main_arg2)) : S512.Idx → EReal) (ix1 e) := by
  refine (congrFun (bias_eq m c) _).trans ?_
  refine concatenate_apply_piece (t := S1536) (α := EReal) (0 : Fin 1) (bPieces m c) concatenates_S512_S512_S512_S1536_d0
    (ix1 ⟨e.val + 0, by have := e.isLt; omega⟩) 0 (show 0 < 3 by omega) S512 _ rfl rfl 0 rfl
    (ix1 e) (fun b hb => ?_) ?_
  · match b with
    | ⟨0, _⟩ => exact (hb (Fin.ext rfl)).elim
  · show 0 + e.val = e.val + 0; omega

theorem bias_read_512 (e : Fin 512) :
    (U1 m c main_v4 : S1536.Idx → EReal) (ix1 ⟨e.val + 512, by have := e.isLt; omega⟩)
      = ((m ((c : Thread nD τ).loc main_arg4)) : S512.Idx → EReal) (ix1 e) := by
  refine (congrFun (bias_eq m c) _).trans ?_
  refine concatenate_apply_piece (t := S1536) (α := EReal) (0 : Fin 1) (bPieces m c) concatenates_S512_S512_S512_S1536_d0
    (ix1 ⟨e.val + 512, by have := e.isLt; omega⟩) 1 (show 1 < 3 by omega) S512 _ rfl rfl 512 rfl
    (ix1 e) (fun b hb => ?_) ?_
  · match b with
    | ⟨0, _⟩ => exact (hb (Fin.ext rfl)).elim
  · show 512 + e.val = e.val + 512; omega

theorem bias_read_1024 (e : Fin 512) :
    (U1 m c main_v4 : S1536.Idx → EReal) (ix1 ⟨e.val + 1024, by have := e.isLt; omega⟩)
      = ((m ((c : Thread nD τ).loc main_arg6)) : S512.Idx → EReal) (ix1 e) := by
  refine (congrFun (bias_eq m c) _).trans ?_
  refine concatenate_apply_piece (t := S1536) (α := EReal) (0 : Fin 1) (bPieces m c) concatenates_S512_S512_S512_S1536_d0
    (ix1 ⟨e.val + 1024, by have := e.isLt; omega⟩) 2 (show 2 < 3 by omega) S512 _ rfl rfl 1024 rfl
    (ix1 e) (fun b hb => ?_) ?_
  · match b with
    | ⟨0, _⟩ => exact (hb (Fin.ext rfl)).elim
  · show 1024 + e.val = e.val + 1024; omega

/-! ## The three projected arrays -/

/-- The query array the projection region leaves is the specification's projection of the arguments. -/
theorem q_array : (R0.dat0 (F := Ideal) (U1 m) c).arrAt 3 cfg0.N
    = fun i : S8192x512.Idx => Cert.Spec.proj (m ((c : Thread nD τ).loc main_arg0)) (m ((c : Thread nD τ).loc main_arg1))
        (m ((c : Thread nD τ).loc main_arg2)) (i 0) (i 1) := by
  rw [R0V.final0_3' (U1 m) c]
  funext i
  obtain ⟨n, e, rfl⟩ : ∃ (n : Fin 8192) (e : Fin 512), i = ix2 n e := ⟨i 0, i 1, eq_ix2 i⟩
  rw [R0V.projCols_ix2]
  dsimp only [R0V.rowsArr, R0V.weightArr, R0V.biasArr]
  rw [rows_read m c, bias_read m c e]
  simp only [weight_read m c]
  rfl

/-- The key array the projection region leaves is the specification's projection of the arguments. -/
theorem k_array : (R0.dat0 (F := Ideal) (U1 m) c).arrAt 4 cfg0.N
    = fun i : S8192x512.Idx => Cert.Spec.proj (m ((c : Thread nD τ).loc main_arg0)) (m ((c : Thread nD τ).loc main_arg3))
        (m ((c : Thread nD τ).loc main_arg4)) (i 0) (i 1) := by
  rw [R0V.final0_4' (U1 m) c]
  funext i
  obtain ⟨n, e, rfl⟩ : ∃ (n : Fin 8192) (e : Fin 512), i = ix2 n e := ⟨i 0, i 1, eq_ix2 i⟩
  rw [R0V.projCols_ix2]
  dsimp only [R0V.rowsArr, R0V.weightArr, R0V.biasArr]
  rw [rows_read m c, bias_read_512 m c e]
  simp only [weight_read_512 m c]
  rfl

/-- The value array the projection region leaves is the specification's projection of the arguments. -/
theorem v_array : (R0.dat0 (F := Ideal) (U1 m) c).arrAt 5 cfg0.N
    = fun i : S8192x512.Idx => Cert.Spec.proj (m ((c : Thread nD τ).loc main_arg0)) (m ((c : Thread nD τ).loc main_arg5))
        (m ((c : Thread nD τ).loc main_arg6)) (i 0) (i 1) := by
  rw [R0V.final0_5' (U1 m) c]
  funext i
  obtain ⟨n, e, rfl⟩ : ∃ (n : Fin 8192) (e : Fin 512), i = ix2 n e := ⟨i 0, i 1, eq_ix2 i⟩
  rw [R0V.projCols_ix2]
  dsimp only [R0V.rowsArr, R0V.weightArr, R0V.biasArr]
  rw [rows_read m c, bias_read_1024 m c e]
  simp only [weight_read_1024 m c]
  rfl

end Cert.KernelIdeal.HP

end
-- ==== Proof.Finite.lean ====
/-
  From the precondition to "every entry is a real".

  The precondition is the conjunction, over the seven argument arrays, of "all entries x satisfy
  |x| < +∞", each written as a reduction by "and" over the whole array of the comparison of
  max x (-x) with the f32 word of +∞.  A conjunction that is 1 has every conjunct 1, a reduction by
  "and" that is 1 has every element 1, and |x| < +∞ on the extended reals excludes both infinities.
-/
import proofs.«176492_j72395968741836_2_alg».proof.Pre_finite_inputs
import Idealize.ShloMosaic.PureOps.Ideal
import Idealize.ShloMosaic.Lib.ReduceAll
import Idealize.ShloMosaic.Lib.ValueIdx
import Idealize.ShloMosaic.Lib.Affine

noncomputable section

namespace Cert.Finite

open Idealize.ShloMosaic Idealize.ShloMosaic.ValueIdx

/-- The rank-0 shape has one index. -/
instance : Subsingleton Cert.Pre_finite_inputs.S_.Idx := ⟨fun a b => funext fun d => d.elim0⟩

/-- |x| < +∞ excludes both infinities. -/
theorem elt_finite (x : EReal)
    (h : Ideal.cmp .olt (max x (-x)) (Ideal.ofBits .f32 0x7F800000#32) = 1#1) : x ≠ ⊤ ∧ x ≠ ⊥ := by
  have e : Ideal.ofBits .f32 0x7F800000#32 = ⊤ := by simp [Ideal.ofBits, Ideal.ieee]
  rw [e] at h
  induction x using EReal.rec with
  | bot => simp [Ideal.cmp] at h
  | coe r => exact ⟨EReal.coe_ne_top r, EReal.coe_ne_bot r⟩
  | top => simp [Ideal.cmp] at h

/-- One "all entries are finite" conjunct: if the reduction by "and" of the comparisons is 1, every
    entry of the array is a real. -/
theorem all_finite {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
        (cmpf .olt (Host.absf x)
          (broadcastInDim s ![] hb (constant (F := Ideal) Cert.Pre_finite_inputs.S_ .f32 0x7F800000#32)))
        init hr hu ix0 = 1#1) :
    ∀ i, x i ≠ ⊤ ∧ x i ≠ ⊥ := by
  intro i
  have h := Host.reduce_andi_all _ init hr hu ix0 e i
  exact elt_finite (x i) h

open Cert.Pre_finite_inputs in
/-- The precondition gives the finiteness of every entry of the seven argument arrays. -/
theorem of_pre [Cert.Pre_finite_inputs.Facts]
    (a0 : FVec Ideal S8192x512 .f32) (a1 : FVec Ideal S512x512 .f32) (a2 : FVec Ideal S512 .f32)
    (a3 : FVec Ideal S512x512 .f32) (a4 : FVec Ideal S512 .f32) (a5 : FVec Ideal S512x512 .f32)
    (a6 : FVec Ideal S512 .f32)
    (h : Cert.Pre_finite_inputs.fn (F := Ideal) a0 a1 a2 a3 a4 a5 a6 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥)
      ∧ (∀ i, a3 i ≠ ⊤ ∧ a3 i ≠ ⊥) ∧ (∀ i, a4 i ≠ ⊤ ∧ a4 i ≠ ⊥) ∧ (∀ i, a5 i ≠ ⊤ ∧ a5 i ≠ ⊥)
      ∧ (∀ i, a6 i ≠ ⊤ ∧ a6 i ≠ ⊥) := by
  have hh := congrFun h ix0
  dsimp only [Cert.Pre_finite_inputs.fn, Cert.Pre_finite_inputs.fn_part1, andi] at hh
  obtain ⟨hh, h6⟩ := IntOp.andi_eq_one.1 hh
  obtain ⟨hh, h5⟩ := IntOp.andi_eq_one.1 hh
  obtain ⟨hh, h4⟩ := IntOp.andi_eq_one.1 hh
  obtain ⟨hh, h3⟩ := IntOp.andi_eq_one.1 hh
  obtain ⟨hh, h2⟩ := IntOp.andi_eq_one.1 hh
  obtain ⟨h0, h1⟩ := IntOp.andi_eq_one.1 hh
  exact ⟨all_finite a0 _ _ _ _ h0, all_finite a1 _ _ _ _ h1, all_finite a2 _ _ _ _ h2,
    all_finite a3 _ _ _ _ h3, all_finite a4 _ _ _ _ h4, all_finite a5 _ _ _ _ h5,
    all_finite a6 _ _ _ _ h6⟩

end Cert.Finite

end
-- ==== Proof.KIFinal.lean ====
/-
  The kernel program's result, under the precondition that every input entry is finite: the projection region leaves
  the three arrays q, k, v = z·Wᵀ + b (a column block of one matrix product against the concatenated transposed weights
  is the product against one weight; the specification's `proj`), all of whose entries are then finite; the attention
  region's online recursion over eight key blocks, read row by row, is the specification's softmax-weighted sum `attn`;
  so the result array is `Spec.G` of the seven arguments.
-/
import proofs.«176492_j72395968741836_2_alg».proof.Proof.KIRunMain
import proofs.«176492_j72395968741836_2_alg».proof.Proof.KIRegion1Value
import proofs.«176492_j72395968741836_2_alg».proof.Proof.KIHostPrefix
import proofs.«176492_j72395968741836_2_alg».proof.Proof.OnlineRow
import proofs.«176492_j72395968741836_2_alg».proof.Proof.Finite
import proofs.«176492_j72395968741836_2_alg».proof.Defs
import proofs.«176492_j72395968741836_2_alg».proof.Proof.Gen.Pre_finite_inputs

noncomputable section

namespace Cert.KernelIdeal.Final

open Idealize.ShloMosaic Idealize.ShloMosaic.TcCoe Idealize.ShloMosaic.ValueIdx Idealize.SL.Sem
open Cert.KernelIdeal Cert.KernelIdeal.Gen

/-- Under the precondition the idealized kernel runs and its result array ends at the specification of its arguments. -/
theorem kernel_run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread Cert.KernelIdeal.nD Cert.KernelIdeal.τ).loc Cert.KernelIdeal.main_v6) = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) := by
  refine (θ_run (defs (F := Ideal)) _ _).mono (fun r h c => ⟨(h c).1.trans ?_, (h c).2⟩) (H.run_value (F := Ideal) m ρ)
  obtain ⟨f0, f1, f2, f3, f4, f5, f6⟩ := Cert.Finite.of_pre _ _ _ _ _ _ _ (hpre c)
  have hq : ∀ (n : Fin 8192) (e : Fin 512), (H.V2 m c main_v5_0 : S8192x512.Idx → EReal) (ix2 n e) = Cert.Spec.proj (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) n e :=
    fun n e => congrFun ((H.W2_arr m c 3).trans (HP.q_array m c)) (ix2 n e)
  have hk : ∀ (n : Fin 8192) (e : Fin 512), (H.V2 m c main_v5_1 : S8192x512.Idx → EReal) (ix2 n e) = Cert.Spec.proj (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) n e :=
    fun n e => congrFun ((H.W2_arr m c 4).trans (HP.k_array m c)) (ix2 n e)
  have hv : ∀ (n : Fin 8192) (e : Fin 512), (H.V2 m c main_v5_2 : S8192x512.Idx → EReal) (ix2 n e) = Cert.Spec.proj (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) n e :=
    fun n e => congrFun ((H.W2_arr m c 5).trans (HP.v_array m c)) (ix2 n e)
  exact R1V.region1_value (H.V2 m) c _ _ _ hq hk hv
    (fun n e => Cert.OnlineRow.proj_finite _ _ _ f0 f1 f2 n e)
    (fun n e => Cert.OnlineRow.proj_finite _ _ _ f0 f3 f4 n e)
    (fun n e => Cert.OnlineRow.proj_finite _ _ _ f0 f5 f6 n e)

end Cert.KernelIdeal.Final

end
-- ==== Proof.RefSpec.lean ====
/-
  The reference program computes the specification.

  The reference's operations are read one at a time at an index.  Each of the three projections is a
  contraction over the 512 input features with the transposed weight, plus the bias broadcast along
  the rows: the specification's proj.  The score matrix is the contraction of the q and k projections
  over the 512 features times the constant: score.  The row maximum is a fold of max from -∞ over the
  8192 columns, joined with -∞ once more: rowmax.  Subtracting it, exponentiating, summing each row
  from 0, dividing, and contracting with the v projection over the 8192 columns gives attn.  The
  8192 x 8192 intermediate arrays are never opened: every step is about one entry.
-/
import proofs.«176492_j72395968741836_2_alg».proof.Proof.Spec
import proofs.«176492_j72395968741836_2_alg».proof.Proof.Gen.ReferenceIdeal.Read
import proofs.«176492_j72395968741836_2_alg».proof.Defs
import proofs.«176492_j72395968741836_2_alg».proof.Proof.Gen.Pre_finite_inputs

noncomputable section

namespace Cert.RefSpec

open Cert.ReferenceIdeal Cert.ReferenceIdeal.Gen Cert.ReferenceIdeal.Read Idealize.ShloMosaic
  Idealize.ShloMosaic.ValueIdx Idealize.ShloMosaic.TcCoe Idealize.SL.Sem Idealize.ShloMosaic.StableHlo

variable (x0 : (⟨S8192x512, .f32⟩ : BufTy).Contents (Elt Ideal))
  (x1 : (⟨S512x512, .f32⟩ : BufTy).Contents (Elt Ideal)) (x2 : (⟨S512, .f32⟩ : BufTy).Contents (Elt Ideal))
  (x3 : (⟨S512x512, .f32⟩ : BufTy).Contents (Elt Ideal)) (x4 : (⟨S512, .f32⟩ : BufTy).Contents (Elt Ideal))
  (x5 : (⟨S512x512, .f32⟩ : BufTy).Contents (Elt Ideal)) (x6 : (⟨S512, .f32⟩ : BufTy).Contents (Elt Ideal))

/-! ### The three projections -/

/-- The q projection, read at an index: the contraction with the transposed weight plus the
    bias broadcast along the rows is the specification's projection. -/
theorem proj_q (n : Fin 8192) (e : Fin 512) :
    val_main_v4 (F := Ideal) x0 x1 x2 (ix2 n e) = Spec.proj x0 x1 x2 n e := by
  have e1 : ∀ k : Fin 512, lidx_main_v1 (ix2 n e) k = ix2 n k := fun k => funext fun a => Fin.ext (by match a with | ⟨0, _⟩ => rfl | ⟨1, _⟩ => rfl)
  have e2 : ∀ k : Fin 512, idx_main_v0 (ridx_main_v1 (ix2 n e) k) = ix2 e k := fun k => funext fun a => Fin.ext (by match a with | ⟨0, _⟩ => rfl | ⟨1, _⟩ => rfl)
  have e3 : idx_main_v2 (idx_main_v3 (ix2 n e)) = ix1 e := funext fun a => Fin.ext (by match a with | ⟨0, _⟩ => rfl)
  rw [val_main_v4_apply, val_main_v1_apply, val_main_v3_apply, val_main_v2_apply]
  simp only [val_main_v0_apply, e1, e2, e3]
  rfl

/-- The k projection, read at an index: the contraction with the transposed weight plus the
    bias broadcast along the rows is the specification's projection. -/
theorem proj_k (n : Fin 8192) (e : Fin 512) :
    val_main_v9 (F := Ideal) x0 x3 x4 (ix2 n e) = Spec.proj x0 x3 x4 n e := by
  have e1 : ∀ k : Fin 512, lidx_main_v6 (ix2 n e) k = ix2 n k := fun k => funext fun a => Fin.ext (by match a with | ⟨0, _⟩ => rfl | ⟨1, _⟩ => rfl)
  have e2 : ∀ k : Fin 512, idx_main_v5 (ridx_main_v6 (ix2 n e) k) = ix2 e k := fun k => funext fun a => Fin.ext (by match a with | ⟨0, _⟩ => rfl | ⟨1, _⟩ => rfl)
  have e3 : idx_main_v7 (idx_main_v8 (ix2 n e)) = ix1 e := funext fun a => Fin.ext (by match a with | ⟨0, _⟩ => rfl)
  rw [val_main_v9_apply, val_main_v6_apply, val_main_v8_apply, val_main_v7_apply]
  simp only [val_main_v5_apply, e1, e2, e3]
  rfl

/-- The v projection, read at an index: the contraction with the transposed weight plus the
    bias broadcast along the rows is the specification's projection. -/
theorem proj_v (n : Fin 8192) (e : Fin 512) :
    val_main_v14 (F := Ideal) x0 x5 x6 (ix2 n e) = Spec.proj x0 x5 x6 n e := by
  have e1 : ∀ k : Fin 512, lidx_main_v11 (ix2 n e) k = ix2 n k := fun k => funext fun a => Fin.ext (by match a with | ⟨0, _⟩ => rfl | ⟨1, _⟩ => rfl)
  have e2 : ∀ k : Fin 512, idx_main_v10 (ridx_main_v11 (ix2 n e) k) = ix2 e k := fun k => funext fun a => Fin.ext (by match a with | ⟨0, _⟩ => rfl | ⟨1, _⟩ => rfl)
  have e3 : idx_main_v12 (idx_main_v13 (ix2 n e)) = ix1 e := funext fun a => Fin.ext (by match a with | ⟨0, _⟩ => rfl)
  rw [val_main_v14_apply, val_main_v11_apply, val_main_v13_apply, val_main_v12_apply]
  simp only [val_main_v10_apply, e1, e2, e3]
  rfl

/-! ### The scores -/

/-- A score entry: the contraction of the q and k projections over the features, times the constant. -/
theorem score_eq (n t : Fin 8192) :
    val_main_v17 (F := Ideal) x0 x1 x2 x3 x4 (ix2 n t)
      = Spec.score (Spec.proj x0 x1 x2) (Spec.proj x0 x3 x4) n t := by
  have e1 : ∀ k : Fin 512, lidx_main_v15 (ix2 n t) k = ix2 n k := fun k => funext fun a => Fin.ext (by match a with | ⟨0, _⟩ => rfl | ⟨1, _⟩ => rfl)
  have e2 : ∀ k : Fin 512, ridx_main_v15 (ix2 n t) k = ix2 t k := fun k => funext fun a => Fin.ext (by match a with | ⟨0, _⟩ => rfl | ⟨1, _⟩ => rfl)
  rw [val_main_v17_apply, val_main_v15_apply, val_main_v16_apply, val_main_cst_apply]
  simp only [e1, e2, proj_q, proj_k]
  rfl

/-! ### The row maximum -/

/-- A reduction by max from the -∞ word over the columns of an 8192 x 8192 array, at row n, is the
    fold of max from -∞ over that row. -/
theorem reduce_max_row (y : (⟨S8192x8192, .f32⟩ : BufTy).Contents (Elt Ideal)) (n : Fin 8192) :
    Host.reduce (FloatOps.maximumf (F := Ideal) (φ := .f32)) y (val_main_cst_0 (F := Ideal))
        reducesTo_S8192x8192_S8192_d1 h_S_ (ix1 n)
      = (Finset.univ : Finset (Fin 8192)).fold max ⊥ (fun t => y (ix2 n t)) := by
  have h : S8192x8192.Reduces [1] S8192 := by decide
  have e0 : val_main_cst_0 (F := Ideal) (Shape.Idx.first h_S_) = (⊥ : EReal) := by
    rw [val_main_cst_0_apply]; simp [Ideal.ofBits, Ideal.ieee]
  refine (Host.reduce_eq_fold_single (FloatOps.maximumf (F := Ideal) (φ := .f32)) y
    (val_main_cst_0 (F := Ideal)) reducesTo_S8192x8192_S8192_d1 h h_S_ (ix1 n)).trans ?_
  rw [e0]
  exact congrArg (fun f : Fin 8192 → EReal => (Finset.univ : Finset (Fin 8192)).fold max ⊥ f)
    (funext fun t => congrArg y (funext fun a => Fin.ext (by match a with | ⟨0, _⟩ => rfl | ⟨1, _⟩ => rfl)))

/-- The row maximum joined with -∞ once more is the specification's rowmax of the row of scores. -/
theorem rowmax_eq (n : Fin 8192) :
    val_main_v20 (F := Ideal) x0 x1 x2 x3 x4 (ix1 n)
      = Spec.rowmax (Spec.score (Spec.proj x0 x1 x2) (Spec.proj x0 x3 x4) n) := by
  have e0 : val_main_cst_1 (F := Ideal) (idx_main_v19 (ix1 n)) = (⊥ : EReal) := by
    rw [val_main_cst_1_apply]; simp [Ideal.ofBits, Ideal.ieee]
  rw [val_main_v20_apply, val_main_v19_apply, e0]
  unfold val_main_v18
  rw [reduce_max_row]
  simp only [score_eq]
  rfl

/-! ### Exponentials, row sums, quotients -/

/-- An exponential entry. -/
theorem exp_eq (n t : Fin 8192) :
    val_main_v24 (F := Ideal) x0 x1 x2 x3 x4 (ix2 n t)
      = Ideal.exp (Spec.score (Spec.proj x0 x1 x2) (Spec.proj x0 x3 x4) n t
          - Spec.rowmax (Spec.score (Spec.proj x0 x1 x2) (Spec.proj x0 x3 x4) n)) := by
  have e1 : idx_main_v21 (idx_main_v22 (ix2 n t)) = ix1 n := funext fun a => Fin.ext (by match a with | ⟨0, _⟩ => rfl)
  rw [val_main_v24_apply, val_main_v23_apply, val_main_v22_apply, val_main_v21_apply, e1, score_eq,
    rowmax_eq]
  rfl

/-- A denominator entry: the row's exponentials summed from 0. -/
theorem denom_eq (n t : Fin 8192) :
    val_main_v27 (F := Ideal) x0 x1 x2 x3 x4 (ix2 n t)
      = 0 + ∑ t' : Fin 8192, Ideal.exp (Spec.score (Spec.proj x0 x1 x2) (Spec.proj x0 x3 x4) n t'
          - Spec.rowmax (Spec.score (Spec.proj x0 x1 x2) (Spec.proj x0 x3 x4) n)) := by
  have e1 : idx_main_v26 (idx_main_v27 (ix2 n t)) = ix1 n := funext fun a => Fin.ext (by match a with | ⟨0, _⟩ => rfl)
  have e2 : ∀ k : Fin 8192, idx_main_v25 (ix1 n) k = ix2 n k := fun k => funext fun a => Fin.ext (by match a with | ⟨0, _⟩ => rfl | ⟨1, _⟩ => rfl)
  have e0 : val_main_cst_2 (F := Ideal) (Shape.Idx.first h_S_) = (0 : EReal) := by
    rw [val_main_cst_2_apply]; exact Ideal.ofBits_zero_f32
  rw [val_main_v27_apply, val_main_v26_apply, e1, val_main_v25_apply, e0]
  simp only [e2, exp_eq]

/-- A softmax weight. -/
theorem weight_eq (n t : Fin 8192) :
    val_main_v28 (F := Ideal) x0 x1 x2 x3 x4 (ix2 n t)
      = Ideal.div
          (Ideal.exp (Spec.score (Spec.proj x0 x1 x2) (Spec.proj x0 x3 x4) n t
            - Spec.rowmax (Spec.score (Spec.proj x0 x1 x2) (Spec.proj x0 x3 x4) n)))
          (0 + ∑ t' : Fin 8192, Ideal.exp (Spec.score (Spec.proj x0 x1 x2) (Spec.proj x0 x3 x4) n t'
            - Spec.rowmax (Spec.score (Spec.proj x0 x1 x2) (Spec.proj x0 x3 x4) n))) := by
  rw [val_main_v28_apply, exp_eq, denom_eq]
  rfl

/-! ### The result -/

/-- The reference's last stage, read at an index, is the attention entry. -/
theorem out_eq (n : Fin 8192) (d : Fin 512) :
    val_main_v29 (F := Ideal) x0 x1 x2 x3 x4 x5 x6 (ix2 n d)
      = Spec.attn (Spec.proj x0 x1 x2) (Spec.proj x0 x3 x4) (Spec.proj x0 x5 x6) n d := by
  have e1 : ∀ k : Fin 8192, lidx_main_v29 (ix2 n d) k = ix2 n k := fun k => funext fun a => Fin.ext (by match a with | ⟨0, _⟩ => rfl | ⟨1, _⟩ => rfl)
  have e2 : ∀ k : Fin 8192, ridx_main_v29 (ix2 n d) k = ix2 k d := fun k => funext fun a => Fin.ext (by match a with | ⟨0, _⟩ => rfl | ⟨1, _⟩ => rfl)
  rw [val_main_v29_apply]
  simp only [e1, e2, weight_eq, proj_v]
  rfl

/-- The reference's last stage is the specification. -/
theorem ref_G :
    val_main_v29 (F := Ideal) x0 x1 x2 x3 x4 x5 x6 = Spec.G x0 x1 x2 x3 x4 x5 x6 := by
  funext i
  obtain ⟨n, d, rfl⟩ : ∃ (n : Fin 8192) (d : Fin 512), i = ix2 n d := ⟨i 0, i 1, eq_ix2 i⟩
  exact out_eq x0 x1 x2 x3 x4 x5 x6 n d

/-! ### The reference's run -/

/-- Every run of the reference ends with the result array equal to the specification of the
    argument arrays, and the arguments unchanged. -/
theorem ref_run
    (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal))
      (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v29)
            = Cert.Spec.G (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
              (m' ((c.tc : Thread Cert.ReferenceIdeal.nD Cert.ReferenceIdeal.τ).loc Cert.ReferenceIdeal.main_arg5))
              (m' ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run (Cert.ReferenceIdeal.defs (F := Ideal)) _ _).mono
    (fun _ h c => ⟨(h c).1.trans ((val_main_v29_eq m' c).trans (ref_G _ _ _ _ _ _ _)), (h c).2⟩)
    (Cert.ReferenceIdeal.Value.run (F := Ideal) m' ρ')

/-- The reference runs and leaves its arguments unchanged. -/
theorem frame_ri : Cert.frame_ReferenceIdeal :=
  fun m ρ _ => (θ_run (Cert.ReferenceIdeal.defs (F := Ideal)) _ _).mono (fun _ h c => (h c).2)
    (Cert.ReferenceIdeal.Value.run (F := Ideal) m ρ)

end Cert.RefSpec

end
-- ==== Proof.lean ====
/-
  The certificate of a single-head self-attention kernel against its jnp reference.

  The kernel program is a host prefix (the three weights transposed and concatenated side by side, the three biases
  concatenated), a projection region that multiplies each block of 1024 rows of z by the concatenated weight and adds
  the concatenated bias, writing the three column blocks as q, k, v, and an attention region that, for each block of
  2048 query rows, runs the online-softmax recursion over eight blocks of 1024 keys (running maximum from -∞, running
  denominator and numerator rescaled by exp (M_old - M_new)) and writes numerator / denominator at the last key block.
  The reference computes q, k, v by three matrix products, the full 8192 x 8192 score matrix, a row softmax and one
  more product.  On the extended reals both are the same function `Spec.G` of the seven arguments when every input
  entry is finite: the online recursion equals the softmax-weighted sum only where the common factor exp (max - M) can
  be cancelled, which needs finite scores.

  The three frame claims come from the programs' runs (the kernel program's, word-level and idealized, from one launch
  of its three segments; the reference's from its straight-line run); the ideal pass rewrote nothing, so `preserves`
  is trivial; `algebraic` pairs the two value runs at `Spec.G`.
-/
import proofs.«176492_j72395968741836_2_alg».proof.Defs
import proofs.«176492_j72395968741836_2_alg».proof.Proof.Gen.Kernel
import proofs.«176492_j72395968741836_2_alg».proof.Proof.Gen.KernelIdeal
import proofs.«176492_j72395968741836_2_alg».proof.Proof.Gen.ReferenceIdeal
import proofs.«176492_j72395968741836_2_alg».proof.Proof.Gen.Pre_finite_inputs
import proofs.«176492_j72395968741836_2_alg».proof.Proof.KRunMain
import proofs.«176492_j72395968741836_2_alg».proof.Proof.KIRunMain
import proofs.«176492_j72395968741836_2_alg».proof.Proof.KIFinal
import proofs.«176492_j72395968741836_2_alg».proof.Proof.RefSpec

noncomputable section

namespace Cert.Proof

open Idealize.ShloMosaic Idealize.SL.Sem

theorem frame_k : Cert.frame_Kernel := fun m ρ _ => Cert.Kernel.H.frame (F := Bits) m ρ
theorem frame_ki : Cert.frame_KernelIdeal := fun m ρ _ => Cert.KernelIdeal.H.frame (F := Ideal) m ρ

/-- Both idealized programs, from memories agreeing on the arguments, end with the result array at `Spec.G` of them. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.KernelIdeal.Final.kernel_run m ρ hpre, ?_⟩
  refine (θ_run (Cert.ReferenceIdeal.defs (F := Ideal)) _ _).mono (fun _ h c => ⟨(h c).1.trans ?_, (h c).2⟩) (Cert.RefSpec.ref_run m' ρ')
  rw [(hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, Cert.RefSpec.frame_ri, trivial, algebraic⟩

end Cert.Proof

end
